-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x2048x512 .f32) (main_arg1 : FVec F S512x512 .f32) (main_arg2 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x2048x512 : Shape := ⟨3, ![8, 2048, 512]⟩
abbrev S512x512 : Shape := ⟨2, ![512, 512]⟩
abbrev S512 : Shape := ⟨1, ![512]⟩
abbrev S1x512 : Shape := ⟨2, ![1, 512]⟩
abbrev S1x1024x512 : Shape := ⟨3, ![1, 1024, 512]⟩
abbrev S1x512x512 : Shape := ⟨3, ![1, 512, 512]⟩
abbrev S1024x512 : Shape := ⟨2, ![1024, 512]⟩
abbrev S1024x1 : Shape := ⟨2, ![1024, 1]⟩
abbrev S1024 : Shape := ⟨1, ![1024]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .bf16⟩
  | .hbm, ⟨4, _⟩ => ⟨S1x512, .f32⟩
  | .hbm, ⟨5, _⟩ => ⟨S8x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S512x512, .bf16⟩
  | .local _ .vmem, ⟨5, _⟩ => ⟨S1x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .bf16⟩
  | .local _ .vmem, ⟨9, _⟩ => ⟨S1024x1, .f32⟩
  | .local _ .vmem, ⟨10, _⟩ => ⟨S1024x1, .f32⟩
  | .local _ .vmem, ⟨11, _⟩ => ⟨S1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_20 : BitVec 32 := 0#32
  let v39 : BitVec 1 := Scalar.cmpi .ne v38 c0_i32_20
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S1024x512_S1024 : S1024x512.Reduces [1] S1024
  shapeCasts_S1024_S1024x1 : S1024.ShapeCasts S1024x1
  broadcasts_S1024x1_S1024x512 : S1024x1.Broadcasts S1024x512
  shapeCasts_S1024x512_S1x1024x512 : S1024x512.ShapeCasts S1x1024x512
  dot_S1024x512_S512x512_S1024x512_1_1_0_0_n_n_wf : DotDims.WF S1024x512 S512x512 S1024x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x2048x512.size a
  hwx0_0 : ∀ i : grid0.Coords, EltTy.bits .f32 = 32 ∨ (Rect.block (s := S8x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x2048x512.size a
  hwx0_1 : ∀ i : grid0.Coords, EltTy.bits .f32 = 32 ∨ (Rect.block (s := S8x2048x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S8x2048x512.size a
  hwx0_4 : ∀ i : grid0.Coords, EltTy.bits .f32 = 32 ∨ (Rect.block (s := S8x2048x512) S1x1024x512.size (cc0_transform_4 i) (hinb0_4 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S512x512 : Shape := ⟨2, ![512, 512]⟩
abbrev S512 : Shape := ⟨1, ![512]⟩
abbrev S1x1x512 : Shape := ⟨3, ![1, 1, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S8x2048x512, .f32⟩
  | .hbm, ⟨4, _⟩ => ⟨S1x1x512, .f32⟩
  | .hbm, ⟨5, _⟩ => ⟨S8x2048x512, .f32⟩
  | .hbm, ⟨6, _⟩ => ⟨S8x2048x512, .f32⟩
  | .hbm, ⟨7, _⟩ => ⟨S8x2048x512, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.FrameK.Kit.lean ====
/-
  The attention kernel's frame, part 1: @main up to the region, the windows' blocks, the two branch
  conditions of the body decided over the 64 grid points (the first key tile of a query tile resets the
  running statistics; the last one divides and stores), where the output window is idle, and the staging
  and scratch memrefs the body is called with.
-/
import proofs.«155556_j2886218023414_2_alg».proof.Proof.Gen.Kernel.Launch
import proofs.«155556_j2886218023414_2_alg».proof.Proof.Gen.Kernel.Skeleton
import proofs.«155556_j2886218023414_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the two host
    operations before it (the weight's change of format, the bias's reshape). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write their own results only: the three arguments are as launched. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results
theorem V_main_arg2 (c : Dev nD) : V m c main_arg2 = m ((c : Thread nD τ).loc main_arg2) := by
  dsimp only [V, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The first key tile of a query tile: the third grid coordinate is zero. -/
abbrev cond1 (i : grid0.Coords) : Prop := (Scalar.cmpi .ne (Scalar.extui (Scalar.cmpi .eq (BitVec.ofNat 32 (i 2).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- The last key tile of a query tile: the third grid coordinate is three. -/
abbrev cond2 (i : grid0.Coords) : Prop := k0_cond2 i = 1#1
theorem hcond2 : ∀ t : Fin cfg0.N, cond2 (grid0.coords t) ↔ t.val % 4 = 3 :=
  (by decide +kernel : ∀ t : Fin grid0.N, cond2 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Off the last key tile the body stores nothing into the output window, and the pipeline does not write it back. -/
theorem idleAt4 : ∀ t : Fin cfg0.N, ¬cond2 (grid0.coords t) → cfg0.idle 4 (grid0.coords t) = true := by decide +kernel
theorem noFlush4 : ∀ t : Fin cfg0.N, ¬cond2 (grid0.coords t) → (cfg0.win 4).flush t = false := by decide +kernel
/-- On the last key tile it stores the whole block. -/
theorem liveAt4 : ∀ t : Fin cfg0.N, cond2 (grid0.coords t) → cfg0.idle 4 (grid0.coords t) = false := by decide +kernel

/-! ## The memrefs the body is called with -/

abbrev ms0 (t : Fin cfg0.N) : Memref sig .tc .vmem S1x1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x512 .f32 := win0_4.stage (cfg0.slots t 4)
abbrev hs4 (t : Fin cfg0.N) : (ms4 t).IsWhole := hstage0_4 ((cfg0.slots t 4).cast nbuf0_4)
/-- The four scratch buffers: the projected queries, the running maximum, the running denominator, the running numerator. -/
abbrev scQ : Memref sig .tc .vmem S1024x512 .bf16 := Memref.whole cc0_scratch0
abbrev scM : Memref sig .tc .vmem S1024x1 .f32 := Memref.whole cc0_scratch1
abbrev scL : Memref sig .tc .vmem S1024x1 .f32 := Memref.whole cc0_scratch2
abbrev scA : Memref sig .tc .vmem S1024x512 .f32 := Memref.whole cc0_scratch3
/-- One staging buffer of the output window, through which its contents are stated. -/
abbrev VO4 : View sig .tc .vmem S1x1024x512 .f32 := (Memref.whole cc0_stg4_0 : Memref sig .tc .vmem S1x1024x512 .f32).view

/-- The class invariant with the four scratch buffers as memrefs owned at some contents. -/
theorem PhiA0_eq (c : Dev nD) :
    (Pipeline.ΦA spec0 c : sProp 𝕄)
      = iprop(iprop((∃ d, owns (c : Thread nD τ) scQ fullShare d) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scQ, scM, scL, scA, owns_whole]; try rfl

end Cert.Kernel.Hand

end
-- ==== Proof.FrameK.RunA.lean ====
/-
  The attention kernel's body run whole at a FIRST key tile (the statistics are reset, then updated
  with the tile; nothing is stored into the output window): on whole memrefs, the four input blocks at
  their contents and the output's buffer handed back untouched, each of the four scratch buffers ends
  with the pieces the body's stores wrote into it.
-/
import proofs.«155556_j2886218023414_2_alg».proof.Proof.FrameK.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a first key tile: the pieces each scratch buffer ends with, and the triple. -/
noncomputable def kernelRunA (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i)
    (x0 : Vec F S1x1024x512 .f32) (x1 : Vec F S1x512x512 .f32) (x2 : Vec F S512x512 .bf16) (x3 : Vec F S1x512 .f32) :
    Σ' (LQ : List (View.Piece (Elt F) S1024x512 .bf16)) (LM : List (View.Piece (Elt F) S1024x1 .f32)) (LL : List (View.Piece (Elt F) S1024x1 .f32)), { LA : List (View.Piece (Elt F) S1024x512 .f32) //
      ∀ (xi4 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LL) ∗ (∃ f, arg11.view.loc (c : Thread nD τ) ↦[arg11.view.set]{fullShare} arg11.view.writes (Elt F) f LA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    haveI : Fact (cond1 i) := ⟨hc1⟩
    haveI : Fact (¬cond2 i) := ⟨hc2⟩
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dQ, %fQ, -, HQ⟩, ⟨%dM, %fM, -, HM⟩, ⟨%dL, %fL, -, HL⟩, ⟨%dA, %fA, -, HA⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HQ]; · iexists _; iexact HQ
    isplitl [HM]; · iexists _; iexact HM
    isplitl [HL]; · iexists _; iexact HL
    iexists _; iexact HA

end Cert.Kernel.Hand

end
-- ==== Proof.FrameK.RunB.lean ====
/-
  The attention kernel's body run whole at a MIDDLE key tile (the statistics are updated with the
  tile; the query scratch is only read; nothing is stored into the output window).
-/
import proofs.«155556_j2886218023414_2_alg».proof.Proof.FrameK.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle key tile: the pieces the three running statistics end with, and the triple. -/
noncomputable def kernelRunB (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i)
    (x1 : Vec F S1x512x512 .f32)
    (xq : Vec F S1024x512 .bf16) (xm : Vec F S1024x1 .f32) (xl : Vec F S1024x1 .f32) (xa : Vec F S1024x512 .f32) :
    Σ' (LM : List (View.Piece (Elt F) S1024x1 .f32)) (LL : List (View.Piece (Elt F) S1024x1 .f32)), { LA : List (View.Piece (Elt F) S1024x512 .f32) //
      ∀ (x0 : Vec F S1x1024x512 .f32) (x2 : Vec F S512x512 .bf16) (x3 : Vec F S1x512 .f32) (xi4 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xq ∗ owns (c : Thread nD τ) arg9 fullShare xm ∗ owns (c : Thread nD τ) arg10 fullShare xl ∗ owns (c : Thread nD τ) arg11 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ owns (c : Thread nD τ) arg8 fullShare xq ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LL) ∗ (∃ f, arg11.view.loc (c : Thread nD τ) ↦[arg11.view.set]{fullShare} arg11.view.writes (Elt F) f LA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun x0 x2 x3 xi4 E K => ?run⟩
  case run =>
    haveI : Fact (¬cond1 i) := ⟨hc1⟩
    haveI : Fact (¬cond2 i) := ⟨hc2⟩
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fQ, %hfQ, HQ⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfQ; obtain rfl := harg9.eq_unread hfM; obtain rfl := harg10.eq_unread hfL; obtain rfl := harg11.eq_unread hfA
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HQ]
    · iexists _; isplitr; · ipureintro; exact harg8.read_unread _
      iexact HQ
    isplitl [HM]; · iexists _; iexact HM
    isplitl [HL]; · iexists _; iexact HL
    iexists _; iexact HA

end Cert.Kernel.Hand

end
-- ==== Proof.FrameK.RunC.lean ====
/-
  The attention kernel's body run whole at a LAST key tile (the statistics are updated with the tile,
  then the numerator divided by the denominator is stored into the output window's whole block).
-/
import proofs.«155556_j2886218023414_2_alg».proof.Proof.FrameK.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a last key tile: the pieces the output block and the three running statistics end with, and the triple. -/
noncomputable def kernelRunC (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i)
    (x1 : Vec F S1x512x512 .f32)
    (xq : Vec F S1024x512 .bf16) (xm : Vec F S1024x1 .f32) (xl : Vec F S1024x1 .f32) (xa : Vec F S1024x512 .f32) :
    Σ' (LO : List (View.Piece (Elt F) S1x1024x512 .f32)) (LM : List (View.Piece (Elt F) S1024x1 .f32)) (LL : List (View.Piece (Elt F) S1024x1 .f32)), { LA : List (View.Piece (Elt F) S1024x512 .f32) //
      ∀ (x0 : Vec F S1x1024x512 .f32) (x2 : Vec F S512x512 .bf16) (x3 : Vec F S1x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xq ∗ owns (c : Thread nD τ) arg9 fullShare xm ∗ owns (c : Thread nD τ) arg10 fullShare xl ∗ owns (c : Thread nD τ) arg11 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO)
                ∗ owns (c : Thread nD τ) arg8 fullShare xq ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LL) ∗ (∃ f, arg11.view.loc (c : Thread nD τ) ↦[arg11.view.set]{fullShare} arg11.view.writes (Elt F) f LA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun x0 x2 x3 E K => ?run⟩
  case run =>
    haveI : Fact (¬cond1 i) := ⟨hc1⟩
    haveI : Fact (cond2 i) := ⟨hc2⟩
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fQ, %hfQ, HQ⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg6.eq_unread hf3
    obtain rfl := harg8.eq_unread hfQ; obtain rfl := harg9.eq_unread hfM; obtain rfl := harg10.eq_unread hfL; obtain rfl := harg11.eq_unread hfA
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HQ]
    · iexists _; isplitr; · ipureintro; exact harg8.read_unread _
      iexact HQ
    isplitl [HM]; · iexists _; iexact HM
    isplitl [HL]; · iexists _; iexact HL
    iexists _; iexact HA

end Cert.Kernel.Hand

end
-- ==== Proof.FrameK.Body.lean ====
/-
  The attention kernel's frame, part 3: what the four scratch buffers (projected queries, running
  maximum, running denominator, running numerator) and the output block hold after every grid point,
  by recursion on the point — a first key tile resets and updates, a later one updates what the point
  before left, the last one also stores the quotient —; the proof data; the body obligation; how the
  input array read through two windows is shared between them; the run and the frame.
-/
import proofs.«155556_j2886218023414_2_alg».proof.Proof.FrameK.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views through which the scratch buffers' contents are stated. -/
abbrev VQ : View sig .tc .vmem S1024x512 .bf16 := (scQ : Memref sig .tc .vmem S1024x512 .bf16).view
abbrev VM : View sig .tc .vmem S1024x1 .f32 := (scM : Memref sig .tc .vmem S1024x1 .f32).view
abbrev VL : View sig .tc .vmem S1024x1 .f32 := (scL : Memref sig .tc .vmem S1024x1 .f32).view
abbrev VA : View sig .tc .vmem S1024x512 .f32 := (scA : Memref sig .tc .vmem S1024x512 .f32).view

/-- The carried state: projected queries, running maximum, running denominator, running numerator. -/
abbrev St (F : FTy → Type) [FloatOps F] : Type := Vec F S1024x512 .bf16 × Vec F S1024x1 .f32 × Vec F S1024x1 .f32 × Vec F S1024x512 .f32

/-! ## Every case's stores cover the buffers they fill -/

theorem coverA_Q (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) (y : S1024x512.Idx) :
    ∃ pc ∈ (kernelRunA c i arg3 harg3 arg4 harg4 arg5 harg5 arg6 harg6 arg7 harg7 arg8 harg8 arg9 harg9 arg10 harg10 arg11 harg11 hc1 hc2 x0 x1 x2 x3).1, y ∈ pc.1.set :=
  View.cover_of_tiledL (kernelRunA c i arg3 harg3 arg4 harg4 arg5 harg5 arg6 harg6 arg7 harg7 arg8 harg8 arg9 harg9 arg10 harg10 arg11 harg11 hc1 hc2 x0 x1 x2 x3).1 S1024x512.size (by sl_kernel_rfl) y

theorem coverA_M (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) (y : S1024x1.Idx) :
    ∃ pc ∈ (kernelRunA c i arg3 harg3 arg4 harg4 arg5 harg5 arg6 harg6 arg7 harg7 arg8 harg8 arg9 harg9 arg10 harg10 arg11 harg11 hc1 hc2 x0 x1 x2 x3).2.1, y ∈ pc.1.set :=
  View.cover_of_tiledL (kernelRunA c i arg3 harg3 arg4 harg4 arg5 harg5 arg6 harg6 arg7 harg7 arg8 harg8 arg9 harg9 arg10 harg10 arg11 harg11 hc1 hc2 x0 x1 x2 x3).2.1 S1024x1.size (by sl_kernel_rfl) y

theorem coverA_L (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) (y : S1024x1.Idx) :
    ∃ pc ∈ (kernelRunA c i arg3 harg3 arg4 harg4 arg5 harg5 arg6 harg6 arg7 harg7 arg8 harg8 arg9 harg9 arg10 harg10 arg11 harg11 hc1 hc2 x0 x1 x2 x3).2.2.1, y ∈ pc.1.set :=
  View.cover_of_tiledL (kernelRunA c i arg3 harg3 arg4 harg4 arg5 harg5 arg6 harg6 arg7 harg7 arg8 harg8 arg9 harg9 arg10 harg10 arg11 harg11 hc1 hc2 x0 x1 x2 x3).2.2.1 S1024x1.size (by sl_kernel_rfl) y

theorem coverA_A (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) (y : S1024x512.Idx) :
    ∃ pc ∈ (kernelRunA c i arg3 harg3 arg4 harg4 arg5 harg5 arg6 harg6 arg7 harg7 arg8 harg8 arg9 harg9 arg10 harg10 arg11 harg11 hc1 hc2 x0 x1 x2 x3).2.2.2.1, y ∈ pc.1.set :=
  View.cover_of_tiledL (kernelRunA c i arg3 harg3 arg4 harg4 arg5 harg5 arg6 harg6 arg7 harg7 arg8 harg8 arg9 harg9 arg10 harg10 arg11 harg11 hc1 hc2 x0 x1 x2 x3).2.2.2.1 S1024x512.size (by sl_kernel_rfl) y

theorem coverB_M (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) (y : S1024x1.Idx) :
    ∃ pc ∈ (kernelRunB c i arg3 harg3 arg4 harg4 arg5 harg5 arg6 harg6 arg7 harg7 arg8 harg8 arg9 harg9 arg10 harg10 arg11 harg11 hc1 hc2 x1 xq xm xl xa).1, y ∈ pc.1.set :=
  View.cover_of_tiledL (kernelRunB c i arg3 harg3 arg4 harg4 arg5 harg5 arg6 harg6 arg7 harg7 arg8 harg8 arg9 harg9 arg10 harg10 arg11 harg11 hc1 hc2 x1 xq xm xl xa).1 S1024x1.size (by sl_kernel_rfl) y

theorem coverB_L (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) (y : S1024x1.Idx) :
    ∃ pc ∈ (kernelRunB c i arg3 harg3 arg4 harg4 arg5 harg5 arg6 harg6 arg7 harg7 arg8 harg8 arg9 harg9 arg10 harg10 arg11 harg11 hc1 hc2 x1 xq xm xl xa).2.1, y ∈ pc.1.set :=
  View.cover_of_tiledL (kernelRunB c i arg3 harg3 arg4 harg4 arg5 harg5 arg6 harg6 arg7 harg7 arg8 harg8 arg9 harg9 arg10 harg10 arg11 harg11 hc1 hc2 x1 xq xm xl xa).2.1 S1024x1.size (by sl_kernel_rfl) y

theorem coverB_A (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) (y : S1024x512.Idx) :
    ∃ pc ∈ (kernelRunB c i arg3 harg3 arg4 harg4 arg5 harg5 arg6 harg6 arg7 harg7 arg8 harg8 arg9 harg9 arg10 harg10 arg11 harg11 hc1 hc2 x1 xq xm xl xa).2.2.1, y ∈ pc.1.set :=
  View.cover_of_tiledL (kernelRunB c i arg3 harg3 arg4 harg4 arg5 harg5 arg6 harg6 arg7 harg7 arg8 harg8 arg9 harg9 arg10 harg10 arg11 harg11 hc1 hc2 x1 xq xm xl xa).2.2.1 S1024x512.size (by sl_kernel_rfl) y

theorem coverC_O (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) (y : S1x1024x512.Idx) :
    ∃ pc ∈ (kernelRunC c i arg3 harg3 arg4 harg4 arg5 harg5 arg6 harg6 arg7 harg7 arg8 harg8 arg9 harg9 arg10 harg10 arg11 harg11 hc1 hc2 x1 xq xm xl xa).1, y ∈ pc.1.set :=
  View.cover_of_tiledL (kernelRunC c i arg3 harg3 arg4 harg4 arg5 harg5 arg6 harg6 arg7 harg7 arg8 harg8 arg9 harg9 arg10 harg10 arg11 harg11 hc1 hc2 x1 xq xm xl xa).1 S1x1024x512.size (by sl_kernel_rfl) y

theorem coverC_M (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) (y : S1024x1.Idx) :
    ∃ pc ∈ (kernelRunC c i arg3 harg3 arg4 harg4 arg5 harg5 arg6 harg6 arg7 harg7 arg8 harg8 arg9 harg9 arg10 harg10 arg11 harg11 hc1 hc2 x1 xq xm xl xa).2.1, y ∈ pc.1.set :=
  View.cover_of_tiledL (kernelRunC c i arg3 harg3 arg4 harg4 arg5 harg5 arg6 harg6 arg7 harg7 arg8 harg8 arg9 harg9 arg10 harg10 arg11 harg11 hc1 hc2 x1 xq xm xl xa).2.1 S1024x1.size (by sl_kernel_rfl) y

theorem coverC_L (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) (y : S1024x1.Idx) :
    ∃ pc ∈ (kernelRunC c i arg3 harg3 arg4 harg4 arg5 harg5 arg6 harg6 arg7 harg7 arg8 harg8 arg9 harg9 arg10 harg10 arg11 harg11 hc1 hc2 x1 xq xm xl xa).2.2.1, y ∈ pc.1.set :=
  View.cover_of_tiledL (kernelRunC c i arg3 harg3 arg4 harg4 arg5 harg5 arg6 harg6 arg7 harg7 arg8 harg8 arg9 harg9 arg10 harg10 arg11 harg11 hc1 hc2 x1 xq xm xl xa).2.2.1 S1024x1.size (by sl_kernel_rfl) y

theorem coverC_A (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) (y : S1024x512.Idx) :
    ∃ pc ∈ (kernelRunC c i arg3 harg3 arg4 harg4 arg5 harg5 arg6 harg6 arg7 harg7 arg8 harg8 arg9 harg9 arg10 harg10 arg11 harg11 hc1 hc2 x1 xq xm xl xa).2.2.2.1, y ∈ pc.1.set :=
  View.cover_of_tiledL (kernelRunC c i arg3 harg3 arg4 harg4 arg5 harg5 arg6 harg6 arg7 harg7 arg8 harg8 arg9 harg9 arg10 harg10 arg11 harg11 hc1 hc2 x1 xq xm xl xa).2.2.2.1 S1024x512.size (by sl_kernel_rfl) y

/-! ## What each case leaves: its pieces read back -/

/-- After a first key tile. -/
def stA (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) : St F :=
  (VQ.read (Elt F) (VQ.writes (Elt F) VQ.junk (kernelRunA c i arg3 harg3 arg4 harg4 arg5 harg5 arg6 harg6 arg7 harg7 arg8 harg8 arg9 harg9 arg10 harg10 arg11 harg11 hc1 hc2 x0 x1 x2 x3).1),
   VM.read (Elt F) (VM.writes (Elt F) VM.junk (kernelRunA c i arg3 harg3 arg4 harg4 arg5 harg5 arg6 harg6 arg7 harg7 arg8 harg8 arg9 harg9 arg10 harg10 arg11 harg11 hc1 hc2 x0 x1 x2 x3).2.1),
   VL.read (Elt F) (VL.writes (Elt F) VL.junk (kernelRunA c i arg3 harg3 arg4 harg4 arg5 harg5 arg6 harg6 arg7 harg7 arg8 harg8 arg9 harg9 arg10 harg10 arg11 harg11 hc1 hc2 x0 x1 x2 x3).2.2.1),
   VA.read (Elt F) (VA.writes (Elt F) VA.junk (kernelRunA c i arg3 harg3 arg4 harg4 arg5 harg5 arg6 harg6 arg7 harg7 arg8 harg8 arg9 harg9 arg10 harg10 arg11 harg11 hc1 hc2 x0 x1 x2 x3).2.2.2.1))

/-- After a middle key tile (the queries are kept). -/
def stB (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) : St F :=
  (xq,
   VM.read (Elt F) (VM.writes (Elt F) VM.junk (kernelRunB c i arg3 harg3 arg4 harg4 arg5 harg5 arg6 harg6 arg7 harg7 arg8 harg8 arg9 harg9 arg10 harg10 arg11 harg11 hc1 hc2 x1 xq xm xl xa).1),
   VL.read (Elt F) (VL.writes (Elt F) VL.junk (kernelRunB c i arg3 harg3 arg4 harg4 arg5 harg5 arg6 harg6 arg7 harg7 arg8 harg8 arg9 harg9 arg10 harg10 arg11 harg11 hc1 hc2 x1 xq xm xl xa).2.1),
   VA.read (Elt F) (VA.writes (Elt F) VA.junk (kernelRunB c i arg3 harg3 arg4 harg4 arg5 harg5 arg6 harg6 arg7 harg7 arg8 harg8 arg9 harg9 arg10 harg10 arg11 harg11 hc1 hc2 x1 xq xm xl xa).2.2.1))

/-- After a last key tile: the output block, and the state. -/
def stC (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) : Vec F S1x1024x512 .f32 × St F :=
  (VO4.read (Elt F) (VO4.writes (Elt F) VO4.junk (kernelRunC c i arg3 harg3 arg4 harg4 arg5 harg5 arg6 harg6 arg7 harg7 arg8 harg8 arg9 harg9 arg10 harg10 arg11 harg11 hc1 hc2 x1 xq xm xl xa).1),
   (xq,
    VM.read (Elt F) (VM.writes (Elt F) VM.junk (kernelRunC c i arg3 harg3 arg4 harg4 arg5 harg5 arg6 harg6 arg7 harg7 arg8 harg8 arg9 harg9 arg10 harg10 arg11 harg11 hc1 hc2 x1 xq xm xl xa).2.1),
    VL.read (Elt F) (VL.writes (Elt F) VL.junk (kernelRunC c i arg3 harg3 arg4 harg4 arg5 harg5 arg6 harg6 arg7 harg7 arg8 harg8 arg9 harg9 arg10 harg10 arg11 harg11 hc1 hc2 x1 xq xm xl xa).2.2.1),
    VA.read (Elt F) (VA.writes (Elt F) VA.junk (kernelRunC c i arg3 harg3 arg4 harg4 arg5 harg5 arg6 harg6 arg7 harg7 arg8 harg8 arg9 harg9 arg10 harg10 arg11 harg11 hc1 hc2 x1 xq xm xl xa).2.2.2.1)))

/-- The same at a grid point, on the memrefs and blocks the pipeline passes there. -/
def atA (c : Dev nD) (t : Fin cfg0.N) (h1 : cond1 (grid0.coords t)) (h2 : ¬cond2 (grid0.coords t)) : St F :=
  stA c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) h1 h2 (iblk m c 0 t) (iblk m c 1 t) (iblk m c 2 t) (iblk m c 3 t)
def atB (c : Dev nD) (t : Fin cfg0.N) (h1 : ¬cond1 (grid0.coords t)) (h2 : ¬cond2 (grid0.coords t)) (s : St F) : St F :=
  stB c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) h1 h2 (iblk m c 1 t) s.1 s.2.1 s.2.2.1 s.2.2.2
def atC (c : Dev nD) (t : Fin cfg0.N) (h1 : ¬cond1 (grid0.coords t)) (h2 : cond2 (grid0.coords t)) (s : St F) : Vec F S1x1024x512 .f32 × St F :=
  stC c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) h1 h2 (iblk m c 1 t) s.1 s.2.1 s.2.2.1 s.2.2.2

/-- A placeholder for the output block at the points that store nothing into it (never consulted). -/
def noOut : Vec F S1x1024x512 .f32 := VO4.read (Elt F) VO4.junk

/-! ## The output block and the state after each point -/

def outsAt (c : Dev nD) : (n : ℕ) → n < cfg0.N → Vec F S1x1024x512 .f32 × St F
  | 0, hn => (noOut, atA m c ⟨0, hn⟩ ((hcond1 ⟨0, hn⟩).mpr (Nat.zero_mod _)) (fun h => absurd ((hcond2 ⟨0, hn⟩).mp h) (by show ¬ 0 % 4 = 3; decide)))
  | n + 1, hn =>
    if h0 : (n + 1) % 4 = 0 then
      (noOut, atA m c ⟨n + 1, hn⟩ ((hcond1 ⟨n + 1, hn⟩).mpr h0) (fun h => absurd ((hcond2 ⟨n + 1, hn⟩).mp h) (by show ¬ (n + 1) % 4 = 3; omega)))
    else if h3 : (n + 1) % 4 = 3 then
      atC m c ⟨n + 1, hn⟩ (fun h => h0 ((hcond1 ⟨n + 1, hn⟩).mp h)) ((hcond2 ⟨n + 1, hn⟩).mpr h3) (outsAt c n (Nat.lt_of_succ_lt hn)).2
    else
      (noOut, atB m c ⟨n + 1, hn⟩ (fun h => h0 ((hcond1 ⟨n + 1, hn⟩).mp h)) (fun h => h3 ((hcond2 ⟨n + 1, hn⟩).mp h)) (outsAt c n (Nat.lt_of_succ_lt hn)).2)

theorem outsAt_A (c : Dev nD) (t : Fin cfg0.N) (h0 : t.val % 4 = 0) :
    outsAt m c t.val t.isLt = (noOut, atA m c t ((hcond1 t).mpr h0) (fun h => absurd ((hcond2 t).mp h) (by omega))) := by
  obtain ⟨n, hn⟩ := t
  cases n with
  | zero => rfl
  | succ n => exact (dif_pos h0).trans rfl

theorem outsAt_B (c : Dev nD) (t : Fin cfg0.N) (h0 : ¬t.val % 4 = 0) (h3 : ¬t.val % 4 = 3) :
    outsAt m c t.val t.isLt = (noOut, atB m c t (fun h => h0 ((hcond1 t).mp h)) (fun h => h3 ((hcond2 t).mp h))
      (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

theorem outsAt_C (c : Dev nD) (t : Fin cfg0.N) (h0 : ¬t.val % 4 = 0) (h3 : t.val % 4 = 3) :
    outsAt m c t.val t.isLt = atC m c t (fun h => h0 ((hcond1 t).mp h)) ((hcond2 t).mpr h3)
      (outsAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans rfl)

/-! ## The invariant between points -/

/-- The scoped rest as the four scratch memrefs, each owned at some contents. -/
theorem scopedRest_owns (c : Dev nD) :
    (Pipeline.scopedRest spec0 c : sProp 𝕄)
      = iprop((∃ d, owns (c : Thread nD τ) scQ fullShare d) ∗ (∃ d, owns (c : Thread nD τ) scM fullShare d) ∗ (∃ d, owns (c : Thread nD τ) scL fullShare d) ∗ (∃ d, owns (c : Thread nD τ) scA fullShare d)) := by
  rw [scopedRest0_eq]; simp only [scQ, scM, scL, scA, owns_whole]; try rfl

/-- Before the first point the scratch buffers hold anything; before any later point, what the point before left. -/
def PhiS (c : Dev nD) : (n : ℕ) → n ≤ cfg0.N → sProp 𝕄
  | 0, _ => Pipeline.scopedRest spec0 c
  | n + 1, hn => iprop(owns (c : Thread nD τ) scQ fullShare (outsAt m c n hn).2.1 ∗ owns (c : Thread nD τ) scM fullShare (outsAt m c n hn).2.2.1 ∗ owns (c : Thread nD τ) scL fullShare (outsAt m c n hn).2.2.2.1 ∗ owns (c : Thread nD τ) scA fullShare (outsAt m c n hn).2.2.2.2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scQ fullShare (outsAt m c n hn).2.1 ∗ owns (c : Thread nD τ) scM fullShare (outsAt m c n hn).2.2.1 ∗ owns (c : Thread nD τ) scL fullShare (outsAt m c n hn).2.2.2.1 ∗ owns (c : Thread nD τ) scA fullShare (outsAt m c n hn).2.2.2.2) := rfl

theorem PhiS_pos (c : Dev nD) (n : ℕ) (h : n ≤ cfg0.N) (hz : n ≠ 0) :
    PhiS m c n h = iprop(owns (c : Thread nD τ) scQ fullShare (outsAt m c (n - 1) (by omega)).2.1 ∗ owns (c : Thread nD τ) scM fullShare (outsAt m c (n - 1) (by omega)).2.2.1 ∗ owns (c : Thread nD τ) scL fullShare (outsAt m c (n - 1) (by omega)).2.2.2.1 ∗ owns (c : Thread nD τ) scA fullShare (outsAt m c (n - 1) (by omega)).2.2.2.2) := by
  cases n with
  | zero => exact absurd rfl hz
  | succ n => rfl

/-! ## The proof data -/

/-- The arrays as the region finds them; after the body each input's buffer at its block and the output's at
    the recursion's block; the invariant above; nothing owed. The input array read through two windows is
    held half by each; every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]

set_option maxHeartbeats 4800000 in
/-- The body at any point: the inputs' buffers hold their blocks; the point's position among the four key tiles
    of its query tile says which case runs; the invariant hands the body the scratch buffers at what the point
    before left (at anything before a first key tile) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves0, leaves1, leaves2, leaves3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have hc1 : cond1 (grid0.coords t) := (hcond1 t).mpr h0
    have hc2 : ¬cond2 (grid0.coords t) := fun h => absurd ((hcond2 t).mp h) (by omega)
    rw [Dat.leavesExact_idle (dats m 0 c) 4 t (idleAt4 t hc2) (noFlush4 t hc2)]
    rw [outsAt_A m c t h0]
    unfold atA stA; (try dsimp only)
    by_cases hz : t.val = 0
    · rw [PhiS_castSucc m c t, PhiS_zero m c _ _ hz, scopedRest_owns]
      iintro ⟨⟨HQ, HM, HL, HA⟩, Ho, ⟨%d0, H0⟩, ⟨%d1, H1⟩, ⟨%d2, H2⟩, ⟨%d3, H3⟩, ⟨%d4, H4⟩⟩
      iapply ((kernelRunA c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) hc1 hc2 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HQ]; · iexact HQ
      isplitl [HM]; · iexact HM
      isplitl [HL]; · iexact HL
      isplitl [HA]; · iexact HA
      iintro ⟨H0, H1, H2, H3, H4, ⟨%eQ, HQ⟩, ⟨%eM, HM⟩, ⟨%eL, HL⟩, ⟨%eA, HA⟩⟩
      isplitl [HQ HM HL HA]
      · isplitl [HQ]
        · unfold owns; iexists _; isplitr
          swap; · iexact HQ
          ipureintro; exact View.read_writes_of_cover _ _ _ _ _ (coverA_Q c _ _ _ _ _ _ _ _ _ _ _ _ _ _ _ _ _ _ _ _ _ _ _ _ _)
        isplitl [HM]
        · unfold owns; iexists _; isplitr
          swap; · iexact HM
          ipureintro; exact View.read_writes_of_cover _ _ _ _ _ (coverA_M c _ _ _ _ _ _ _ _ _ _ _ _ _ _ _ _ _ _ _ _ _ _ _ _ _)
        isplitl [HL]
        · unfold owns; iexists _; isplitr
          swap; · iexact HL
          ipureintro; exact View.read_writes_of_cover _ _ _ _ _ (coverA_L c _ _ _ _ _ _ _ _ _ _ _ _ _ _ _ _ _ _ _ _ _ _ _ _ _)
        unfold owns; iexists _; isplitr
        swap; · iexact HA
        ipureintro; exact View.read_writes_of_cover _ _ _ _ _ (coverA_A c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HQ, HM, HL, HA⟩, Ho, ⟨%d0, H0⟩, ⟨%d1, H1⟩, ⟨%d2, H2⟩, ⟨%d3, H3⟩, ⟨%d4, H4⟩⟩
      iapply ((kernelRunA c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) hc1 hc2 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HQ]; · iexists _; iexact HQ
      isplitl [HM]; · iexists _; iexact HM
      isplitl [HL]; · iexists _; iexact HL
      isplitl [HA]; · iexists _; iexact HA
      iintro ⟨H0, H1, H2, H3, H4, ⟨%eQ, HQ⟩, ⟨%eM, HM⟩, ⟨%eL, HL⟩, ⟨%eA, HA⟩⟩
      isplitl [HQ HM HL HA]
      · isplitl [HQ]
        · unfold owns; iexists _; isplitr
          swap; · iexact HQ
          ipureintro; exact View.read_writes_of_cover _ _ _ _ _ (coverA_Q c _ _ _ _ _ _ _ _ _ _ _ _ _ _ _ _ _ _ _ _ _ _ _ _ _)
        isplitl [HM]
        · unfold owns; iexists _; isplitr
          swap; · iexact HM
          ipureintro; exact View.read_writes_of_cover _ _ _ _ _ (coverA_M c _ _ _ _ _ _ _ _ _ _ _ _ _ _ _ _ _ _ _ _ _ _ _ _ _)
        isplitl [HL]
        · unfold owns; iexists _; isplitr
          swap; · iexact HL
          ipureintro; exact View.read_writes_of_cover _ _ _ _ _ (coverA_L c _ _ _ _ _ _ _ _ _ _ _ _ _ _ _ _ _ _ _ _ _ _ _ _ _)
        unfold owns; iexists _; isplitr
        swap; · iexact HA
        ipureintro; exact View.read_writes_of_cover _ _ _ _ _ (coverA_A c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hc1 : ¬cond1 (grid0.coords t) := fun h => h0 ((hcond1 t).mp h)
    have hz : t.val ≠ 0 := fun h => h0 (by rw [h])
    by_cases h3 : t.val % 4 = 3
    · have hc2 : cond2 (grid0.coords t) := (hcond2 t).mpr h3
      rw [show (dats m 0 c).leavesExact 4 t = owns (c : Thread nD τ) (ms4 t) fullShare ((dats m 0 c).after 4 t) from by
        unfold Dat.leavesExact; rw [liveAt4 t hc2], after4]
      rw [outsAt_C m c t h0 h3]
      unfold atC stC; (try dsimp only)
      rw [PhiS_castSucc m c t, PhiS_pos m c _ _ hz]
      iintro ⟨⟨HQ, HM, HL, HA⟩, Ho, ⟨%d0, H0⟩, ⟨%d1, H1⟩, ⟨%d2, H2⟩, ⟨%d3, H3⟩, ⟨%d4, H4⟩⟩
      iapply ((kernelRunC c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) hc1 hc2 (iblk m c 1 t) _ _ _ _).2.2.2.2 _ _ _ Set.univ _)
      isplitl [H0]; · iexact H0
      isplitl [H1]; · iexact H1
      isplitl [H2]; · iexact H2
      isplitl [H3]; · iexact H3
      isplitl [H4]; · iexists _; iexact H4
      isplitl [HQ]; · iexact HQ
      isplitl [HM]; · iexact HM
      isplitl [HL]; · iexact HL
      isplitl [HA]; · iexact HA
      iintro ⟨H0, H1, H2, H3, ⟨%e4, H4⟩, HQ, ⟨%eM, HM⟩, ⟨%eL, HL⟩, ⟨%eA, HA⟩⟩
      isplitl [HQ HM HL HA]
      · isplitl [HQ]; · iexact HQ
        isplitl [HM]
        · unfold owns; iexists _; isplitr
          swap; · iexact HM
          ipureintro; exact View.read_writes_of_cover _ _ _ _ _ (coverC_M c _ _ _ _ _ _ _ _ _ _ _ _ _ _ _ _ _ _ _ _ _ _ _ _ _ _)
        isplitl [HL]
        · unfold owns; iexists _; isplitr
          swap; · iexact HL
          ipureintro; exact View.read_writes_of_cover _ _ _ _ _ (coverC_L c _ _ _ _ _ _ _ _ _ _ _ _ _ _ _ _ _ _ _ _ _ _ _ _ _ _)
        unfold owns; iexists _; isplitr
        swap; · iexact HA
        ipureintro; exact View.read_writes_of_cover _ _ _ _ _ (coverC_A c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_O c _ _ _ _ _ _ _ _ _ _ _ _ _ _ _ _ _ _ _ _ _ _ _ _ _ _)
    · have hc2 : ¬cond2 (grid0.coords t) := fun h => h3 ((hcond2 t).mp h)
      rw [Dat.leavesExact_idle (dats m 0 c) 4 t (idleAt4 t hc2) (noFlush4 t hc2)]
      rw [outsAt_B m c t h0 h3]
      unfold atB stB; (try dsimp only)
      rw [PhiS_castSucc m c t, PhiS_pos m c _ _ hz]
      iintro ⟨⟨HQ, HM, HL, HA⟩, Ho, ⟨%d0, H0⟩, ⟨%d1, H1⟩, ⟨%d2, H2⟩, ⟨%d3, H3⟩, ⟨%d4, H4⟩⟩
      iapply ((kernelRunB c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) hc1 hc2 (iblk m c 1 t) _ _ _ _).2.2.2 _ _ _ _ Set.univ _)
      isplitl [H0]; · iexact H0
      isplitl [H1]; · iexact H1
      isplitl [H2]; · iexact H2
      isplitl [H3]; · iexact H3
      isplitl [H4]; · iexact H4
      isplitl [HQ]; · iexact HQ
      isplitl [HM]; · iexact HM
      isplitl [HL]; · iexact HL
      isplitl [HA]; · iexact HA
      iintro ⟨H0, H1, H2, H3, H4, HQ, ⟨%eM, HM⟩, ⟨%eL, HL⟩, ⟨%eA, HA⟩⟩
      isplitl [HQ HM HL HA]
      · isplitl [HQ]; · iexact HQ
        isplitl [HM]
        · unfold owns; iexists _; isplitr
          swap; · iexact HM
          ipureintro; exact View.read_writes_of_cover _ _ _ _ _ (coverB_M c _ _ _ _ _ _ _ _ _ _ _ _ _ _ _ _ _ _ _ _ _ _ _ _ _ _)
        isplitl [HL]
        · unfold owns; iexists _; isplitr
          swap; · iexact HL
          ipureintro; exact View.read_writes_of_cover _ _ _ _ _ (coverB_L c _ _ _ _ _ _ _ _ _ _ _ _ _ _ _ _ _ _ _ _ _ _ _ _ _ _)
        unfold owns; iexists _; isplitr
        swap; · iexact HA
        ipureintro; exact View.read_writes_of_cover _ _ _ _ _ (coverB_A c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scoped rest back: the scratch buffers' named contents are forgotten. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_owns]
  iintro ⟨HQ, HM, HL, HA⟩
  isplitr; · iempintro
  isplitl [HQ]; · iexists _; iexact HQ
  isplitl [HM]; · iexists _; iexact HM
  isplitl [HL]; · iexists _; iexact HL
  iexists _; iexact HA

end Cert.Kernel.Hand

end
-- ==== Proof.FrameK.Frame.lean ====
/-
  The attention kernel's frame, part 4: the launch. The one input array that two windows read (a query
  tile and a key tile of the same tensor) is held half by each window; the region runs from the entry
  contents to the arrays the proof data computes; the three arguments end as launched.
-/
import proofs.«155556_j2886218023414_2_alg».proof.Proof.FrameK.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input array shared by two windows -/

/-- The distinct buffers behind the five windows' arrays. -/
theorem arrRefs_eq : Finset.univ.image (Pipeline.arrRef spec0) = ([main_arg0, main_v0, main_v1, main_v2] : List (Ref sig .tc)).toFinset := by decide

/-- The buffers behind the arrays, one by one. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v0) ↦{fullShare} Vv main_v0) ∗ (((c : Thread nD τ).loc main_v1) ↦{fullShare} Vv main_v1) ∗ (((c : Thread nD τ).loc main_v2) ↦{fullShare} Vv main_v2)) := by
  unfold Pipeline.arrBufs
  exact bigSep_eq_bigSepL_of_eq [main_arg0, main_v0, main_v1, main_v2] arrRefs_eq (by decide) _

/-- The buffers behind the arrays, each whole at the entry contents, make the proof data's arrays at entry:
    the shared input's full share is split in two halves, one per window reading it. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ, (arr_whole0 4).set_eq_univ]
  iintro ⟨H0, Hw, Hb, Ho⟩
  ihave H01 := (pointsTo_share (PosShare.mem_left_op_right fullShare)).1 $$ H0
  icases H01 with ⟨Hl, Hr⟩
  isplitl [Hl]; · iexact Hl
  isplitl [Hr]; · iexact Hr
  isplitl [Hw]; · iexact Hw
  isplitl [Hb]; · iexact Hb
  iexact Ho

/-! ## The run -/

/-- The pipeline's launch element. -/
def u₀ : UR sig nD τ := initOf (Pipeline.cells cfgs cellOf_inj) (Pipeline.launchToks cfgs cellOf_inj)

/-- Every weakly fair execution of @main terminates, nothing faulting; every window's array ends at what the
    proof data computes, every other unscoped buffer at its contents at the region's entry. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the three argument arrays end as launched — the shared input read off either of its windows,
    the weight and the bias among the buffers that bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.Kernel.Hand

end
-- ==== Proof.FrameKI.Kit.lean ====
/-
  The attention kernel's frame, part 1: @main up to the region, the windows' blocks, the two branch
  conditions of the body decided over the 64 grid points (the first key tile of a query tile resets the
  running statistics; the last one divides and stores), where the output window is idle, and the staging
  and scratch memrefs the body is called with.
-/
import proofs.«155556_j2886218023414_2_alg».proof.Proof.Gen.KernelIdeal.Launch
import proofs.«155556_j2886218023414_2_alg».proof.Proof.Gen.KernelIdeal.Skeleton
import proofs.«155556_j2886218023414_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the two host
    operations before it (the weight's change of format, the bias's reshape). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write their own results only: the three arguments are as launched. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results
theorem V_main_arg2 (c : Dev nD) : V m c main_arg2 = m ((c : Thread nD τ).loc main_arg2) := by
  dsimp only [V, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The first key tile of a query tile: the third grid coordinate is zero. -/
abbrev cond1 (i : grid0.Coords) : Prop := (Scalar.cmpi .ne (Scalar.extui (Scalar.cmpi .eq (BitVec.ofNat 32 (i 2).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- The last key tile of a query tile: the third grid coordinate is three. -/
abbrev cond2 (i : grid0.Coords) : Prop := k0_cond2 i = 1#1
theorem hcond2 : ∀ t : Fin cfg0.N, cond2 (grid0.coords t) ↔ t.val % 4 = 3 :=
  (by decide +kernel : ∀ t : Fin grid0.N, cond2 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Off the last key tile the body stores nothing into the output window, and the pipeline does not write it back. -/
theorem idleAt4 : ∀ t : Fin cfg0.N, ¬cond2 (grid0.coords t) → cfg0.idle 4 (grid0.coords t) = true := by decide +kernel
theorem noFlush4 : ∀ t : Fin cfg0.N, ¬cond2 (grid0.coords t) → (cfg0.win 4).flush t = false := by decide +kernel
/-- On the last key tile it stores the whole block. -/
theorem liveAt4 : ∀ t : Fin cfg0.N, cond2 (grid0.coords t) → cfg0.idle 4 (grid0.coords t) = false := by decide +kernel

/-! ## The memrefs the body is called with -/

abbrev ms0 (t : Fin cfg0.N) : Memref sig .tc .vmem S1x1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x512 .f32 := win0_4.stage (cfg0.slots t 4)
abbrev hs4 (t : Fin cfg0.N) : (ms4 t).IsWhole := hstage0_4 ((cfg0.slots t 4).cast nbuf0_4)
/-- The four scratch buffers: the projected queries, the running maximum, the running denominator, the running numerator. -/
abbrev scQ : Memref sig .tc .vmem S1024x512 .bf16 := Memref.whole cc0_scratch0
abbrev scM : Memref sig .tc .vmem S1024x1 .f32 := Memref.whole cc0_scratch1
abbrev scL : Memref sig .tc .vmem S1024x1 .f32 := Memref.whole cc0_scratch2
abbrev scA : Memref sig .tc .vmem S1024x512 .f32 := Memref.whole cc0_scratch3
/-- One staging buffer of the output window, through which its contents are stated. -/
abbrev VO4 : View sig .tc .vmem S1x1024x512 .f32 := (Memref.whole cc0_stg4_0 : Memref sig .tc .vmem S1x1024x512 .f32).view

/-- The class invariant with the four scratch buffers as memrefs owned at some contents. -/
theorem PhiA0_eq (c : Dev nD) :
    (Pipeline.ΦA spec0 c : sProp 𝕄)
      = iprop(iprop((∃ d, owns (c : Thread nD τ) scQ fullShare d) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scQ, scM, scL, scA, owns_whole]; try rfl

end Cert.KernelIdeal.Hand

end
-- ==== Proof.FrameKI.RunA.lean ====
/-
  The attention kernel's body run whole at a FIRST key tile (the statistics are reset, then updated
  with the tile; nothing is stored into the output window): on whole memrefs, the four input blocks at
  their contents and the output's buffer handed back untouched, each of the four scratch buffers ends
  with the pieces the body's stores wrote into it.
-/
import proofs.«155556_j2886218023414_2_alg».proof.Proof.FrameKI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a first key tile: the pieces each scratch buffer ends with, and the triple. -/
noncomputable def kernelRunA (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i)
    (x0 : Vec F S1x1024x512 .f32) (x1 : Vec F S1x512x512 .f32) (x2 : Vec F S512x512 .bf16) (x3 : Vec F S1x512 .f32) :
    Σ' (LQ : List (View.Piece (Elt F) S1024x512 .bf16)) (LM : List (View.Piece (Elt F) S1024x1 .f32)) (LL : List (View.Piece (Elt F) S1024x1 .f32)), { LA : List (View.Piece (Elt F) S1024x512 .f32) //
      ∀ (xi4 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LL) ∗ (∃ f, arg11.view.loc (c : Thread nD τ) ↦[arg11.view.set]{fullShare} arg11.view.writes (Elt F) f LA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    haveI : Fact (cond1 i) := ⟨hc1⟩
    haveI : Fact (¬cond2 i) := ⟨hc2⟩
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dQ, %fQ, -, HQ⟩, ⟨%dM, %fM, -, HM⟩, ⟨%dL, %fL, -, HL⟩, ⟨%dA, %fA, -, HA⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HQ]; · iexists _; iexact HQ
    isplitl [HM]; · iexists _; iexact HM
    isplitl [HL]; · iexists _; iexact HL
    iexists _; iexact HA

end Cert.KernelIdeal.Hand

end
-- ==== Proof.FrameKI.RunB.lean ====
/-
  The attention kernel's body run whole at a MIDDLE key tile (the statistics are updated with the
  tile; the query scratch is only read; nothing is stored into the output window).
-/
import proofs.«155556_j2886218023414_2_alg».proof.Proof.FrameKI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle key tile: the pieces the three running statistics end with, and the triple. -/
noncomputable def kernelRunB (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i)
    (x1 : Vec F S1x512x512 .f32)
    (xq : Vec F S1024x512 .bf16) (xm : Vec F S1024x1 .f32) (xl : Vec F S1024x1 .f32) (xa : Vec F S1024x512 .f32) :
    Σ' (LM : List (View.Piece (Elt F) S1024x1 .f32)) (LL : List (View.Piece (Elt F) S1024x1 .f32)), { LA : List (View.Piece (Elt F) S1024x512 .f32) //
      ∀ (x0 : Vec F S1x1024x512 .f32) (x2 : Vec F S512x512 .bf16) (x3 : Vec F S1x512 .f32) (xi4 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xq ∗ owns (c : Thread nD τ) arg9 fullShare xm ∗ owns (c : Thread nD τ) arg10 fullShare xl ∗ owns (c : Thread nD τ) arg11 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ owns (c : Thread nD τ) arg8 fullShare xq ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LL) ∗ (∃ f, arg11.view.loc (c : Thread nD τ) ↦[arg11.view.set]{fullShare} arg11.view.writes (Elt F) f LA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun x0 x2 x3 xi4 E K => ?run⟩
  case run =>
    haveI : Fact (¬cond1 i) := ⟨hc1⟩
    haveI : Fact (¬cond2 i) := ⟨hc2⟩
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fQ, %hfQ, HQ⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfQ; obtain rfl := harg9.eq_unread hfM; obtain rfl := harg10.eq_unread hfL; obtain rfl := harg11.eq_unread hfA
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HQ]
    · iexists _; isplitr; · ipureintro; exact harg8.read_unread _
      iexact HQ
    isplitl [HM]; · iexists _; iexact HM
    isplitl [HL]; · iexists _; iexact HL
    iexists _; iexact HA

end Cert.KernelIdeal.Hand

end
-- ==== Proof.FrameKI.RunC.lean ====
/-
  The attention kernel's body run whole at a LAST key tile (the statistics are updated with the tile,
  then the numerator divided by the denominator is stored into the output window's whole block).
-/
import proofs.«155556_j2886218023414_2_alg».proof.Proof.FrameKI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a last key tile: the pieces the output block and the three running statistics end with, and the triple. -/
noncomputable def kernelRunC (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i)
    (x1 : Vec F S1x512x512 .f32)
    (xq : Vec F S1024x512 .bf16) (xm : Vec F S1024x1 .f32) (xl : Vec F S1024x1 .f32) (xa : Vec F S1024x512 .f32) :
    Σ' (LO : List (View.Piece (Elt F) S1x1024x512 .f32)) (LM : List (View.Piece (Elt F) S1024x1 .f32)) (LL : List (View.Piece (Elt F) S1024x1 .f32)), { LA : List (View.Piece (Elt F) S1024x512 .f32) //
      ∀ (x0 : Vec F S1x1024x512 .f32) (x2 : Vec F S512x512 .bf16) (x3 : Vec F S1x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xq ∗ owns (c : Thread nD τ) arg9 fullShare xm ∗ owns (c : Thread nD τ) arg10 fullShare xl ∗ owns (c : Thread nD τ) arg11 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO)
                ∗ owns (c : Thread nD τ) arg8 fullShare xq ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LL) ∗ (∃ f, arg11.view.loc (c : Thread nD τ) ↦[arg11.view.set]{fullShare} arg11.view.writes (Elt F) f LA)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun x0 x2 x3 E K => ?run⟩
  case run =>
    haveI : Fact (¬cond1 i) := ⟨hc1⟩
    haveI : Fact (cond2 i) := ⟨hc2⟩
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fQ, %hfQ, HQ⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg6.eq_unread hf3
    obtain rfl := harg8.eq_unread hfQ; obtain rfl := harg9.eq_unread hfM; obtain rfl := harg10.eq_unread hfL; obtain rfl := harg11.eq_unread hfA
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HQ]
    · iexists _; isplitr; · ipureintro; exact harg8.read_unread _
      iexact HQ
    isplitl [HM]; · iexists _; iexact HM
    isplitl [HL]; · iexists _; iexact HL
    iexists _; iexact HA

end Cert.KernelIdeal.Hand

end
-- ==== Proof.FrameKI.Body.lean ====
/-
  The attention kernel's frame, part 3: what the four scratch buffers (projected queries, running
  maximum, running denominator, running numerator) and the output block hold after every grid point,
  by recursion on the point — a first key tile resets and updates, a later one updates what the point
  before left, the last one also stores the quotient —; the proof data; the body obligation; how the
  input array read through two windows is shared between them; the run and the frame.
-/
import proofs.«155556_j2886218023414_2_alg».proof.Proof.FrameKI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views through which the scratch buffers' contents are stated. -/
abbrev VQ : View sig .tc .vmem S1024x512 .bf16 := (scQ : Memref sig .tc .vmem S1024x512 .bf16).view
abbrev VM : View sig .tc .vmem S1024x1 .f32 := (scM : Memref sig .tc .vmem S1024x1 .f32).view
abbrev VL : View sig .tc .vmem S1024x1 .f32 := (scL : Memref sig .tc .vmem S1024x1 .f32).view
abbrev VA : View sig .tc .vmem S1024x512 .f32 := (scA : Memref sig .tc .vmem S1024x512 .f32).view

/-- The carried state: projected queries, running maximum, running denominator, running numerator. -/
abbrev St (F : FTy → Type) [FloatOps F] : Type := Vec F S1024x512 .bf16 × Vec F S1024x1 .f32 × Vec F S1024x1 .f32 × Vec F S1024x512 .f32

/-! ## Every case's stores cover the buffers they fill -/

theorem coverA_Q (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) (y : S1024x512.Idx) :
    ∃ pc ∈ (kernelRunA c i arg3 harg3 arg4 harg4 arg5 harg5 arg6 harg6 arg7 harg7 arg8 harg8 arg9 harg9 arg10 harg10 arg11 harg11 hc1 hc2 x0 x1 x2 x3).1, y ∈ pc.1.set :=
  View.cover_of_tiledL (kernelRunA c i arg3 harg3 arg4 harg4 arg5 harg5 arg6 harg6 arg7 harg7 arg8 harg8 arg9 harg9 arg10 harg10 arg11 harg11 hc1 hc2 x0 x1 x2 x3).1 S1024x512.size (by sl_kernel_rfl) y

theorem coverA_M (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) (y : S1024x1.Idx) :
    ∃ pc ∈ (kernelRunA c i arg3 harg3 arg4 harg4 arg5 harg5 arg6 harg6 arg7 harg7 arg8 harg8 arg9 harg9 arg10 harg10 arg11 harg11 hc1 hc2 x0 x1 x2 x3).2.1, y ∈ pc.1.set :=
  View.cover_of_tiledL (kernelRunA c i arg3 harg3 arg4 harg4 arg5 harg5 arg6 harg6 arg7 harg7 arg8 harg8 arg9 harg9 arg10 harg10 arg11 harg11 hc1 hc2 x0 x1 x2 x3).2.1 S1024x1.size (by sl_kernel_rfl) y

theorem coverA_L (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) (y : S1024x1.Idx) :
    ∃ pc ∈ (kernelRunA c i arg3 harg3 arg4 harg4 arg5 harg5 arg6 harg6 arg7 harg7 arg8 harg8 arg9 harg9 arg10 harg10 arg11 harg11 hc1 hc2 x0 x1 x2 x3).2.2.1, y ∈ pc.1.set :=
  View.cover_of_tiledL (kernelRunA c i arg3 harg3 arg4 harg4 arg5 harg5 arg6 harg6 arg7 harg7 arg8 harg8 arg9 harg9 arg10 harg10 arg11 harg11 hc1 hc2 x0 x1 x2 x3).2.2.1 S1024x1.size (by sl_kernel_rfl) y

theorem coverA_A (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) (y : S1024x512.Idx) :
    ∃ pc ∈ (kernelRunA c i arg3 harg3 arg4 harg4 arg5 harg5 arg6 harg6 arg7 harg7 arg8 harg8 arg9 harg9 arg10 harg10 arg11 harg11 hc1 hc2 x0 x1 x2 x3).2.2.2.1, y ∈ pc.1.set :=
  View.cover_of_tiledL (kernelRunA c i arg3 harg3 arg4 harg4 arg5 harg5 arg6 harg6 arg7 harg7 arg8 harg8 arg9 harg9 arg10 harg10 arg11 harg11 hc1 hc2 x0 x1 x2 x3).2.2.2.1 S1024x512.size (by sl_kernel_rfl) y

theorem coverB_M (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) (y : S1024x1.Idx) :
    ∃ pc ∈ (kernelRunB c i arg3 harg3 arg4 harg4 arg5 harg5 arg6 harg6 arg7 harg7 arg8 harg8 arg9 harg9 arg10 harg10 arg11 harg11 hc1 hc2 x1 xq xm xl xa).1, y ∈ pc.1.set :=
  View.cover_of_tiledL (kernelRunB c i arg3 harg3 arg4 harg4 arg5 harg5 arg6 harg6 arg7 harg7 arg8 harg8 arg9 harg9 arg10 harg10 arg11 harg11 hc1 hc2 x1 xq xm xl xa).1 S1024x1.size (by sl_kernel_rfl) y

theorem coverB_L (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) (y : S1024x1.Idx) :
    ∃ pc ∈ (kernelRunB c i arg3 harg3 arg4 harg4 arg5 harg5 arg6 harg6 arg7 harg7 arg8 harg8 arg9 harg9 arg10 harg10 arg11 harg11 hc1 hc2 x1 xq xm xl xa).2.1, y ∈ pc.1.set :=
  View.cover_of_tiledL (kernelRunB c i arg3 harg3 arg4 harg4 arg5 harg5 arg6 harg6 arg7 harg7 arg8 harg8 arg9 harg9 arg10 harg10 arg11 harg11 hc1 hc2 x1 xq xm xl xa).2.1 S1024x1.size (by sl_kernel_rfl) y

theorem coverB_A (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) (y : S1024x512.Idx) :
    ∃ pc ∈ (kernelRunB c i arg3 harg3 arg4 harg4 arg5 harg5 arg6 harg6 arg7 harg7 arg8 harg8 arg9 harg9 arg10 harg10 arg11 harg11 hc1 hc2 x1 xq xm xl xa).2.2.1, y ∈ pc.1.set :=
  View.cover_of_tiledL (kernelRunB c i arg3 harg3 arg4 harg4 arg5 harg5 arg6 harg6 arg7 harg7 arg8 harg8 arg9 harg9 arg10 harg10 arg11 harg11 hc1 hc2 x1 xq xm xl xa).2.2.1 S1024x512.size (by sl_kernel_rfl) y

theorem coverC_O (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) (y : S1x1024x512.Idx) :
    ∃ pc ∈ (kernelRunC c i arg3 harg3 arg4 harg4 arg5 harg5 arg6 harg6 arg7 harg7 arg8 harg8 arg9 harg9 arg10 harg10 arg11 harg11 hc1 hc2 x1 xq xm xl xa).1, y ∈ pc.1.set :=
  View.cover_of_tiledL (kernelRunC c i arg3 harg3 arg4 harg4 arg5 harg5 arg6 harg6 arg7 harg7 arg8 harg8 arg9 harg9 arg10 harg10 arg11 harg11 hc1 hc2 x1 xq xm xl xa).1 S1x1024x512.size (by sl_kernel_rfl) y

theorem coverC_M (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) (y : S1024x1.Idx) :
    ∃ pc ∈ (kernelRunC c i arg3 harg3 arg4 harg4 arg5 harg5 arg6 harg6 arg7 harg7 arg8 harg8 arg9 harg9 arg10 harg10 arg11 harg11 hc1 hc2 x1 xq xm xl xa).2.1, y ∈ pc.1.set :=
  View.cover_of_tiledL (kernelRunC c i arg3 harg3 arg4 harg4 arg5 harg5 arg6 harg6 arg7 harg7 arg8 harg8 arg9 harg9 arg10 harg10 arg11 harg11 hc1 hc2 x1 xq xm xl xa).2.1 S1024x1.size (by sl_kernel_rfl) y

theorem coverC_L (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) (y : S1024x1.Idx) :
    ∃ pc ∈ (kernelRunC c i arg3 harg3 arg4 harg4 arg5 harg5 arg6 harg6 arg7 harg7 arg8 harg8 arg9 harg9 arg10 harg10 arg11 harg11 hc1 hc2 x1 xq xm xl xa).2.2.1, y ∈ pc.1.set :=
  View.cover_of_tiledL (kernelRunC c i arg3 harg3 arg4 harg4 arg5 harg5 arg6 harg6 arg7 harg7 arg8 harg8 arg9 harg9 arg10 harg10 arg11 harg11 hc1 hc2 x1 xq xm xl xa).2.2.1 S1024x1.size (by sl_kernel_rfl) y

theorem coverC_A (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) (y : S1024x512.Idx) :
    ∃ pc ∈ (kernelRunC c i arg3 harg3 arg4 harg4 arg5 harg5 arg6 harg6 arg7 harg7 arg8 harg8 arg9 harg9 arg10 harg10 arg11 harg11 hc1 hc2 x1 xq xm xl xa).2.2.2.1, y ∈ pc.1.set :=
  View.cover_of_tiledL (kernelRunC c i arg3 harg3 arg4 harg4 arg5 harg5 arg6 harg6 arg7 harg7 arg8 harg8 arg9 harg9 arg10 harg10 arg11 harg11 hc1 hc2 x1 xq xm xl xa).2.2.2.1 S1024x512.size (by sl_kernel_rfl) y

/-! ## What each case leaves: its pieces read back -/

/-- After a first key tile. -/
def stA (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) : St F :=
  (VQ.read (Elt F) (VQ.writes (Elt F) VQ.junk (kernelRunA c i arg3 harg3 arg4 harg4 arg5 harg5 arg6 harg6 arg7 harg7 arg8 harg8 arg9 harg9 arg10 harg10 arg11 harg11 hc1 hc2 x0 x1 x2 x3).1),
   VM.read (Elt F) (VM.writes (Elt F) VM.junk (kernelRunA c i arg3 harg3 arg4 harg4 arg5 harg5 arg6 harg6 arg7 harg7 arg8 harg8 arg9 harg9 arg10 harg10 arg11 harg11 hc1 hc2 x0 x1 x2 x3).2.1),
   VL.read (Elt F) (VL.writes (Elt F) VL.junk (kernelRunA c i arg3 harg3 arg4 harg4 arg5 harg5 arg6 harg6 arg7 harg7 arg8 harg8 arg9 harg9 arg10 harg10 arg11 harg11 hc1 hc2 x0 x1 x2 x3).2.2.1),
   VA.read (Elt F) (VA.writes (Elt F) VA.junk (kernelRunA c i arg3 harg3 arg4 harg4 arg5 harg5 arg6 harg6 arg7 harg7 arg8 harg8 arg9 harg9 arg10 harg10 arg11 harg11 hc1 hc2 x0 x1 x2 x3).2.2.2.1))

/-- After a middle key tile (the queries are kept). -/
def stB (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) : St F :=
  (xq,
   VM.read (Elt F) (VM.writes (Elt F) VM.junk (kernelRunB c i arg3 harg3 arg4 harg4 arg5 harg5 arg6 harg6 arg7 harg7 arg8 harg8 arg9 harg9 arg10 harg10 arg11 harg11 hc1 hc2 x1 xq xm xl xa).1),
   VL.read (Elt F) (VL.writes (Elt F) VL.junk (kernelRunB c i arg3 harg3 arg4 harg4 arg5 harg5 arg6 harg6 arg7 harg7 arg8 harg8 arg9 harg9 arg10 harg10 arg11 harg11 hc1 hc2 x1 xq xm xl xa).2.1),
   VA.read (Elt F) (VA.writes (Elt F) VA.junk (kernelRunB c i arg3 harg3 arg4 harg4 arg5 harg5 arg6 harg6 arg7 harg7 arg8 harg8 arg9 harg9 arg10 harg10 arg11 harg11 hc1 hc2 x1 xq xm xl xa).2.2.1))

/-- After a last key tile: the output block, and the state. -/
def stC (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) : Vec F S1x1024x512 .f32 × St F :=
  (VO4.read (Elt F) (VO4.writes (Elt F) VO4.junk (kernelRunC c i arg3 harg3 arg4 harg4 arg5 harg5 arg6 harg6 arg7 harg7 arg8 harg8 arg9 harg9 arg10 harg10 arg11 harg11 hc1 hc2 x1 xq xm xl xa).1),
   (xq,
    VM.read (Elt F) (VM.writes (Elt F) VM.junk (kernelRunC c i arg3 harg3 arg4 harg4 arg5 harg5 arg6 harg6 arg7 harg7 arg8 harg8 arg9 harg9 arg10 harg10 arg11 harg11 hc1 hc2 x1 xq xm xl xa).2.1),
    VL.read (Elt F) (VL.writes (Elt F) VL.junk (kernelRunC c i arg3 harg3 arg4 harg4 arg5 harg5 arg6 harg6 arg7 harg7 arg8 harg8 arg9 harg9 arg10 harg10 arg11 harg11 hc1 hc2 x1 xq xm xl xa).2.2.1),
    VA.read (Elt F) (VA.writes (Elt F) VA.junk (kernelRunC c i arg3 harg3 arg4 harg4 arg5 harg5 arg6 harg6 arg7 harg7 arg8 harg8 arg9 harg9 arg10 harg10 arg11 harg11 hc1 hc2 x1 xq xm xl xa).2.2.2.1)))

/-- The same at a grid point, on the memrefs and blocks the pipeline passes there. -/
def atA (c : Dev nD) (t : Fin cfg0.N) (h1 : cond1 (grid0.coords t)) (h2 : ¬cond2 (grid0.coords t)) : St F :=
  stA c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) h1 h2 (iblk m c 0 t) (iblk m c 1 t) (iblk m c 2 t) (iblk m c 3 t)
def atB (c : Dev nD) (t : Fin cfg0.N) (h1 : ¬cond1 (grid0.coords t)) (h2 : ¬cond2 (grid0.coords t)) (s : St F) : St F :=
  stB c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) h1 h2 (iblk m c 1 t) s.1 s.2.1 s.2.2.1 s.2.2.2
def atC (c : Dev nD) (t : Fin cfg0.N) (h1 : ¬cond1 (grid0.coords t)) (h2 : cond2 (grid0.coords t)) (s : St F) : Vec F S1x1024x512 .f32 × St F :=
  stC c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) h1 h2 (iblk m c 1 t) s.1 s.2.1 s.2.2.1 s.2.2.2

/-- A placeholder for the output block at the points that store nothing into it (never consulted). -/
def noOut : Vec F S1x1024x512 .f32 := VO4.read (Elt F) VO4.junk

/-! ## The output block and the state after each point -/

def outsAt (c : Dev nD) : (n : ℕ) → n < cfg0.N → Vec F S1x1024x512 .f32 × St F
  | 0, hn => (noOut, atA m c ⟨0, hn⟩ ((hcond1 ⟨0, hn⟩).mpr (Nat.zero_mod _)) (fun h => absurd ((hcond2 ⟨0, hn⟩).mp h) (by show ¬ 0 % 4 = 3; decide)))
  | n + 1, hn =>
    if h0 : (n + 1) % 4 = 0 then
      (noOut, atA m c ⟨n + 1, hn⟩ ((hcond1 ⟨n + 1, hn⟩).mpr h0) (fun h => absurd ((hcond2 ⟨n + 1, hn⟩).mp h) (by show ¬ (n + 1) % 4 = 3; omega)))
    else if h3 : (n + 1) % 4 = 3 then
      atC m c ⟨n + 1, hn⟩ (fun h => h0 ((hcond1 ⟨n + 1, hn⟩).mp h)) ((hcond2 ⟨n + 1, hn⟩).mpr h3) (outsAt c n (Nat.lt_of_succ_lt hn)).2
    else
      (noOut, atB m c ⟨n + 1, hn⟩ (fun h => h0 ((hcond1 ⟨n + 1, hn⟩).mp h)) (fun h => h3 ((hcond2 ⟨n + 1, hn⟩).mp h)) (outsAt c n (Nat.lt_of_succ_lt hn)).2)

theorem outsAt_A (c : Dev nD) (t : Fin cfg0.N) (h0 : t.val % 4 = 0) :
    outsAt m c t.val t.isLt = (noOut, atA m c t ((hcond1 t).mpr h0) (fun h => absurd ((hcond2 t).mp h) (by omega))) := by
  obtain ⟨n, hn⟩ := t
  cases n with
  | zero => rfl
  | succ n => exact (dif_pos h0).trans rfl

theorem outsAt_B (c : Dev nD) (t : Fin cfg0.N) (h0 : ¬t.val % 4 = 0) (h3 : ¬t.val % 4 = 3) :
    outsAt m c t.val t.isLt = (noOut, atB m c t (fun h => h0 ((hcond1 t).mp h)) (fun h => h3 ((hcond2 t).mp h))
      (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

theorem outsAt_C (c : Dev nD) (t : Fin cfg0.N) (h0 : ¬t.val % 4 = 0) (h3 : t.val % 4 = 3) :
    outsAt m c t.val t.isLt = atC m c t (fun h => h0 ((hcond1 t).mp h)) ((hcond2 t).mpr h3)
      (outsAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans rfl)

/-! ## The invariant between points -/

/-- The scoped rest as the four scratch memrefs, each owned at some contents. -/
theorem scopedRest_owns (c : Dev nD) :
    (Pipeline.scopedRest spec0 c : sProp 𝕄)
      = iprop((∃ d, owns (c : Thread nD τ) scQ fullShare d) ∗ (∃ d, owns (c : Thread nD τ) scM fullShare d) ∗ (∃ d, owns (c : Thread nD τ) scL fullShare d) ∗ (∃ d, owns (c : Thread nD τ) scA fullShare d)) := by
  rw [scopedRest0_eq]; simp only [scQ, scM, scL, scA, owns_whole]; try rfl

/-- Before the first point the scratch buffers hold anything; before any later point, what the point before left. -/
def PhiS (c : Dev nD) : (n : ℕ) → n ≤ cfg0.N → sProp 𝕄
  | 0, _ => Pipeline.scopedRest spec0 c
  | n + 1, hn => iprop(owns (c : Thread nD τ) scQ fullShare (outsAt m c n hn).2.1 ∗ owns (c : Thread nD τ) scM fullShare (outsAt m c n hn).2.2.1 ∗ owns (c : Thread nD τ) scL fullShare (outsAt m c n hn).2.2.2.1 ∗ owns (c : Thread nD τ) scA fullShare (outsAt m c n hn).2.2.2.2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scQ fullShare (outsAt m c n hn).2.1 ∗ owns (c : Thread nD τ) scM fullShare (outsAt m c n hn).2.2.1 ∗ owns (c : Thread nD τ) scL fullShare (outsAt m c n hn).2.2.2.1 ∗ owns (c : Thread nD τ) scA fullShare (outsAt m c n hn).2.2.2.2) := rfl

theorem PhiS_pos (c : Dev nD) (n : ℕ) (h : n ≤ cfg0.N) (hz : n ≠ 0) :
    PhiS m c n h = iprop(owns (c : Thread nD τ) scQ fullShare (outsAt m c (n - 1) (by omega)).2.1 ∗ owns (c : Thread nD τ) scM fullShare (outsAt m c (n - 1) (by omega)).2.2.1 ∗ owns (c : Thread nD τ) scL fullShare (outsAt m c (n - 1) (by omega)).2.2.2.1 ∗ owns (c : Thread nD τ) scA fullShare (outsAt m c (n - 1) (by omega)).2.2.2.2) := by
  cases n with
  | zero => exact absurd rfl hz
  | succ n => rfl

/-! ## The proof data -/

/-- The arrays as the region finds them; after the body each input's buffer at its block and the output's at
    the recursion's block; the invariant above; nothing owed. The input array read through two windows is
    held half by each; every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]

set_option maxHeartbeats 4800000 in
/-- The body at any point: the inputs' buffers hold their blocks; the point's position among the four key tiles
    of its query tile says which case runs; the invariant hands the body the scratch buffers at what the point
    before left (at anything before a first key tile) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves0, leaves1, leaves2, leaves3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have hc1 : cond1 (grid0.coords t) := (hcond1 t).mpr h0
    have hc2 : ¬cond2 (grid0.coords t) := fun h => absurd ((hcond2 t).mp h) (by omega)
    rw [Dat.leavesExact_idle (dats m 0 c) 4 t (idleAt4 t hc2) (noFlush4 t hc2)]
    rw [outsAt_A m c t h0]
    unfold atA stA; (try dsimp only)
    by_cases hz : t.val = 0
    · rw [PhiS_castSucc m c t, PhiS_zero m c _ _ hz, scopedRest_owns]
      iintro ⟨⟨HQ, HM, HL, HA⟩, Ho, ⟨%d0, H0⟩, ⟨%d1, H1⟩, ⟨%d2, H2⟩, ⟨%d3, H3⟩, ⟨%d4, H4⟩⟩
      iapply ((kernelRunA c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) hc1 hc2 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HQ]; · iexact HQ
      isplitl [HM]; · iexact HM
      isplitl [HL]; · iexact HL
      isplitl [HA]; · iexact HA
      iintro ⟨H0, H1, H2, H3, H4, ⟨%eQ, HQ⟩, ⟨%eM, HM⟩, ⟨%eL, HL⟩, ⟨%eA, HA⟩⟩
      isplitl [HQ HM HL HA]
      · isplitl [HQ]
        · unfold owns; iexists _; isplitr
          swap; · iexact HQ
          ipureintro; exact View.read_writes_of_cover _ _ _ _ _ (coverA_Q c _ _ _ _ _ _ _ _ _ _ _ _ _ _ _ _ _ _ _ _ _ _ _ _ _)
        isplitl [HM]
        · unfold owns; iexists _; isplitr
          swap; · iexact HM
          ipureintro; exact View.read_writes_of_cover _ _ _ _ _ (coverA_M c _ _ _ _ _ _ _ _ _ _ _ _ _ _ _ _ _ _ _ _ _ _ _ _ _)
        isplitl [HL]
        · unfold owns; iexists _; isplitr
          swap; · iexact HL
          ipureintro; exact View.read_writes_of_cover _ _ _ _ _ (coverA_L c _ _ _ _ _ _ _ _ _ _ _ _ _ _ _ _ _ _ _ _ _ _ _ _ _)
        unfold owns; iexists _; isplitr
        swap; · iexact HA
        ipureintro; exact View.read_writes_of_cover _ _ _ _ _ (coverA_A c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HQ, HM, HL, HA⟩, Ho, ⟨%d0, H0⟩, ⟨%d1, H1⟩, ⟨%d2, H2⟩, ⟨%d3, H3⟩, ⟨%d4, H4⟩⟩
      iapply ((kernelRunA c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) hc1 hc2 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HQ]; · iexists _; iexact HQ
      isplitl [HM]; · iexists _; iexact HM
      isplitl [HL]; · iexists _; iexact HL
      isplitl [HA]; · iexists _; iexact HA
      iintro ⟨H0, H1, H2, H3, H4, ⟨%eQ, HQ⟩, ⟨%eM, HM⟩, ⟨%eL, HL⟩, ⟨%eA, HA⟩⟩
      isplitl [HQ HM HL HA]
      · isplitl [HQ]
        · unfold owns; iexists _; isplitr
          swap; · iexact HQ
          ipureintro; exact View.read_writes_of_cover _ _ _ _ _ (coverA_Q c _ _ _ _ _ _ _ _ _ _ _ _ _ _ _ _ _ _ _ _ _ _ _ _ _)
        isplitl [HM]
        · unfold owns; iexists _; isplitr
          swap; · iexact HM
          ipureintro; exact View.read_writes_of_cover _ _ _ _ _ (coverA_M c _ _ _ _ _ _ _ _ _ _ _ _ _ _ _ _ _ _ _ _ _ _ _ _ _)
        isplitl [HL]
        · unfold owns; iexists _; isplitr
          swap; · iexact HL
          ipureintro; exact View.read_writes_of_cover _ _ _ _ _ (coverA_L c _ _ _ _ _ _ _ _ _ _ _ _ _ _ _ _ _ _ _ _ _ _ _ _ _)
        unfold owns; iexists _; isplitr
        swap; · iexact HA
        ipureintro; exact View.read_writes_of_cover _ _ _ _ _ (coverA_A c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hc1 : ¬cond1 (grid0.coords t) := fun h => h0 ((hcond1 t).mp h)
    have hz : t.val ≠ 0 := fun h => h0 (by rw [h])
    by_cases h3 : t.val % 4 = 3
    · have hc2 : cond2 (grid0.coords t) := (hcond2 t).mpr h3
      rw [show (dats m 0 c).leavesExact 4 t = owns (c : Thread nD τ) (ms4 t) fullShare ((dats m 0 c).after 4 t) from by
        unfold Dat.leavesExact; rw [liveAt4 t hc2], after4]
      rw [outsAt_C m c t h0 h3]
      unfold atC stC; (try dsimp only)
      rw [PhiS_castSucc m c t, PhiS_pos m c _ _ hz]
      iintro ⟨⟨HQ, HM, HL, HA⟩, Ho, ⟨%d0, H0⟩, ⟨%d1, H1⟩, ⟨%d2, H2⟩, ⟨%d3, H3⟩, ⟨%d4, H4⟩⟩
      iapply ((kernelRunC c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) hc1 hc2 (iblk m c 1 t) _ _ _ _).2.2.2.2 _ _ _ Set.univ _)
      isplitl [H0]; · iexact H0
      isplitl [H1]; · iexact H1
      isplitl [H2]; · iexact H2
      isplitl [H3]; · iexact H3
      isplitl [H4]; · iexists _; iexact H4
      isplitl [HQ]; · iexact HQ
      isplitl [HM]; · iexact HM
      isplitl [HL]; · iexact HL
      isplitl [HA]; · iexact HA
      iintro ⟨H0, H1, H2, H3, ⟨%e4, H4⟩, HQ, ⟨%eM, HM⟩, ⟨%eL, HL⟩, ⟨%eA, HA⟩⟩
      isplitl [HQ HM HL HA]
      · isplitl [HQ]; · iexact HQ
        isplitl [HM]
        · unfold owns; iexists _; isplitr
          swap; · iexact HM
          ipureintro; exact View.read_writes_of_cover _ _ _ _ _ (coverC_M c _ _ _ _ _ _ _ _ _ _ _ _ _ _ _ _ _ _ _ _ _ _ _ _ _ _)
        isplitl [HL]
        · unfold owns; iexists _; isplitr
          swap; · iexact HL
          ipureintro; exact View.read_writes_of_cover _ _ _ _ _ (coverC_L c _ _ _ _ _ _ _ _ _ _ _ _ _ _ _ _ _ _ _ _ _ _ _ _ _ _)
        unfold owns; iexists _; isplitr
        swap; · iexact HA
        ipureintro; exact View.read_writes_of_cover _ _ _ _ _ (coverC_A c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_O c _ _ _ _ _ _ _ _ _ _ _ _ _ _ _ _ _ _ _ _ _ _ _ _ _ _)
    · have hc2 : ¬cond2 (grid0.coords t) := fun h => h3 ((hcond2 t).mp h)
      rw [Dat.leavesExact_idle (dats m 0 c) 4 t (idleAt4 t hc2) (noFlush4 t hc2)]
      rw [outsAt_B m c t h0 h3]
      unfold atB stB; (try dsimp only)
      rw [PhiS_castSucc m c t, PhiS_pos m c _ _ hz]
      iintro ⟨⟨HQ, HM, HL, HA⟩, Ho, ⟨%d0, H0⟩, ⟨%d1, H1⟩, ⟨%d2, H2⟩, ⟨%d3, H3⟩, ⟨%d4, H4⟩⟩
      iapply ((kernelRunB c (grid0.coords t) (ms0 t) (hs0 t) (ms1 t) (hs1 t) (ms2 t) (hs2 t) (ms3 t) (hs3 t) (ms4 t) (hs4 t) scQ (Memref.isWhole_whole _) scM (Memref.isWhole_whole _) scL (Memref.isWhole_whole _) scA (Memref.isWhole_whole _) hc1 hc2 (iblk m c 1 t) _ _ _ _).2.2.2 _ _ _ _ Set.univ _)
      isplitl [H0]; · iexact H0
      isplitl [H1]; · iexact H1
      isplitl [H2]; · iexact H2
      isplitl [H3]; · iexact H3
      isplitl [H4]; · iexact H4
      isplitl [HQ]; · iexact HQ
      isplitl [HM]; · iexact HM
      isplitl [HL]; · iexact HL
      isplitl [HA]; · iexact HA
      iintro ⟨H0, H1, H2, H3, H4, HQ, ⟨%eM, HM⟩, ⟨%eL, HL⟩, ⟨%eA, HA⟩⟩
      isplitl [HQ HM HL HA]
      · isplitl [HQ]; · iexact HQ
        isplitl [HM]
        · unfold owns; iexists _; isplitr
          swap; · iexact HM
          ipureintro; exact View.read_writes_of_cover _ _ _ _ _ (coverB_M c _ _ _ _ _ _ _ _ _ _ _ _ _ _ _ _ _ _ _ _ _ _ _ _ _ _)
        isplitl [HL]
        · unfold owns; iexists _; isplitr
          swap; · iexact HL
          ipureintro; exact View.read_writes_of_cover _ _ _ _ _ (coverB_L c _ _ _ _ _ _ _ _ _ _ _ _ _ _ _ _ _ _ _ _ _ _ _ _ _ _)
        unfold owns; iexists _; isplitr
        swap; · iexact HA
        ipureintro; exact View.read_writes_of_cover _ _ _ _ _ (coverB_A c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scoped rest back: the scratch buffers' named contents are forgotten. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_owns]
  iintro ⟨HQ, HM, HL, HA⟩
  isplitr; · iempintro
  isplitl [HQ]; · iexists _; iexact HQ
  isplitl [HM]; · iexists _; iexact HM
  isplitl [HL]; · iexists _; iexact HL
  iexists _; iexact HA

end Cert.KernelIdeal.Hand

end
-- ==== Proof.FrameKI.Blocks.lean ====
/-
  The attention kernel's input blocks, read at an index, on the extended reals.

  The grid has 8 * 2 * 4 = 64 points; point t stands for (batch b, query tile qi, key tile ki) with
  t = (b * 2 + qi) * 4 + ki, that is b = t / 8, qi = t / 4 % 2, ki = t % 4.  At point t the kernel sees
  rows qi * 1024 .. qi * 1024 + 1023 of batch b (its query tile), rows ki * 512 .. ki * 512 + 511 of
  batch b (its key tile), the whole weight matrix and the whole bias.  A block's coordinate on an axis is
  always (block index) * (block size) + (coordinate inside the block); the block indices are decided
  once over the 64 points, the rest is arithmetic.
-/
import proofs.«155556_j2886218023414_2_alg».proof.Proof.FrameKI.Kit
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## The grid's coordinates and the windows' block indices, decided over the 64 points -/

/-- Point t of the 8 * 2 * 4 grid, row-major with the last axis fastest, has coordinates
    (t / 8, t / 4 % 2, t % 4). -/
theorem coords_val : ∀ t : Fin cfg0.N, (grid0.coords t 0).val = t.val / 8
    ∧ (grid0.coords t 1).val = t.val / 4 % 2 ∧ (grid0.coords t 2).val = t.val % 4 :=
  (by decide +kernel : ∀ t : Fin grid0.N, (grid0.coords t 0).val = t.val / 8
    ∧ (grid0.coords t 1).val = t.val / 4 % 2 ∧ (grid0.coords t 2).val = t.val % 4)

/-- The query window's block index at point t is (t / 8, t / 4 % 2, 0). -/
theorem index0 : ∀ t : Fin cfg0.N, win0_0.index t (0 : Fin 3) = t.val / 8
    ∧ win0_0.index t (1 : Fin 3) = t.val / 4 % 2 ∧ win0_0.index t (2 : Fin 3) = 0 :=
  (by decide +kernel : ∀ t : Fin grid0.N, win0_0.index t (0 : Fin 3) = t.val / 8
    ∧ win0_0.index t (1 : Fin 3) = t.val / 4 % 2 ∧ win0_0.index t (2 : Fin 3) = 0)

/-- The key window's block index at point t is (t / 8, t % 4, 0). -/
theorem index1 : ∀ t : Fin cfg0.N, win0_1.index t (0 : Fin 3) = t.val / 8
    ∧ win0_1.index t (1 : Fin 3) = t.val % 4 ∧ win0_1.index t (2 : Fin 3) = 0 :=
  (by decide +kernel : ∀ t : Fin grid0.N, win0_1.index t (0 : Fin 3) = t.val / 8
    ∧ win0_1.index t (1 : Fin 3) = t.val % 4 ∧ win0_1.index t (2 : Fin 3) = 0)

/-- The weight window's block index is (0, 0) at every point. -/
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The bias window's block index is (0, 0) at every point. -/
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The output window's block index at point t is the query window's: (t / 8, t / 4 % 2, 0). -/
theorem index4 : ∀ t : Fin cfg0.N, win0_4.index t (0 : Fin 3) = t.val / 8
    ∧ win0_4.index t (1 : Fin 3) = t.val / 4 % 2 ∧ win0_4.index t (2 : Fin 3) = 0 :=
  (by decide +kernel : ∀ t : Fin grid0.N, win0_4.index t (0 : Fin 3) = t.val / 8
    ∧ win0_4.index t (1 : Fin 3) = t.val / 4 % 2 ∧ win0_4.index t (2 : Fin 3) = 0)

/-- A point's number is below 64. -/
theorem t_lt (t : Fin cfg0.N) : t.val < 64 := by
  have h : cfg0.N = 64 := N_0
  have := t.isLt
  omega

/-! ## The four input blocks -/

/-- The query block at point t: row r, lane h of the block is row (t / 4 % 2) * 1024 + r, lane h of
    batch t / 8 of the first argument. -/
theorem blk0 (c : Dev nD) (t : Fin cfg0.N) (r : Fin 1024) (h : Fin 512) :
    (iblk m c 0 t : S1x1024x512.Idx → EReal) (ix3 0 r h)
      = (m ((c : Thread nD τ).loc main_arg0) : S8x2048x512.Idx → EReal)
          (ix3 ⟨t.val / 8, by have := t_lt t; omega⟩ ⟨(t.val / 4 % 2) * 1024 + r.val, by omega⟩ h) := by
  obtain ⟨e0, e1, e2⟩ := index0 t
  unfold iblk
  rw [View.read_apply]
  show V m c main_arg0 _ = _
  rw [V_main_arg0]
  congr 1
  funext a
  apply Fin.ext
  match a with
  | ⟨0, _⟩ => show win0_0.index t (0 : Fin 3) * 1 + 1 * 0 = t.val / 8; omega
  | ⟨1, _⟩ => show win0_0.index t (1 : Fin 3) * 1024 + 1 * r.val = (t.val / 4 % 2) * 1024 + r.val; omega
  | ⟨2, _⟩ => show win0_0.index t (2 : Fin 3) * 512 + 1 * h.val = h.val; omega

/-- The key block at point t: row j, lane h of the block is row (t % 4) * 512 + j, lane h of batch
    t / 8 of the first argument. -/
theorem blk1 (c : Dev nD) (t : Fin cfg0.N) (j : Fin 512) (h : Fin 512) :
    (iblk m c 1 t : S1x512x512.Idx → EReal) (ix3 0 j h)
      = (m ((c : Thread nD τ).loc main_arg0) : S8x2048x512.Idx → EReal)
          (ix3 ⟨t.val / 8, by have := t_lt t; omega⟩ ⟨(t.val % 4) * 512 + j.val, by omega⟩ h) := by
  obtain ⟨e0, e1, e2⟩ := index1 t
  unfold iblk
  rw [View.read_apply]
  show V m c main_arg0 _ = _
  rw [V_main_arg0]
  congr 1
  funext a
  apply Fin.ext
  match a with
  | ⟨0, _⟩ => show win0_1.index t (0 : Fin 3) * 1 + 1 * 0 = t.val / 8; omega
  | ⟨1, _⟩ => show win0_1.index t (1 : Fin 3) * 512 + 1 * j.val = (t.val % 4) * 512 + j.val; omega
  | ⟨2, _⟩ => show win0_1.index t (2 : Fin 3) * 512 + 1 * h.val = h.val; omega

/-- The weight array as the region finds it: the second argument with its format changed, which on the
    extended reals is the second argument itself. -/
theorem V_main_v0 (c : Dev nD) :
    (V m c main_v0 : S512x512.Idx → EReal) = (m ((c : Thread nD τ).loc main_arg1) : S512x512.Idx → EReal) := by
  dsimp only [V, hostOps0]
  after_results
  rfl

/-- The weight block at every point is the whole second argument. -/
theorem blk2 (c : Dev nD) (t : Fin cfg0.N) (o : Fin 512) (h : Fin 512) :
    (iblk m c 2 t : S512x512.Idx → EReal) (ix2 o h)
      = (m ((c : Thread nD τ).loc main_arg1) : S512x512.Idx → EReal) (ix2 o h) := by
  obtain ⟨e0, e1⟩ := index2 t
  unfold iblk
  rw [View.read_apply]
  show (V m c main_v0 : S512x512.Idx → EReal) _ = _
  rw [V_main_v0]
  congr 1
  funext a
  apply Fin.ext
  match a with
  | ⟨0, _⟩ => show win0_2.index t (0 : Fin 2) * 512 + 1 * o.val = o.val; omega
  | ⟨1, _⟩ => show win0_2.index t (1 : Fin 2) * 512 + 1 * h.val = h.val; omega

/-- The bias array as the region finds it: the third argument, 512 numbers, laid out as one row of 512. -/
theorem V_main_v1 (c : Dev nD) :
    (V m c main_v1 : S1x512.Idx → EReal)
      = shapeCast S1x512 (m ((c : Thread nD τ).loc main_arg2) : S512.Idx → EReal) shapeCasts_S512_S1x512 := by
  dsimp only [V, hostOps0]
  after_results
  rfl

/-- The bias block at every point: lane o of its one row is entry o of the third argument. -/
theorem blk3 (c : Dev nD) (t : Fin cfg0.N) (o : Fin 512) :
    (iblk m c 3 t : S1x512.Idx → EReal) (ix2 0 o)
      = (m ((c : Thread nD τ).loc main_arg2) : S512.Idx → EReal) (ix1 o) := by
  obtain ⟨e0, e1⟩ := index3 t
  unfold iblk
  rw [View.read_apply]
  show (V m c main_v1 : S1x512.Idx → EReal) _ = _
  rw [V_main_v1]
  refine shapeCast_apply _ _ _ (ix1 o) ?_
  rw [Shape.rowMajor_val_one, Shape.rowMajor_val_two]
  show o.val = (win0_3.index t (0 : Fin 2) * 1 + 1 * 0) * 512 + (win0_3.index t (1 : Fin 2) * 512 + 1 * o.val)
  omega

/-! ## The output window: where block t sits in the result array, and which point covers an index -/

/-- Row r, lane h of the output block at point t is row (t / 4 % 2) * 1024 + r, lane h of batch t / 8
    of the result array. -/
theorem emb4 (t : Fin cfg0.N) (r : Fin 1024) (h : Fin 512) :
    (((cfg0.win 4).blk t).view.emb (ix3 0 r h : S1x1024x512.Idx) : S8x2048x512.Idx)
      = ix3 ⟨t.val / 8, by have := t_lt t; omega⟩ ⟨(t.val / 4 % 2) * 1024 + r.val, by omega⟩ h := by
  obtain ⟨e0, e1, e2⟩ := index4 t
  funext a
  apply Fin.ext
  match a with
  | ⟨0, _⟩ => show win0_4.index t (0 : Fin 3) * 1 + 1 * 0 = t.val / 8; omega
  | ⟨1, _⟩ => show win0_4.index t (1 : Fin 3) * 1024 + 1 * r.val = (t.val / 4 % 2) * 1024 + r.val; omega
  | ⟨2, _⟩ => show win0_4.index t (2 : Fin 3) * 512 + 1 * h.val = h.val; omega

/-- An index of the result array is in point t's output block iff its batch is t / 8 and its row is in
    the 1024 rows from (t / 4 % 2) * 1024 on (every lane is). -/
theorem mem_blk4 (t : Fin cfg0.N) (i : S8x2048x512.Idx) :
    i ∈ ((cfg0.win 4).blk t).view.set
      ↔ (i 0).val = t.val / 8 ∧ (t.val / 4 % 2) * 1024 ≤ (i 1).val ∧ (i 1).val < (t.val / 4 % 2) * 1024 + 1024 := by
  obtain ⟨e0, e1, e2⟩ := index4 t
  show i ∈ ((View.whole main_v2).slice (win0_4.rect t)).set ↔ _
  rw [View.set_slice_whole, Rect.mem_set_unit]
  have h2 : (i 2).val < 512 := (i 2).isLt
  constructor
  · intro hi
    have b0 : win0_4.index t (0 : Fin 3) * 1 ≤ (i 0).val ∧ (i 0).val < win0_4.index t (0 : Fin 3) * 1 + 1 := hi 0
    have b1 : win0_4.index t (1 : Fin 3) * 1024 ≤ (i 1).val ∧ (i 1).val < win0_4.index t (1 : Fin 3) * 1024 + 1024 := hi 1
    omega
  · intro hi a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 1024 ≤ (i 1).val ∧ (i 1).val < win0_4.index t (1 : Fin 3) * 1024 + 1024; omega
    | ⟨2, _⟩ => show win0_4.index t (2 : Fin 3) * 512 ≤ (i 2).val ∧ (i 2).val < win0_4.index t (2 : Fin 3) * 512 + 512; omega

/-- The point that writes back the block holding batch b, row s: the last key tile of the query tile
    s / 1024 of batch b. -/
def coverPt (b : Fin 8) (s : Fin 2048) : Fin cfg0.N :=
  ⟨(b.val * 2 + s.val / 1024) * 4 + 3, by have h : cfg0.N = 64 := N_0; omega⟩

/-- Its number. -/
theorem coverPt_val (b : Fin 8) (s : Fin 2048) : (coverPt b s).val = (b.val * 2 + s.val / 1024) * 4 + 3 := rfl

/-- That point is a last key tile: the output window is written back there. -/
theorem coverPt_flush (b : Fin 8) (s : Fin 2048) : (cfg0.win 4).flush (coverPt b s) = true :=
  (flush0_4 (coverPt b s)).mpr (by rw [coverPt_val]; omega)

/-- Every index (batch b, row s, lane h) of the result array lies in the output block of that point. -/
theorem mem_coverPt (b : Fin 8) (s : Fin 2048) (h : Fin 512) :
    (ix3 b s h : S8x2048x512.Idx) ∈ ((cfg0.win 4).blk (coverPt b s)).view.set := by
  rw [mem_blk4, coverPt_val]
  show b.val = _ ∧ _ ≤ s.val ∧ s.val < _
  omega

/-- The output blocks of the points that write back cover the result array. -/
theorem cover4 (i : S8x2048x512.Idx) :
    ∃ t : Fin cfg0.N, (cfg0.win 4).flush t = true ∧ i ∈ ((cfg0.win 4).blk t).view.set := by
  obtain ⟨b, s, h, rfl⟩ : ∃ (b : Fin 8) (s : Fin 2048) (h : Fin 512), i = ix3 b s h := ⟨i 0, i 1, i 2, eq_ix3 i⟩
  exact ⟨coverPt b s, coverPt_flush b s, mem_coverPt b s h⟩

end Cert.KernelIdeal.Hand

end
-- ==== Proof.RefSpec.lean ====
/-
  Softmax attention with a learned query, as index-wise functions on the extended reals.

  For an array O of shape [8, 2048, 512], a matrix W of shape [512, 512] and a vector bias of length 512:
    q(b, s, o)     = tanh (Σ_h O(b, s, h) · W(o, h) + bias(o))          (a linear layer, y = x Wᵀ + b, then tanh)
    score(b, s, t) = Σ_h q(b, s, h) · O(b, t, h)                         (the query against every row of the same batch)
    rowMax(b, s)   = the largest score of row (b, s)                     (a fold of max from −∞ over t)
    e(b, s, t)     = exp (score(b, s, t) − rowMax(b, s))
    den(b, s)      = Σ_t e(b, s, t)
    out(b, s, h)   = Σ_t (e(b, s, t) / den(b, s)) · O(b, t, h)           (the softmax weights applied to the rows)
  Arrays are functions of a shape's index; an index is built from its coordinates by ix3, ix2, ix1.
-/
import Idealize.ShloMosaic.PureOps.Ideal
import Idealize.ShloMosaic.Lib.ValueIdx

noncomputable section

namespace Cert.Attn

open Idealize.ShloMosaic Idealize.ShloMosaic.ValueIdx

/-- The shape of the attended array: 8 batches of 2048 rows of 512 features. -/
abbrev SO : Shape := ⟨3, ![8, 2048, 512]⟩
/-- The shape of the linear layer's matrix. -/
abbrev SW : Shape := ⟨2, ![512, 512]⟩
/-- The shape of the linear layer's bias. -/
abbrev SB : Shape := ⟨1, ![512]⟩

variable (O : SO.Idx → EReal) (W : SW.Idx → EReal) (bias : SB.Idx → EReal)

/-- The query: a linear layer (row s of batch b against row o of W, plus the bias) under tanh. -/
def qv (b : Fin 8) (s : Fin 2048) (o : Fin 512) : EReal :=
  Ideal.tanh ((∑ h : Fin 512, O (ix3 b s h) * W (ix2 o h)) + bias (ix1 o))

/-- The score of row t for the query of row s, in batch b. -/
def score (b : Fin 8) (s t : Fin 2048) : EReal :=
  ∑ h : Fin 512, qv O W bias b s h * O (ix3 b t h)

/-- The largest score of a row: the fold of max from −∞ over the 2048 columns. -/
def rowMax (b : Fin 8) (s : Fin 2048) : EReal :=
  (Finset.univ : Finset (Fin 2048)).fold max ⊥ (fun t => score O W bias b s t)

/-- The shifted exponential. -/
def e (b : Fin 8) (s t : Fin 2048) : EReal :=
  Ideal.exp (score O W bias b s t - rowMax O W bias b s)

/-- The softmax denominator of a row. -/
def den (b : Fin 8) (s : Fin 2048) : EReal :=
  ∑ t : Fin 2048, e O W bias b s t

/-- The attention output: the softmax weights of row (b, s) applied to the rows of batch b. -/
def out (b : Fin 8) (s : Fin 2048) (h : Fin 512) : EReal :=
  ∑ t : Fin 2048, Ideal.div (e O W bias b s t) (den O W bias b s) * O (ix3 b t h)

/-- The fold of max from −∞ is the supremum over the columns. -/
theorem rowMax_eq_sup (b : Fin 8) (s : Fin 2048) :
    rowMax O W bias b s = (Finset.univ : Finset (Fin 2048)).sup (fun t => score O W bias b s t) := rfl

/-- Every score is at most its row's maximum. -/
theorem score_le_rowMax (b : Fin 8) (s t : Fin 2048) : score O W bias b s t ≤ rowMax O W bias b s := by
  rw [rowMax_eq_sup]
  exact Finset.le_sup (f := fun t => score O W bias b s t) (Finset.mem_univ t)

/-- The maximum of a row is attained at one of its columns. -/
theorem rowMax_attained (b : Fin 8) (s : Fin 2048) : ∃ t : Fin 2048, rowMax O W bias b s = score O W bias b s t := by
  rw [rowMax_eq_sup]
  obtain ⟨t, _, ht⟩ := Finset.exists_mem_eq_sup (Finset.univ : Finset (Fin 2048)) ⟨0, Finset.mem_univ _⟩
    (fun t => score O W bias b s t)
  exact ⟨t, ht⟩

/-- The bit pattern of −∞ denotes −∞. -/
theorem ofBits_negInf : Ideal.ofBits .f32 0xFF800000#32 = (⊥ : EReal) := by
  simp [Ideal.ofBits, Ideal.ieee]

end Cert.Attn

end
-- ==== Proof.ScoreReal.lean ====
/-
  On real-valued inputs the query and the scores are real-valued.

  The hyperbolic tangent of a real is a real, and finite sums and products of reals are reals; so when every entry of
  the attended array, the matrix and the bias is a real number, each query entry and each score is the corresponding
  expression computed in the reals, read as an extended real.
-/
import proofs.«155556_j2886218023414_2_alg».proof.Proof.RefSpec

noncomputable section

namespace Cert.Attn

open Idealize.ShloMosaic Idealize.ShloMosaic.ValueIdx

/-- A finite sum of reals, each read as an extended real, is the real sum read as an extended real. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable (Or : SO.Idx → ℝ) (Wr : SW.Idx → ℝ) (br : SB.Idx → ℝ)

/-- The query computed in the reals. -/
def qvR (b : Fin 8) (s : Fin 2048) (o : Fin 512) : ℝ :=
  Real.tanh ((∑ h : Fin 512, Or (ix3 b s h) * Wr (ix2 o h)) + br (ix1 o))

/-- The score computed in the reals. -/
def scoreR (b : Fin 8) (s t : Fin 2048) : ℝ :=
  ∑ h : Fin 512, qvR Or Wr br b s h * Or (ix3 b t h)

/-- On real inputs the query is the real query. -/
theorem qv_coe (b : Fin 8) (s : Fin 2048) (o : Fin 512) :
    qv (fun i => (Or i : EReal)) (fun i => (Wr i : EReal)) (fun i => (br i : EReal)) b s o
      = ((qvR Or Wr br b s o : ℝ) : EReal) := by
  unfold qv qvR
  simp only [← EReal.coe_mul, coe_sum, ← EReal.coe_add, Ideal.tanh_coe]

/-- On real inputs the score is the real score. -/
theorem score_coe (b : Fin 8) (s t : Fin 2048) :
    score (fun i => (Or i : EReal)) (fun i => (Wr i : EReal)) (fun i => (br i : EReal)) b s t
      = ((scoreR Or Wr br b s t : ℝ) : EReal) := by
  unfold score scoreR
  simp only [qv_coe, ← EReal.coe_mul, coe_sum]

/-- When every entry of the three arrays is a real, every score is a real. -/
theorem score_real (O : SO.Idx → EReal) (W : SW.Idx → EReal) (bias : SB.Idx → EReal)
    (hO : ∀ i, ∃ r : ℝ, O i = (r : EReal)) (hW : ∀ i, ∃ r : ℝ, W i = (r : EReal))
    (hb : ∀ i, ∃ r : ℝ, bias i = (r : EReal)) (b : Fin 8) (s t : Fin 2048) :
    ∃ r : ℝ, score O W bias b s t = (r : EReal) := by
  choose Or hOr using hO
  choose Wr hWr using hW
  choose br hbr using hb
  obtain rfl : O = fun i => (Or i : EReal) := funext hOr
  obtain rfl : W = fun i => (Wr i : EReal) := funext hWr
  obtain rfl : bias = fun i => (br i : EReal) := funext hbr
  exact ⟨scoreR Or Wr br b s t, score_coe Or Wr br b s t⟩

/-- When every entry of the three arrays is a real, every query entry is a real. -/
theorem qv_real (O : SO.Idx → EReal) (W : SW.Idx → EReal) (bias : SB.Idx → EReal)
    (hO : ∀ i, ∃ r : ℝ, O i = (r : EReal)) (hW : ∀ i, ∃ r : ℝ, W i = (r : EReal))
    (hb : ∀ i, ∃ r : ℝ, bias i = (r : EReal)) (b : Fin 8) (s : Fin 2048) (o : Fin 512) :
    ∃ r : ℝ, qv O W bias b s o = (r : EReal) := by
  choose Or hOr using hO
  choose Wr hWr using hW
  choose br hbr using hb
  obtain rfl : O = fun i => (Or i : EReal) := funext hOr
  obtain rfl : W = fun i => (Wr i : EReal) := funext hWr
  obtain rfl : bias = fun i => (br i : EReal) := funext hbr
  exact ⟨qvR Or Wr br b s o, qv_coe Or Wr br b s o⟩

end Cert.Attn

end
-- ==== Proof.LibOnlineSoftmax.lean ====
/-
  Online softmax equals plain softmax, on the extended reals, for finite scores.

  A row of scores is cut into n tiles (tile k, key j inside the tile).  The online recursion keeps a
  running maximum m, a running denominator l and a running numerator a, and at every tile rescales
  the two running sums by exp (m_old - m_new).  The plain form takes the maximum M of all scores,
  the denominator L = sum of exp (s - M) and the quotient sum of (exp (s - M) / L) * o.
  Both are the same extended real as soon as every score and every value is a real number:
  the first tile multiplies the empty sums 0 by a factor, which is 0 whatever the factor is,
  and from then on every quantity is (the coercion of) a real number, where
  exp (a - b) * exp (c - a) = exp (c - b).
-/
import Mathlib
import Idealize.ShloMosaic.PureOps.Ideal

noncomputable section

open scoped BigOperators
open Idealize.ShloMosaic

namespace Cert.OnlineSoftmax

/-! ### Two facts about the extended reals -/

/-- The bottom element is neutral for max on the extended reals: max ⊥ x = x. -/
theorem max_bot_left' (x : EReal) : max ⊥ x = x := max_bot_left x

/-- Zero is neutral for addition on the extended reals: 0 + x = x. -/
theorem zero_add' (x : EReal) : (0 : EReal) + x = x := zero_add x

/-- The coercion of a finite sum of reals is the sum of the coercions. -/
theorem coe_sum {ι : Type*} (t : Finset ι) (f : ι → ℝ) :
    ((∑ i ∈ t, f i : ℝ) : EReal) = ∑ i ∈ t, ((f i : ℝ) : EReal) := by
  classical
  refine Finset.induction_on t (by simp) ?_
  intro i t hi ih
  rw [Finset.sum_insert hi, Finset.sum_insert hi, EReal.coe_add, ih]

/-- The coercion of a maximum of two reals is the maximum of the coercions. -/
theorem coe_max (x y : ℝ) : ((max x y : ℝ) : EReal) = max (x : EReal) (y : EReal) :=
  EReal.coe_strictMono.monotone.map_max

/-- A fold of max from ⊥ is the finite supremum. -/
theorem fold_max_eq_sup {ι : Type*} (t : Finset ι) (f : ι → EReal) :
    t.fold max ⊥ f = t.sup f := rfl

/-- exp of a difference of two reals, computed on the extended reals, is the real exponential. -/
theorem exp_coe_sub (x y : ℝ) :
    Ideal.exp ((x : EReal) - (y : EReal)) = ((Real.exp (x - y) : ℝ) : EReal) := by
  rw [← EReal.coe_sub, Ideal.exp_coe]

/-- The quotient of two reals with a nonzero denominator, computed on the extended reals. -/
theorem div_coe_coe (x : ℝ) {y : ℝ} (h : y ≠ 0) :
    Ideal.div (x : EReal) (y : EReal) = ((x / y : ℝ) : EReal) := by
  rw [Ideal.div_coe h, ← EReal.coe_mul, mul_one_div]

/-! ### One tile, and the real quantities the recursion computes -/

section Core

variable {J : Type*} [Fintype J] [Nonempty J]

/-- The maximum of the real scores of one tile, as a real number. -/
def tileMax (x : J → ℝ) : ℝ := Finset.univ.sup' Finset.univ_nonempty x

/-- The fold of max from ⊥ over one tile of real scores is (the coercion of) the real maximum of
    the tile: the tile is nonempty, so the starting value ⊥ does not survive. -/
theorem fold_tile (x : J → ℝ) :
    (Finset.univ : Finset J).fold max ⊥ (fun j => ((x j : ℝ) : EReal))
      = ((tileMax x : ℝ) : EReal) := by
  rw [fold_max_eq_sup, ← Finset.sup'_eq_sup Finset.univ_nonempty, tileMax]
  exact (Finset.apply_sup'_eq_sup'_comp Finset.univ_nonempty (fun r : ℝ => (r : EReal)) coe_max).symm

/-- The sum over one tile of exp (score - c), computed on the extended reals with a real c, is the
    coercion of the real sum. -/
theorem tile_sum_exp (x : J → ℝ) (c : ℝ) :
    ∑ j, Ideal.exp (((x j : ℝ) : EReal) - (c : EReal)) = ((∑ j, Real.exp (x j - c) : ℝ) : EReal) := by
  rw [coe_sum]
  exact Finset.sum_congr rfl fun j _ => exp_coe_sub (x j) c

/-- The sum over one tile of exp (score - c) * value, computed on the extended reals with a real c,
    is the coercion of the real sum. -/
theorem tile_sum_exp_mul (x y : J → ℝ) (c : ℝ) :
    ∑ j, Ideal.exp (((x j : ℝ) : EReal) - (c : EReal)) * ((y j : ℝ) : EReal)
      = ((∑ j, Real.exp (x j - c) * y j : ℝ) : EReal) := by
  rw [coe_sum]
  refine Finset.sum_congr rfl fun j _ => ?_
  rw [exp_coe_sub, ← EReal.coe_mul]

/-- The maximum of the scores of the tiles 0, …, k (k + 1 tiles), by recursion on k. -/
def prefMax (S : ℕ → J → ℝ) : ℕ → ℝ
  | 0 => tileMax (S 0)
  | k + 1 => max (prefMax S k) (tileMax (S (k + 1)))

/-- The denominator of the first k tiles against the reference point c:
    the sum over tiles i < k and keys j of exp (S i j - c). -/
def denom (S : ℕ → J → ℝ) (c : ℝ) (k : ℕ) : ℝ :=
  ∑ i ∈ Finset.range k, ∑ j, Real.exp (S i j - c)

/-- The numerator of the first k tiles against the reference point c:
    the sum over tiles i < k and keys j of exp (S i j - c) * O i j. -/
def numer (S O : ℕ → J → ℝ) (c : ℝ) (k : ℕ) : ℝ :=
  ∑ i ∈ Finset.range k, ∑ j, Real.exp (S i j - c) * O i j

/-- Changing the reference point from c to d multiplies the denominator by exp (c - d). -/
theorem rescale_denom (S : ℕ → J → ℝ) (c d : ℝ) (k : ℕ) :
    Real.exp (c - d) * denom S c k = denom S d k := by
  unfold denom
  rw [Finset.mul_sum]
  refine Finset.sum_congr rfl fun i _ => ?_
  rw [Finset.mul_sum]
  refine Finset.sum_congr rfl fun j _ => ?_
  rw [← Real.exp_add]
  congr 1
  ring

/-- Changing the reference point from c to d multiplies the numerator by exp (c - d). -/
theorem rescale_numer (S O : ℕ → J → ℝ) (c d : ℝ) (k : ℕ) :
    Real.exp (c - d) * numer S O c k = numer S O d k := by
  unfold numer
  rw [Finset.mul_sum]
  refine Finset.sum_congr rfl fun i _ => ?_
  rw [Finset.mul_sum]
  refine Finset.sum_congr rfl fun j _ => ?_
  rw [← mul_assoc, ← Real.exp_add]
  congr 2
  ring

/-- The denominator of at least one tile is positive. -/
theorem denom_pos (S : ℕ → J → ℝ) (c : ℝ) (k : ℕ) : 0 < denom S c (k + 1) := by
  unfold denom
  refine Finset.sum_pos (fun i _ => Finset.sum_pos (fun j _ => Real.exp_pos _) Finset.univ_nonempty) ?_
  exact ⟨0, Finset.mem_range.2 (Nat.succ_pos k)⟩

/-- The supremum over the tiles 0, …, k of the tile maxima, on the extended reals, is the
    coercion of the real maximum of those tiles. -/
theorem sup_range_tileMax (S : ℕ → J → ℝ) (k : ℕ) :
    (Finset.range (k + 1)).sup (fun i => ((tileMax (S i) : ℝ) : EReal))
      = ((prefMax S k : ℝ) : EReal) := by
  induction k with
  | zero => simp [prefMax]
  | succ k ih =>
    rw [Finset.range_add_one, Finset.sup_insert, ih, prefMax, coe_max, max_comm]

/-- The online recursion over tiles indexed by natural numbers: after k + 1 tiles (k < n) the
    running maximum is the real maximum of those tiles, and the running denominator and numerator
    are the real denominator and numerator of those tiles against that maximum. -/
theorem online_closed (S O : ℕ → J → ℝ) (n : ℕ) (m l a : ℕ → EReal)
    (hm0 : m 0 = ⊥) (hl0 : l 0 = 0) (ha0 : a 0 = 0)
    (hm : ∀ k, k < n → m (k + 1) = max (m k) ((tileMax (S k) : ℝ) : EReal))
    (hl : ∀ k, k < n → l (k + 1)
      = Ideal.exp (m k - m (k + 1)) * l k + ∑ j, Ideal.exp (((S k j : ℝ) : EReal) - m (k + 1)))
    (ha : ∀ k, k < n → a (k + 1)
      = Ideal.exp (m k - m (k + 1)) * a k
        + ∑ j, Ideal.exp (((S k j : ℝ) : EReal) - m (k + 1)) * ((O k j : ℝ) : EReal))
    (k : ℕ) (hk : k < n) :
    m (k + 1) = ((prefMax S k : ℝ) : EReal)
      ∧ l (k + 1) = ((denom S (prefMax S k) (k + 1) : ℝ) : EReal)
      ∧ a (k + 1) = ((numer S O (prefMax S k) (k + 1) : ℝ) : EReal) := by
  induction k with
  | zero =>
    have h1 : m (0 + 1) = ((prefMax S 0 : ℝ) : EReal) := by
      rw [hm 0 hk, hm0, max_bot_left]; rfl
    refine ⟨h1, ?_, ?_⟩
    · rw [hl 0 hk, hl0, mul_zero, zero_add, h1, tile_sum_exp]
      simp [denom]
    · rw [ha 0 hk, ha0, mul_zero, zero_add, h1, tile_sum_exp_mul]
      simp [numer]
  | succ k ih =>
    obtain ⟨im, il, ia⟩ := ih (Nat.lt_of_succ_lt hk)
    have h1 : m (k + 1 + 1) = ((prefMax S (k + 1) : ℝ) : EReal) := by
      rw [hm (k + 1) hk, im, ← coe_max]; rfl
    refine ⟨h1, ?_, ?_⟩
    · rw [hl (k + 1) hk, h1, im, il, exp_coe_sub, tile_sum_exp, ← EReal.coe_mul, ← EReal.coe_add,
        rescale_denom]
      congr 1
      rw [denom, denom, Finset.sum_range_succ _ (k + 1)]
    · rw [ha (k + 1) hk, h1, im, ia, exp_coe_sub, tile_sum_exp_mul, ← EReal.coe_mul, ← EReal.coe_add,
        rescale_numer]
      congr 1
      rw [numer, numer, Finset.sum_range_succ _ (k + 1)]

end Core

/-! ### Tiles indexed by Fin n: the statement in the form a tiled kernel presents it -/

section Main

variable {J : Type*} [Fintype J] [Nonempty J] {n : ℕ}

/-- A family of n tiles continued to every natural index, by 0 beyond the last tile. -/
def extend (s : Fin n → J → ℝ) : ℕ → J → ℝ :=
  fun k j => if h : k < n then s ⟨k, h⟩ j else 0

/-- The continuation agrees with the family on the indices below n. -/
theorem extend_val (s : Fin n → J → ℝ) (k : Fin n) : extend s k.val = s k := by
  funext j
  simp [extend, k.isLt]

/-- The maximum of all the scores of the row (for n > 0), as a real number. -/
def rowMax (s : Fin n → J → ℝ) : ℝ := prefMax (extend s) (n - 1)

/-- The softmax denominator of the row: the sum over all tiles and keys of exp (s - rowMax). -/
def rowDen (s : Fin n → J → ℝ) : ℝ := ∑ k, ∑ j, Real.exp (s k j - rowMax s)

/-- The softmax numerator of the row: the sum over all tiles and keys of exp (s - rowMax) * o. -/
def rowNum (s o : Fin n → J → ℝ) : ℝ := ∑ k, ∑ j, Real.exp (s k j - rowMax s) * o k j

/-- A supremum over Fin n of a function of the index's value is the supremum over range n. -/
theorem sup_fin_eq_sup_range (g : ℕ → EReal) :
    (Finset.univ : Finset (Fin n)).sup (fun k => g k.val) = (Finset.range n).sup g := by
  apply le_antisymm
  · exact Finset.sup_le fun k _ => Finset.le_sup (f := g) (Finset.mem_range.2 k.isLt)
  · exact Finset.sup_le fun i hi =>
      Finset.le_sup (f := fun k : Fin n => g k.val) (Finset.mem_univ ⟨i, Finset.mem_range.1 hi⟩)

/-- The denominator of the continued family over the first n tiles is the sum over Fin n. -/
theorem denom_extend (s : Fin n → J → ℝ) (c : ℝ) :
    denom (extend s) c n = ∑ k, ∑ j, Real.exp (s k j - c) := by
  unfold denom
  rw [← Fin.sum_univ_eq_sum_range (fun i => ∑ j, Real.exp (extend s i j - c)) n]
  refine Finset.sum_congr rfl fun k _ => ?_
  rw [extend_val]

/-- The numerator of the continued families over the first n tiles is the sum over Fin n. -/
theorem numer_extend (s o : Fin n → J → ℝ) (c : ℝ) :
    numer (extend s) (extend o) c n = ∑ k, ∑ j, Real.exp (s k j - c) * o k j := by
  unfold numer
  rw [← Fin.sum_univ_eq_sum_range (fun i => ∑ j, Real.exp (extend s i j - c) * extend o i j) n]
  refine Finset.sum_congr rfl fun k _ => ?_
  rw [extend_val, extend_val]

/-- The fold of max from ⊥ over all tiles and keys of real scores is (the coercion of) the real
    maximum of the row, when there is at least one tile. -/
theorem fold_all (s : Fin n → J → ℝ) (hn : 0 < n) :
    (Finset.univ : Finset (Fin n × J)).fold max ⊥ (fun p => ((s p.1 p.2 : ℝ) : EReal))
      = ((rowMax s : ℝ) : EReal) := by
  obtain ⟨N, rfl⟩ : ∃ N, n = N + 1 := ⟨n - 1, by omega⟩
  have htile : ∀ k : Fin (N + 1), (Finset.univ.sup fun j => ((s k j : ℝ) : EReal))
      = ((tileMax (extend s k.val) : ℝ) : EReal) := by
    intro k
    rw [← fold_max_eq_sup, fold_tile, extend_val]
  rw [fold_max_eq_sup, ← Finset.univ_product_univ, Finset.sup_product_left,
    Finset.sup_congr rfl (fun k _ => htile k),
    sup_fin_eq_sup_range (fun i => ((tileMax (extend s i) : ℝ) : EReal)), sup_range_tileMax]
  rfl

/-- The row maximum is real: every score is at most it. -/
theorem le_rowMax (s : Fin n → J → ℝ) (k : Fin n) (j : J) : s k j ≤ rowMax s := by
  have hn : 0 < n := Nat.lt_of_le_of_lt (Nat.zero_le _) k.isLt
  have h : ((s k j : ℝ) : EReal) ≤ ((rowMax s : ℝ) : EReal) := by
    rw [← fold_all s hn, fold_max_eq_sup]
    exact Finset.le_sup (f := fun p : Fin n × J => ((s p.1 p.2 : ℝ) : EReal)) (Finset.mem_univ (k, j))
  exact EReal.coe_le_coe_iff.1 h

/-- The softmax denominator of a row with at least one tile is positive. -/
theorem rowDen_pos (s : Fin n → J → ℝ) (hn : 0 < n) : 0 < rowDen s := by
  obtain ⟨N, rfl⟩ : ∃ N, n = N + 1 := ⟨n - 1, by omega⟩
  rw [rowDen, ← denom_extend]
  exact denom_pos _ _ N

/-- Closed forms of the online recursion after all n tiles (n > 0): the running maximum is the
    row maximum, the running denominator is the softmax denominator, the running numerator is
    the softmax numerator, each a real number. -/
theorem online_final (s o : Fin n → J → ℝ) (hn : 0 < n) (m l a : ℕ → EReal)
    (hm0 : m 0 = ⊥) (hl0 : l 0 = 0) (ha0 : a 0 = 0)
    (hm : ∀ k : Fin n, m (k.val + 1)
      = max (m k.val) ((Finset.univ : Finset J).fold max ⊥ (fun j => ((s k j : ℝ) : EReal))))
    (hl : ∀ k : Fin n, l (k.val + 1)
      = Ideal.exp (m k.val - m (k.val + 1)) * l k.val
        + ∑ j, Ideal.exp (((s k j : ℝ) : EReal) - m (k.val + 1)))
    (ha : ∀ k : Fin n, a (k.val + 1)
      = Ideal.exp (m k.val - m (k.val + 1)) * a k.val
        + ∑ j, Ideal.exp (((s k j : ℝ) : EReal) - m (k.val + 1)) * ((o k j : ℝ) : EReal)) :
    m n = ((rowMax s : ℝ) : EReal) ∧ l n = ((rowDen s : ℝ) : EReal)
      ∧ a n = ((rowNum s o : ℝ) : EReal) := by
  obtain ⟨N, rfl⟩ : ∃ N, n = N + 1 := ⟨n - 1, by omega⟩
  have key := online_closed (extend s) (extend o) (N + 1) m l a hm0 hl0 ha0
    (by
      intro k hk
      have e : extend s k = s ⟨k, hk⟩ := extend_val s ⟨k, hk⟩
      rw [e, ← fold_tile]
      exact hm ⟨k, hk⟩)
    (by
      intro k hk
      have e : extend s k = s ⟨k, hk⟩ := extend_val s ⟨k, hk⟩
      rw [e]
      exact hl ⟨k, hk⟩)
    (by
      intro k hk
      have e : extend s k = s ⟨k, hk⟩ := extend_val s ⟨k, hk⟩
      have e' : extend o k = o ⟨k, hk⟩ := extend_val o ⟨k, hk⟩
      rw [e, e']
      exact ha ⟨k, hk⟩)
    N (Nat.lt_succ_self N)
  obtain ⟨km, kl, ka⟩ := key
  refine ⟨km, ?_, ?_⟩
  · rw [kl, denom_extend]; rfl
  · rw [ka, numer_extend]; rfl

/-- The plain softmax denominator, computed on the extended reals against the (real) row maximum,
    is the coercion of the real softmax denominator. -/
theorem sum_all_exp (s : Fin n → J → ℝ) :
    ∑ k, ∑ j, Ideal.exp (((s k j : ℝ) : EReal) - ((rowMax s : ℝ) : EReal))
      = ((rowDen s : ℝ) : EReal) := by
  rw [rowDen, coe_sum]
  exact Finset.sum_congr rfl fun k _ => tile_sum_exp (s k) (rowMax s)

/-- The plain softmax numerator, computed on the extended reals against the (real) row maximum,
    is the coercion of the real softmax numerator. -/
theorem sum_all_exp_mul (s o : Fin n → J → ℝ) :
    ∑ k, ∑ j, Ideal.exp (((s k j : ℝ) : EReal) - ((rowMax s : ℝ) : EReal)) * ((o k j : ℝ) : EReal)
      = ((rowNum s o : ℝ) : EReal) := by
  rw [rowNum, coe_sum]
  exact Finset.sum_congr rfl fun k _ => tile_sum_exp_mul (s k) (o k) (rowMax s)

/-- The online recursion after all n tiles (n > 0) has reached the plain quantities: the running
    maximum is the global maximum M, the running denominator is L = sum of exp (s - M), and the
    running numerator is the sum of exp (s - M) * o. -/
theorem online_final_plain (s o : Fin n → J → ℝ) (hn : 0 < n) (m l a : ℕ → EReal) (M L : EReal)
    (hM : M = (Finset.univ : Finset (Fin n × J)).fold max ⊥ (fun p => ((s p.1 p.2 : ℝ) : EReal)))
    (hL : L = ∑ k, ∑ j, Ideal.exp (((s k j : ℝ) : EReal) - M))
    (hm0 : m 0 = ⊥) (hl0 : l 0 = 0) (ha0 : a 0 = 0)
    (hm : ∀ k : Fin n, m (k.val + 1)
      = max (m k.val) ((Finset.univ : Finset J).fold max ⊥ (fun j => ((s k j : ℝ) : EReal))))
    (hl : ∀ k : Fin n, l (k.val + 1)
      = Ideal.exp (m k.val - m (k.val + 1)) * l k.val
        + ∑ j, Ideal.exp (((s k j : ℝ) : EReal) - m (k.val + 1)))
    (ha : ∀ k : Fin n, a (k.val + 1)
      = Ideal.exp (m k.val - m (k.val + 1)) * a k.val
        + ∑ j, Ideal.exp (((s k j : ℝ) : EReal) - m (k.val + 1)) * ((o k j : ℝ) : EReal)) :
    m n = M ∧ l n = L
      ∧ a n = ∑ k, ∑ j, Ideal.exp (((s k j : ℝ) : EReal) - M) * ((o k j : ℝ) : EReal) := by
  obtain ⟨fm, fl, fa⟩ := online_final s o hn m l a hm0 hl0 ha0 hm hl ha
  have hM' : M = ((rowMax s : ℝ) : EReal) := hM.trans (fold_all s hn)
  refine ⟨fm.trans hM'.symm, ?_, ?_⟩
  · rw [fl, hL, hM', sum_all_exp]
  · rw [fa, hM', sum_all_exp_mul]

/-- Online softmax equals plain softmax.  For real scores s and values o cut into n > 0 nonempty
    tiles, let M be the fold of max from ⊥ over all scores and L the sum of exp (s - M).  If m, l, a
    follow the online recursion from m 0 = ⊥, l 0 = 0, a 0 = 0 (new maximum; old sums rescaled by
    exp (m_old - m_new) plus the tile's sums against m_new), then a n / l n is the softmax-weighted
    sum of the values: the sum over all keys of (exp (s - M) / L) * o. -/
theorem online_eq_softmax (s o : Fin n → J → ℝ) (hn : 0 < n) (m l a : ℕ → EReal) (M L : EReal)
    (hM : M = (Finset.univ : Finset (Fin n × J)).fold max ⊥ (fun p => ((s p.1 p.2 : ℝ) : EReal)))
    (hL : L = ∑ k, ∑ j, Ideal.exp (((s k j : ℝ) : EReal) - M))
    (hm0 : m 0 = ⊥) (hl0 : l 0 = 0) (ha0 : a 0 = 0)
    (hm : ∀ k : Fin n, m (k.val + 1)
      = max (m k.val) ((Finset.univ : Finset J).fold max ⊥ (fun j => ((s k j : ℝ) : EReal))))
    (hl : ∀ k : Fin n, l (k.val + 1)
      = Ideal.exp (m k.val - m (k.val + 1)) * l k.val
        + ∑ j, Ideal.exp (((s k j : ℝ) : EReal) - m (k.val + 1)))
    (ha : ∀ k : Fin n, a (k.val + 1)
      = Ideal.exp (m k.val - m (k.val + 1)) * a k.val
        + ∑ j, Ideal.exp (((s k j : ℝ) : EReal) - m (k.val + 1)) * ((o k j : ℝ) : EReal)) :
    Ideal.div (a n) (l n)
      = ∑ k, ∑ j, Ideal.div (Ideal.exp (((s k j : ℝ) : EReal) - M)) L * ((o k j : ℝ) : EReal) := by
  obtain ⟨-, fl, fa⟩ := online_final s o hn m l a hm0 hl0 ha0 hm hl ha
  have hM' : M = ((rowMax s : ℝ) : EReal) := hM.trans (fold_all s hn)
  have hL' : L = ((rowDen s : ℝ) : EReal) := by
    rw [hL, hM', sum_all_exp]
  have hden : rowDen s ≠ 0 := (rowDen_pos s hn).ne'
  have hterm : ∀ k j, Ideal.div (Ideal.exp (((s k j : ℝ) : EReal) - M)) L * ((o k j : ℝ) : EReal)
      = ((Real.exp (s k j - rowMax s) / rowDen s * o k j : ℝ) : EReal) := by
    intro k j
    rw [hM', hL', exp_coe_sub, div_coe_coe _ hden, ← EReal.coe_mul]
  rw [fa, fl, div_coe_coe _ hden,
    Finset.sum_congr rfl (fun k _ => Finset.sum_congr rfl (fun j _ => hterm k j)),
    Finset.sum_congr rfl (fun k _ => (coe_sum Finset.univ _).symm), ← coe_sum]
  congr 1
  rw [rowNum, Finset.sum_div]
  refine Finset.sum_congr rfl fun k _ => ?_
  rw [Finset.sum_div]
  refine Finset.sum_congr rfl fun j _ => ?_
  ring

end Main

/-! ### Re-indexing 2048 keys as 4 tiles of 512 -/

section Reindex

/-- The bijection between (tile, key in the tile) and the key's position in the row:
    (k, j) ↦ k * 512 + j, with inverse t ↦ (t / 512, t % 512). -/
def tileEquiv : Fin 4 × Fin 512 ≃ Fin 2048 where
  toFun p := ⟨p.1.val * 512 + p.2.val, by omega⟩
  invFun t := (⟨t.val / 512, by omega⟩, ⟨t.val % 512, by omega⟩)
  left_inv := by
    rintro ⟨k, j⟩
    ext <;> simp <;> omega
  right_inv := by
    intro t
    ext
    simp
    omega

/-- A sum over 2048 keys is the sum over 4 tiles of the sums over the 512 keys of each tile. -/
theorem sum_tiles {M : Type*} [AddCommMonoid M] (f : Fin 2048 → M) :
    (∑ t : Fin 2048, f t) = ∑ k : Fin 4, ∑ j : Fin 512, f ⟨k.val * 512 + j.val, by omega⟩ := by
  rw [← Fintype.sum_prod_type' (f := fun (k : Fin 4) (j : Fin 512) => f ⟨k.val * 512 + j.val, by omega⟩)]
  exact (Fintype.sum_equiv tileEquiv _ _ (fun _ => rfl)).symm

/-- A fold of max from ⊥ over 2048 keys is the fold over the pairs (tile, key in the tile). -/
theorem fold_max_tiles_prod (f : Fin 2048 → EReal) :
    (Finset.univ : Finset (Fin 2048)).fold max ⊥ f
      = (Finset.univ : Finset (Fin 4 × Fin 512)).fold max ⊥
          (fun p => f ⟨p.1.val * 512 + p.2.val, by omega⟩) := by
  rw [← Finset.map_univ_equiv tileEquiv, Finset.fold_map]
  rfl

/-- A fold of max from ⊥ over 2048 keys is the fold over the 4 tiles of the folds over the 512
    keys of each tile. -/
theorem fold_max_tiles (f : Fin 2048 → EReal) :
    (Finset.univ : Finset (Fin 2048)).fold max ⊥ f
      = (Finset.univ : Finset (Fin 4)).fold max ⊥ (fun k =>
          (Finset.univ : Finset (Fin 512)).fold max ⊥
            (fun j => f ⟨k.val * 512 + j.val, by omega⟩)) := by
  rw [fold_max_tiles_prod, fold_max_eq_sup, ← Finset.univ_product_univ, Finset.sup_product_left]
  rfl

end Reindex

/-! ### The row of 2048 keys in 4 tiles of 512, in flat form -/

section Flat

/-- Online softmax over 4 tiles of 512 keys equals plain softmax over the 2048 keys of the row, with
    scores and values given by their position in the row: tile k holds the keys k * 512 + j.
    M is the fold of max from ⊥ over the 2048 scores and L the sum of exp (score - M). -/
theorem online_eq_softmax_2048 (sf vf : Fin 2048 → ℝ) (m l a : ℕ → EReal) (M L : EReal)
    (hM : M = (Finset.univ : Finset (Fin 2048)).fold max ⊥ (fun t => ((sf t : ℝ) : EReal)))
    (hL : L = ∑ t : Fin 2048, Ideal.exp (((sf t : ℝ) : EReal) - M))
    (hm0 : m 0 = ⊥) (hl0 : l 0 = 0) (ha0 : a 0 = 0)
    (hm : ∀ k : Fin 4, m (k.val + 1)
      = max (m k.val) ((Finset.univ : Finset (Fin 512)).fold max ⊥
          (fun j => ((sf ⟨k.val * 512 + j.val, by omega⟩ : ℝ) : EReal))))
    (hl : ∀ k : Fin 4, l (k.val + 1)
      = Ideal.exp (m k.val - m (k.val + 1)) * l k.val
        + ∑ j : Fin 512, Ideal.exp (((sf ⟨k.val * 512 + j.val, by omega⟩ : ℝ) : EReal) - m (k.val + 1)))
    (ha : ∀ k : Fin 4, a (k.val + 1)
      = Ideal.exp (m k.val - m (k.val + 1)) * a k.val
        + ∑ j : Fin 512, Ideal.exp (((sf ⟨k.val * 512 + j.val, by omega⟩ : ℝ) : EReal) - m (k.val + 1))
            * ((vf ⟨k.val * 512 + j.val, by omega⟩ : ℝ) : EReal)) :
    Ideal.div (a 4) (l 4)
      = ∑ t : Fin 2048, Ideal.div (Ideal.exp (((sf t : ℝ) : EReal) - M)) L * ((vf t : ℝ) : EReal) := by
  rw [sum_tiles (fun t => Ideal.div (Ideal.exp (((sf t : ℝ) : EReal) - M)) L * ((vf t : ℝ) : EReal))]
  refine online_eq_softmax (n := 4) (J := Fin 512)
    (fun k j => sf ⟨k.val * 512 + j.val, by omega⟩) (fun k j => vf ⟨k.val * 512 + j.val, by omega⟩)
    (by norm_num) m l a M L ?_ ?_ hm0 hl0 ha0 hm hl ha
  · rw [hM, fold_max_tiles_prod]
  · rw [hL, sum_tiles]

end Flat

end Cert.OnlineSoftmax
-- ==== Proof.KernelSpec.lean ====
/-
  The online recursion of one output entry, stated over the specification's scores: for batch `b`, query
  row `s` and output column `hh`, the running maximum, denominator and numerator after `k` key tiles of
  512 keys. After the four tiles numerator / denominator is the softmax-weighted sum of the values: the
  rescaling factors `exp (m_old − m_new)` telescope, because every score is a real number.
-/
import proofs.«155556_j2886218023414_2_alg».proof.Proof.RefSpec
import proofs.«155556_j2886218023414_2_alg».proof.Proof.ScoreReal
import proofs.«155556_j2886218023414_2_alg».proof.Proof.LibOnlineSoftmax

noncomputable section

namespace Cert.Attn

open Idealize.ShloMosaic Idealize.ShloMosaic.ValueIdx

variable (O : SO.Idx → EReal) (W : SW.Idx → EReal) (bias : SB.Idx → EReal)

/-- The score of key `j` of tile `k` against query row `s` (tiles beyond the fourth are not used). -/
def tsc (b : Fin 8) (s : Fin 2048) (k : ℕ) (j : Fin 512) : EReal :=
  if h : k < 4 then score O W bias b s ⟨k * 512 + j.val, by omega⟩ else 0

/-- The value, in column `hh`, of key `j` of tile `k`. -/
def tval (b : Fin 8) (hh : Fin 512) (k : ℕ) (j : Fin 512) : EReal :=
  if h : k < 4 then O (ix3 b ⟨k * 512 + j.val, by omega⟩ hh) else 0

/-- The running maximum after `k` tiles. -/
def mS (b : Fin 8) (s : Fin 2048) : ℕ → EReal
  | 0 => ⊥
  | k + 1 => max (mS b s k) ((Finset.univ : Finset (Fin 512)).fold max ⊥ (fun j => tsc O W bias b s k j))

/-- The running denominator after `k` tiles. -/
def lS (b : Fin 8) (s : Fin 2048) : ℕ → EReal
  | 0 => 0
  | k + 1 => Ideal.exp (mS O W bias b s k - mS O W bias b s (k + 1)) * lS b s k
      + ∑ j : Fin 512, Ideal.exp (tsc O W bias b s k j - mS O W bias b s (k + 1))

/-- The running numerator of column `hh` after `k` tiles. -/
def aS (b : Fin 8) (s : Fin 2048) (hh : Fin 512) : ℕ → EReal
  | 0 => 0
  | k + 1 => Ideal.exp (mS O W bias b s k - mS O W bias b s (k + 1)) * aS b s hh k
      + ∑ j : Fin 512, Ideal.exp (tsc O W bias b s k j - mS O W bias b s (k + 1)) * tval O b hh k j

/-- After the four tiles the quotient is the specification's output entry. -/
theorem online_out (hO : ∀ i, ∃ r : ℝ, O i = (r : EReal)) (hW : ∀ i, ∃ r : ℝ, W i = (r : EReal))
    (hb : ∀ i, ∃ r : ℝ, bias i = (r : EReal)) (b : Fin 8) (s : Fin 2048) (hh : Fin 512) :
    Ideal.div (aS O W bias b s hh 4) (lS O W bias b s 4) = out O W bias b s hh := by
  choose sf hsf using fun t : Fin 2048 => score_real O W bias hO hW hb b s t
  choose vf hvf using fun t : Fin 2048 => hO (ix3 b t hh)
  have key := Cert.OnlineSoftmax.online_eq_softmax_2048 sf vf (mS O W bias b s) (lS O W bias b s) (aS O W bias b s hh)
    (rowMax O W bias b s) (den O W bias b s)
    (by unfold rowMax; simp only [hsf]) (by unfold den e; simp only [hsf]) rfl rfl rfl
    (fun k => by
      show max _ _ = _
      have hk : k.val < 4 := k.isLt
      simp only [tsc, hk, dif_pos, hsf])
    (fun k => by
      show _ * _ + _ = _
      have hk : k.val < 4 := k.isLt
      simp only [tsc, hk, dif_pos, hsf])
    (fun k => by
      show _ * _ + _ = _
      have hk : k.val < 4 := k.isLt
      simp only [tsc, tval, hk, dif_pos, hsf, hvf])
  rw [key]
  unfold out e
  simp only [hsf, hvf]

end Cert.Attn

end
-- ==== Proof.FrameKI.InvDef.lean ====
/-
  What the scratch buffers and the output block hold after every grid point, in terms of the
  specification: at point t = (b·2 + qi)·4 + k, for query row r of the tile (row s = qi·1024 + r of batch b),
  the query scratch holds the projected queries of row s, and the three running statistics hold the online
  recursion's maximum, denominator and numerator after k + 1 key tiles; after a last tile (k = 3) the output
  block holds numerator / denominator.
-/
import proofs.«155556_j2886218023414_2_alg».proof.Proof.FrameKI.Body
import proofs.«155556_j2886218023414_2_alg».proof.Proof.FrameKI.Blocks
import proofs.«155556_j2886218023414_2_alg».proof.Proof.KernelSpec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Attn

variable (m : (ℓ : Loc nD τ sig) → Buf (Elt Ideal) ℓ) (c : Dev nD)

/-- The three argument arrays as launched, as functions of their indices. -/
abbrev argO : SO.Idx → EReal := (m ((c : Thread nD τ).loc main_arg0) : S8x2048x512.Idx → EReal)
abbrev argW : SW.Idx → EReal := (m ((c : Thread nD τ).loc main_arg1) : S512x512.Idx → EReal)
abbrev argB : SB.Idx → EReal := (m ((c : Thread nD τ).loc main_arg2) : S512.Idx → EReal)

/-- The batch of grid point `t`, and the row of the tensor that row `r` of its query tile is. -/
def bOf (t : Fin cfg0.N) : Fin 8 := ⟨t.val / 8, by have := t_lt t; omega⟩
def sOf (t : Fin cfg0.N) (r : Fin 1024) : Fin 2048 := ⟨(t.val / 4 % 2) * 1024 + r.val, by omega⟩

/-- The state after point `t` is the online recursion's after `t % 4 + 1` key tiles. -/
structure Inv (t : Fin cfg0.N) : Prop where
  q : ∀ (r : Fin 1024) (o : Fin 512),
    ((outsAt m c t.val t.isLt).2.1 : S1024x512.Idx → EReal) (ix2 r o) = qv (argO m c) (argW m c) (argB m c) (bOf t) (sOf t r) o
  mx : ∀ r : Fin 1024,
    ((outsAt m c t.val t.isLt).2.2.1 : S1024x1.Idx → EReal) (ix2 r (0 : Fin 1)) = mS (argO m c) (argW m c) (argB m c) (bOf t) (sOf t r) (t.val % 4 + 1)
  l : ∀ r : Fin 1024,
    ((outsAt m c t.val t.isLt).2.2.2.1 : S1024x1.Idx → EReal) (ix2 r (0 : Fin 1)) = lS (argO m c) (argW m c) (argB m c) (bOf t) (sOf t r) (t.val % 4 + 1)
  a : ∀ (r : Fin 1024) (h : Fin 512),
    ((outsAt m c t.val t.isLt).2.2.2.2 : S1024x512.Idx → EReal) (ix2 r h) = aS (argO m c) (argW m c) (argB m c) (bOf t) (sOf t r) h (t.val % 4 + 1)
  o : t.val % 4 = 3 → ∀ (r : Fin 1024) (h : Fin 512),
    ((outsAt m c t.val t.isLt).1 : S1x1024x512.Idx → EReal) (ix3 (0 : Fin 1) r h)
      = Ideal.div (aS (argO m c) (argW m c) (argB m c) (bOf t) (sOf t r) h 4) (lS (argO m c) (argW m c) (argB m c) (bOf t) (sOf t r) 4)

end Cert.KernelIdeal.Hand

end
-- ==== Proof.FrameKI.Pieces.lean ====
/-
  The attention kernel's frame: what each case's stores leave, read back.

  Every store of the kernel fills a whole buffer (a rectangle at zero offsets of the buffer's own sizes), so of the
  pieces a case leaves in a buffer the last one alone is the contents, and every load reads a whole buffer: either an
  input block, or what an earlier store of the same case left. Read back this way, a first key tile leaves the
  projected queries and the statistics updated from their reset values; a middle tile keeps the queries and updates
  the statistics from the ones before; a last tile does the same and stores, into the output block, the quotient of
  the updated numerator by the updated denominator.
-/
import proofs.«155556_j2886218023414_2_alg».proof.Proof.FrameKI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Whole-buffer rectangles -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## A first key tile -/

/-- After a first key tile the query buffer holds the projected queries of the query block. -/
theorem stA_Q (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) :
    (stA c i arg3 harg3 arg4 harg4 arg5 harg5 arg6 harg6 arg7 harg7 arg8 harg8 arg9 harg9 arg10 harg10 arg11 harg11 hc1 hc2 x0 x1 x2 x3).1 = k0_pay3 x0 x2 x3 := by
  unfold stA
  dsimp only
  rw [View.read_writes_eq_canon _ _ _ (coverA_Q c i arg3 harg3 arg4 harg4 arg5 harg5 arg6 harg6 arg7 harg7 arg8 harg8 arg9 harg9 arg10 harg10 arg11 harg11 hc1 hc2 x0 x1 x2 x3)]
  unfold kernelRunA
  dsimp only
  sl_unfold_words
  first
    | rw [View.canon_unit_zero (S := S1024x512) hz2]
    | rw [View.canon_cons_unit_zero (S := S1024x512) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- After a first key tile the running maximum is the tile's, taken against the reset value. -/
theorem stA_M (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) :
    (stA c i arg3 harg3 arg4 harg4 arg5 harg5 arg6 harg6 arg7 harg7 arg8 harg8 arg9 harg9 arg10 harg10 arg11 harg11 hc1 hc2 x0 x1 x2 x3).2.1 = k0_pay1 (k0_pay9 x1 (k0_pay3 x0 x2 x3) k0_pay4) := by
  unfold stA
  dsimp only
  rw [View.read_writes_eq_canon _ _ _ (coverA_M c i arg3 harg3 arg4 harg4 arg5 harg5 arg6 harg6 arg7 harg7 arg8 harg8 arg9 harg9 arg10 harg10 arg11 harg11 hc1 hc2 x0 x1 x2 x3)]
  unfold kernelRunA
  dsimp only
  sl_unfold_words
  first
    | rw [View.canon_unit_zero (S := S1024x1) hz2]
    | rw [View.canon_cons_unit_zero (S := S1024x1) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- After a first key tile the running denominator is the update of the reset denominator. -/
theorem stA_L (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) :
    (stA c i arg3 harg3 arg4 harg4 arg5 harg5 arg6 harg6 arg7 harg7 arg8 harg8 arg9 harg9 arg10 harg10 arg11 harg11 hc1 hc2 x0 x1 x2 x3).2.2.1 = k0_pay12 x1 (k0_pay3 x0 x2 x3) k0_pay4 k0_pay5 := by
  unfold stA
  dsimp only
  rw [View.read_writes_eq_canon _ _ _ (coverA_L c i arg3 harg3 arg4 harg4 arg5 harg5 arg6 harg6 arg7 harg7 arg8 harg8 arg9 harg9 arg10 harg10 arg11 harg11 hc1 hc2 x0 x1 x2 x3)]
  unfold kernelRunA
  dsimp only
  sl_unfold_words
  first
    | rw [View.canon_unit_zero (S := S1024x1) hz2]
    | rw [View.canon_cons_unit_zero (S := S1024x1) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- After a first key tile the running numerator is the update of the reset numerator. -/
theorem stA_A (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) :
    (stA c i arg3 harg3 arg4 harg4 arg5 harg5 arg6 harg6 arg7 harg7 arg8 harg8 arg9 harg9 arg10 harg10 arg11 harg11 hc1 hc2 x0 x1 x2 x3).2.2.2 = k0_pay13 x1 (k0_pay3 x0 x2 x3) k0_pay4 k0_pay6 := by
  unfold stA
  dsimp only
  rw [View.read_writes_eq_canon _ _ _ (coverA_A c i arg3 harg3 arg4 harg4 arg5 harg5 arg6 harg6 arg7 harg7 arg8 harg8 arg9 harg9 arg10 harg10 arg11 harg11 hc1 hc2 x0 x1 x2 x3)]
  unfold kernelRunA
  dsimp only
  sl_unfold_words
  first
    | rw [View.canon_unit_zero (S := S1024x512) hz2]
    | rw [View.canon_cons_unit_zero (S := S1024x512) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- What a first key tile leaves: the projected queries, and the statistics updated from their reset values. -/
theorem stA_eq (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : cond1 i) (hc2 : ¬cond2 i) (x0 : Vec F S1x1024x512 .f32) (x1 : Vec F S1x512x512 .f32) (x2 : Vec F S512x512 .bf16) (x3 : Vec F S1x512 .f32) :
    stA c i arg3 harg3 arg4 harg4 arg5 harg5 arg6 harg6 arg7 harg7 arg8 harg8 arg9 harg9 arg10 harg10 arg11 harg11 hc1 hc2 x0 x1 x2 x3 = (k0_pay3 x0 x2 x3, k0_pay1 (k0_pay9 x1 (k0_pay3 x0 x2 x3) k0_pay4), k0_pay12 x1 (k0_pay3 x0 x2 x3) k0_pay4 k0_pay5, k0_pay13 x1 (k0_pay3 x0 x2 x3) k0_pay4 k0_pay6) :=
  Prod.ext (stA_Q c i arg3 harg3 arg4 harg4 arg5 harg5 arg6 harg6 arg7 harg7 arg8 harg8 arg9 harg9 arg10 harg10 arg11 harg11 hc1 hc2 x0 x1 x2 x3) (Prod.ext (stA_M c i arg3 harg3 arg4 harg4 arg5 harg5 arg6 harg6 arg7 harg7 arg8 harg8 arg9 harg9 arg10 harg10 arg11 harg11 hc1 hc2 x0 x1 x2 x3) (Prod.ext (stA_L c i arg3 harg3 arg4 harg4 arg5 harg5 arg6 harg6 arg7 harg7 arg8 harg8 arg9 harg9 arg10 harg10 arg11 harg11 hc1 hc2 x0 x1 x2 x3) (stA_A c i arg3 harg3 arg4 harg4 arg5 harg5 arg6 harg6 arg7 harg7 arg8 harg8 arg9 harg9 arg10 harg10 arg11 harg11 hc1 hc2 x0 x1 x2 x3)))

/-! ## A middle key tile -/

/-- After a middle key tile the running maximum is the update of the one before. -/
theorem stB_M (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) :
    (stB c i arg3 harg3 arg4 harg4 arg5 harg5 arg6 harg6 arg7 harg7 arg8 harg8 arg9 harg9 arg10 harg10 arg11 harg11 hc1 hc2 x1 xq xm xl xa).2.1 = k0_pay1 (k0_pay9 x1 xq xm) := by
  unfold stB
  dsimp only
  rw [View.read_writes_eq_canon _ _ _ (coverB_M c i arg3 harg3 arg4 harg4 arg5 harg5 arg6 harg6 arg7 harg7 arg8 harg8 arg9 harg9 arg10 harg10 arg11 harg11 hc1 hc2 x1 xq xm xl xa)]
  unfold kernelRunB
  dsimp only
  sl_unfold_words
  first
    | rw [View.canon_unit_zero (S := S1024x1) hz2]
    | rw [View.canon_cons_unit_zero (S := S1024x1) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- After a middle key tile the running denominator is the update of the one before. -/
theorem stB_L (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) :
    (stB c i arg3 harg3 arg4 harg4 arg5 harg5 arg6 harg6 arg7 harg7 arg8 harg8 arg9 harg9 arg10 harg10 arg11 harg11 hc1 hc2 x1 xq xm xl xa).2.2.1 = k0_pay12 x1 xq xm xl := by
  unfold stB
  dsimp only
  rw [View.read_writes_eq_canon _ _ _ (coverB_L c i arg3 harg3 arg4 harg4 arg5 harg5 arg6 harg6 arg7 harg7 arg8 harg8 arg9 harg9 arg10 harg10 arg11 harg11 hc1 hc2 x1 xq xm xl xa)]
  unfold kernelRunB
  dsimp only
  sl_unfold_words
  first
    | rw [View.canon_unit_zero (S := S1024x1) hz2]
    | rw [View.canon_cons_unit_zero (S := S1024x1) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- After a middle key tile the running numerator is the update of the one before. -/
theorem stB_A (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) :
    (stB c i arg3 harg3 arg4 harg4 arg5 harg5 arg6 harg6 arg7 harg7 arg8 harg8 arg9 harg9 arg10 harg10 arg11 harg11 hc1 hc2 x1 xq xm xl xa).2.2.2 = k0_pay13 x1 xq xm xa := by
  unfold stB
  dsimp only
  rw [View.read_writes_eq_canon _ _ _ (coverB_A c i arg3 harg3 arg4 harg4 arg5 harg5 arg6 harg6 arg7 harg7 arg8 harg8 arg9 harg9 arg10 harg10 arg11 harg11 hc1 hc2 x1 xq xm xl xa)]
  unfold kernelRunB
  dsimp only
  sl_unfold_words
  first
    | rw [View.canon_unit_zero (S := S1024x512) hz2]
    | rw [View.canon_cons_unit_zero (S := S1024x512) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- What a middle key tile leaves: the queries kept, the statistics updated. -/
theorem stB_eq (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : ¬cond2 i) (x1 : Vec F S1x512x512 .f32) (xq : Vec F S1024x512 .bf16) (xm : Vec F S1024x1 .f32) (xl : Vec F S1024x1 .f32) (xa : Vec F S1024x512 .f32) :
    stB c i arg3 harg3 arg4 harg4 arg5 harg5 arg6 harg6 arg7 harg7 arg8 harg8 arg9 harg9 arg10 harg10 arg11 harg11 hc1 hc2 x1 xq xm xl xa = (xq, k0_pay1 (k0_pay9 x1 xq xm), k0_pay12 x1 xq xm xl, k0_pay13 x1 xq xm xa) :=
  Prod.ext rfl (Prod.ext (stB_M c i arg3 harg3 arg4 harg4 arg5 harg5 arg6 harg6 arg7 harg7 arg8 harg8 arg9 harg9 arg10 harg10 arg11 harg11 hc1 hc2 x1 xq xm xl xa) (Prod.ext (stB_L c i arg3 harg3 arg4 harg4 arg5 harg5 arg6 harg6 arg7 harg7 arg8 harg8 arg9 harg9 arg10 harg10 arg11 harg11 hc1 hc2 x1 xq xm xl xa) (stB_A c i arg3 harg3 arg4 harg4 arg5 harg5 arg6 harg6 arg7 harg7 arg8 harg8 arg9 harg9 arg10 harg10 arg11 harg11 hc1 hc2 x1 xq xm xl xa)))

/-! ## A last key tile -/

/-- After a last key tile the output block is the quotient of the NEW numerator by the NEW denominator. -/
theorem stC_O (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) :
    (stC c i arg3 harg3 arg4 harg4 arg5 harg5 arg6 harg6 arg7 harg7 arg8 harg8 arg9 harg9 arg10 harg10 arg11 harg11 hc1 hc2 x1 xq xm xl xa).1 = k0_pay2 (k0_pay13 x1 xq xm xa) (k0_pay12 x1 xq xm xl) := by
  unfold stC
  dsimp only
  rw [View.read_writes_eq_canon _ _ _ (coverC_O c i arg3 harg3 arg4 harg4 arg5 harg5 arg6 harg6 arg7 harg7 arg8 harg8 arg9 harg9 arg10 harg10 arg11 harg11 hc1 hc2 x1 xq xm xl xa)]
  unfold kernelRunC
  dsimp only
  sl_unfold_words
  first
    | rw [View.canon_unit_zero (S := S1x1024x512) hz3]
    | rw [View.canon_cons_unit_zero (S := S1x1024x512) hz3]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- After a last key tile the running maximum is the update of the one before. -/
theorem stC_M (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) :
    (stC c i arg3 harg3 arg4 harg4 arg5 harg5 arg6 harg6 arg7 harg7 arg8 harg8 arg9 harg9 arg10 harg10 arg11 harg11 hc1 hc2 x1 xq xm xl xa).2.2.1 = k0_pay1 (k0_pay9 x1 xq xm) := by
  unfold stC
  dsimp only
  rw [View.read_writes_eq_canon _ _ _ (coverC_M c i arg3 harg3 arg4 harg4 arg5 harg5 arg6 harg6 arg7 harg7 arg8 harg8 arg9 harg9 arg10 harg10 arg11 harg11 hc1 hc2 x1 xq xm xl xa)]
  unfold kernelRunC
  dsimp only
  sl_unfold_words
  first
    | rw [View.canon_unit_zero (S := S1024x1) hz2]
    | rw [View.canon_cons_unit_zero (S := S1024x1) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- After a last key tile the running denominator is the update of the one before. -/
theorem stC_L (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) :
    (stC c i arg3 harg3 arg4 harg4 arg5 harg5 arg6 harg6 arg7 harg7 arg8 harg8 arg9 harg9 arg10 harg10 arg11 harg11 hc1 hc2 x1 xq xm xl xa).2.2.2.1 = k0_pay12 x1 xq xm xl := by
  unfold stC
  dsimp only
  rw [View.read_writes_eq_canon _ _ _ (coverC_L c i arg3 harg3 arg4 harg4 arg5 harg5 arg6 harg6 arg7 harg7 arg8 harg8 arg9 harg9 arg10 harg10 arg11 harg11 hc1 hc2 x1 xq xm xl xa)]
  unfold kernelRunC
  dsimp only
  sl_unfold_words
  first
    | rw [View.canon_unit_zero (S := S1024x1) hz2]
    | rw [View.canon_cons_unit_zero (S := S1024x1) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- After a last key tile the running numerator is the update of the one before. -/
theorem stC_A (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) :
    (stC c i arg3 harg3 arg4 harg4 arg5 harg5 arg6 harg6 arg7 harg7 arg8 harg8 arg9 harg9 arg10 harg10 arg11 harg11 hc1 hc2 x1 xq xm xl xa).2.2.2.2 = k0_pay13 x1 xq xm xa := by
  unfold stC
  dsimp only
  rw [View.read_writes_eq_canon _ _ _ (coverC_A c i arg3 harg3 arg4 harg4 arg5 harg5 arg6 harg6 arg7 harg7 arg8 harg8 arg9 harg9 arg10 harg10 arg11 harg11 hc1 hc2 x1 xq xm xl xa)]
  unfold kernelRunC
  dsimp only
  sl_unfold_words
  first
    | rw [View.canon_unit_zero (S := S1024x512) hz2]
    | rw [View.canon_cons_unit_zero (S := S1024x512) hz2]
  simp only [View.readAt_eq_ld, harg3.read_unread, harg4.read_unread, harg5.read_unread, harg6.read_unread, harg8.read_unread,
    harg9.read_unread, harg10.read_unread, harg11.read_unread,
    View.ld_unit_zero (S := S1x1024x512) hz3, View.ld_unit_zero (S := S1x512x512) hz3, View.ld_unit_zero (S := S512x512) hz2,
    View.ld_unit_zero (S := S1x512) hz2, View.ld_unit_zero (S := S1024x512) hz2, View.ld_unit_zero (S := S1024x1) hz2,
    View.readCov_unit_zero (S := S1024x512) _ hz2, View.readCov_unit_zero (S := S1024x1) _ hz2]

/-- What a last key tile leaves: the output block, and the state as after a middle tile. -/
theorem stC_eq (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x1024x512 .f32) (harg7 : arg7.IsWhole) (arg8 : Memref sig .tc .vmem S1024x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc1 : ¬cond1 i) (hc2 : cond2 i) (x1 : Vec F S1x512x512 .f32) (xq : Vec F S1024x512 .bf16) (xm : Vec F S1024x1 .f32) (xl : Vec F S1024x1 .f32) (xa : Vec F S1024x512 .f32) :
    stC c i arg3 harg3 arg4 harg4 arg5 harg5 arg6 harg6 arg7 harg7 arg8 harg8 arg9 harg9 arg10 harg10 arg11 harg11 hc1 hc2 x1 xq xm xl xa = (k0_pay2 (k0_pay13 x1 xq xm xa) (k0_pay12 x1 xq xm xl), (xq, k0_pay1 (k0_pay9 x1 xq xm), k0_pay12 x1 xq xm xl, k0_pay13 x1 xq xm xa)) :=
  Prod.ext (stC_O c i arg3 harg3 arg4 harg4 arg5 harg5 arg6 harg6 arg7 harg7 arg8 harg8 arg9 harg9 arg10 harg10 arg11 harg11 hc1 hc2 x1 xq xm xl xa) (Prod.ext rfl (Prod.ext (stC_M c i arg3 harg3 arg4 harg4 arg5 harg5 arg6 harg6 arg7 harg7 arg8 harg8 arg9 harg9 arg10 harg10 arg11 harg11 hc1 hc2 x1 xq xm xl xa) (Prod.ext (stC_L c i arg3 harg3 arg4 harg4 arg5 harg5 arg6 harg6 arg7 harg7 arg8 harg8 arg9 harg9 arg10 harg10 arg11 harg11 hc1 hc2 x1 xq xm xl xa) (stC_A c i arg3 harg3 arg4 harg4 arg5 harg5 arg6 harg6 arg7 harg7 arg8 harg8 arg9 harg9 arg10 harg10 arg11 harg11 hc1 hc2 x1 xq xm xl xa))))

end Cert.KernelIdeal.Hand

end
-- ==== Proof.KPay.lean ====
/-
  The kernel's arithmetic at an index.

  One grid step of the kernel works on a tile of 1024 query rows against a block of 512 keys of the same batch. The
  first step of a row of steps computes the query tile (a linear layer under tanh) and resets the running maximum to
  −∞, the running denominator to 0 and the running weighted sum to 0. Every step then computes the tile's scores
  against its key block, the new running maximum, the rescaling factor exp (old maximum − new maximum), the shifted
  exponentials of the scores, and updates the denominator and the weighted sum:
    denominator  ←  factor · denominator  + Σ_j exp (score_j − new maximum)
    weighted sum ←  factor · weighted sum + Σ_j exp (score_j − new maximum) · key row j.
  The last step divides the weighted sum by the denominator. Here each of these values is read at an index built
  from explicit coordinates: r a query row of the tile, j a key of the block, h and o features.
-/
import proofs.«155556_j2886218023414_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Attn.KPay

open Idealize.ShloMosaic Idealize.ShloMosaic.ValueIdx Cert.KernelIdeal Cert.KernelIdeal.Gen

/-! ## Indices by coordinates -/

/-- Every index of a [1024, 1] column is (r, 0). -/
theorem idx_col (i : S1024x1.Idx) : ∃ r : Fin 1024, i = ix2 r (0 : Fin 1) :=
  ⟨i 0, by rw [show (0 : Fin 1) = i 1 from (Fin.fin_one_eq_zero (i 1)).symm]; exact eq_ix2 i⟩

/-- Every index of a [1024, 512] tile is (r, h). -/
theorem idx_tile (i : S1024x512.Idx) : ∃ (r : Fin 1024) (h : Fin 512), i = ix2 r h := ⟨i 0, i 1, eq_ix2 i⟩

/-- Every index of a [1, 1024, 512] block is (0, r, h). -/
theorem idx_block (i : S1x1024x512.Idx) : ∃ (r : Fin 1024) (h : Fin 512), i = ix3 (0 : Fin 1) r h :=
  ⟨i 1, i 2, by rw [show (0 : Fin 1) = i 0 from (Fin.fin_one_eq_zero (i 0)).symm]; exact eq_ix3 i⟩

/-! ## Column layouts -/

section Layout
variable {α : Type}

/-- A column [a, 1] broadcast along b columns reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of a entries cast to a column [a, 1] reads, at (p, u), entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-- Row r of a [1024, 512] tile with column k put back is (r, k). -/
theorem lift_row (r : Fin 1024) (k : Fin (S1024x512.size 1)) :
    (reduces_S1024x512_S1024 : S1024x512.Reduces [1] S1024).lift (ix1 r) k = ix2 r (⟨k.val, k.isLt⟩ : Fin 512) := by
  funext c; apply Fin.ext
  fin_cases c <;> rfl

/-- The bit pattern of −∞ denotes −∞. -/
theorem ofBits_negInf : Ideal.ofBits .f32 0xFF800000#32 = (⊥ : EReal) := by
  simp [Ideal.ofBits, Ideal.ieee]

/-! ## The stored running maximum, and the final quotient -/

/-- The running maximum is stored back as it is. -/
theorem pay1_apply (v : FVec Ideal S1024x1 .f32) (r : Fin 1024) :
    k0_pay1 (F := Ideal) v (ix2 r (0 : Fin 1)) = v (ix2 r (0 : Fin 1)) := by
  unfold k0_pay1
  rw [shapeCast_self]

/-- The last step's output: the weighted sum over the denominator, row by row. -/
theorem pay2_apply (a : Vec Ideal S1024x512 .f32) (l : Vec Ideal S1024x1 .f32) (r : Fin 1024) (h : Fin 512) :
    k0_pay2 (F := Ideal) a l (ix3 (0 : Fin 1) r h) = Ideal.div (a (ix2 r h)) (l (ix2 r (0 : Fin 1))) := by
  unfold k0_pay2
  refine (shapeCast_ab_1ab_apply _ shapeCasts_S1024x512_S1x1024x512 (0 : Fin 1) r h).trans ?_
  show Ideal.div (a (ix2 r h)) (broadcastTo S1024x512 l broadcasts_S1024x1_S1024x512 (ix2 r h)) = _
  rw [broadcastTo_a1_ab_apply]

/-! ## The first step's resets -/

/-- The running maximum starts at −∞. -/
theorem pay4_apply (r : Fin 1024) : k0_pay4 (F := Ideal) (ix2 r (0 : Fin 1)) = (⊥ : EReal) := by
  unfold k0_pay4
  rw [shapeCast_self]
  exact ofBits_negInf

/-- The running denominator starts at 0. -/
theorem pay5_apply (r : Fin 1024) : k0_pay5 (F := Ideal) (ix2 r (0 : Fin 1)) = (0 : EReal) := by
  unfold k0_pay5
  rw [shapeCast_self]
  exact Ideal.ofBits_zero_f32

/-- The running weighted sum starts at 0. -/
theorem pay6_apply (r : Fin 1024) (h : Fin 512) : k0_pay6 (F := Ideal) (ix2 r h) = (0 : EReal) := by
  unfold k0_pay6
  rw [shapeCast_self]
  exact Ideal.ofBits_zero_f32

/-! ## The two contractions of the matrix unit, at an index -/

/-- Rows against rows: both operands contract their second axis. -/
abbrev DT := dot_S1024x512_S512x512_S1024x512_1_1_0_0_n_n
/-- Rows against columns: the left operand contracts its second axis, the right its first. -/
abbrev DN := dot_S1024x512_S512x512_S1024x512_1_0_0_1_n_n

theorem lhsT_0 (i : S1024x512.Idx) (q : DT.contr.Idx) : (DT.lhsIdx i q 0).val = (i 0).val := by
  unfold DotDims.lhsIdx
  rw [dif_neg (show ¬(0 : Fin S1024x512.rank) ∈ DT.lhsBatch by decide), dif_pos (show (0 : Fin S1024x512.rank) ∈ DT.lhsNonContracting by decide)]
  rfl
theorem lhsT_1 (i : S1024x512.Idx) (q : DT.contr.Idx) : (DT.lhsIdx i q 1).val = (q ⟨0, by decide⟩).val :=
  DT.lhsIdx_val_of_single rfl i q
theorem rhsT_0 (i : S1024x512.Idx) (q : DT.contr.Idx) : (DT.rhsIdx i q 0).val = (i 1).val := by
  unfold DotDims.rhsIdx
  rw [dif_neg (show ¬(0 : Fin S512x512.rank) ∈ DT.rhsBatch by decide), dif_pos (show (0 : Fin S512x512.rank) ∈ DT.rhsNonContracting by decide)]
  rfl
theorem rhsT_1 (i : S1024x512.Idx) (q : DT.contr.Idx) : (DT.rhsIdx i q 1).val = (q ⟨0, by decide⟩).val :=
  DT.rhsIdx_val_of_single rfl i q

/-- Into a zero accumulator, rows against rows: entry (r, j) is row r of the left operand times row j of the right. -/
theorem matmulT_apply {φ₁ φ₂ : FTy} (lhs : FVec Ideal S1024x512 φ₁) (rhs : FVec Ideal S512x512 φ₂) (r : Fin 1024) (j : Fin 512) :
    matmul DT none lhs rhs (constant (F := Ideal) S1024x512 .f32 0x00000000#32) (ix2 r j)
      = ∑ k : Fin 512, lhs (ix2 r k) * rhs (ix2 j k) := by
  show FloatOps.matmul DT none lhs rhs (constant (F := Ideal) S1024x512 .f32 0x00000000#32) (ix2 r j) = _
  rw [Ideal.matmul_constant_zero_apply, ← Equiv.sum_comp (contrEquiv1 DT 512 rfl rfl).symm]
  refine Finset.sum_congr rfl fun k _ => ?_
  have hk := contrEquiv1_symm_val DT 512 rfl rfl k
  have el : DT.lhsIdx (ix2 r j) ((contrEquiv1 DT 512 rfl rfl).symm k) = ix2 r k := funext fun a => Fin.ext (by
    match a with
    | ⟨0, _⟩ => exact lhsT_0 _ _
    | ⟨1, _⟩ => exact (lhsT_1 _ _).trans hk)
  have er : DT.rhsIdx (ix2 r j) ((contrEquiv1 DT 512 rfl rfl).symm k) = ix2 j k := funext fun a => Fin.ext (by
    match a with
    | ⟨0, _⟩ => exact rhsT_0 _ _
    | ⟨1, _⟩ => exact (rhsT_1 _ _).trans hk)
  rw [el, er]

theorem lhsN_0 (i : S1024x512.Idx) (q : DN.contr.Idx) : (DN.lhsIdx i q 0).val = (i 0).val := by
  unfold DotDims.lhsIdx
  rw [dif_neg (show ¬(0 : Fin S1024x512.rank) ∈ DN.lhsBatch by decide), dif_pos (show (0 : Fin S1024x512.rank) ∈ DN.lhsNonContracting by decide)]
  rfl
theorem lhsN_1 (i : S1024x512.Idx) (q : DN.contr.Idx) : (DN.lhsIdx i q 1).val = (q ⟨0, by decide⟩).val :=
  DN.lhsIdx_val_of_single rfl i q
theorem rhsN_0 (i : S1024x512.Idx) (q : DN.contr.Idx) : (DN.rhsIdx i q 0).val = (q ⟨0, by decide⟩).val :=
  DN.rhsIdx_val_of_single rfl i q
theorem rhsN_1 (i : S1024x512.Idx) (q : DN.contr.Idx) : (DN.rhsIdx i q 1).val = (i 1).val := by
  unfold DotDims.rhsIdx
  rw [dif_neg (show ¬(1 : Fin S512x512.rank) ∈ DN.rhsBatch by decide), dif_pos (show (1 : Fin S512x512.rank) ∈ DN.rhsNonContracting by decide)]
  rfl

/-- Into a zero accumulator, rows against columns: entry (r, h) is row r of the left operand times column h of the right. -/
theorem matmulN_apply {φ₁ φ₂ : FTy} (lhs : FVec Ideal S1024x512 φ₁) (rhs : FVec Ideal S512x512 φ₂) (r : Fin 1024) (h : Fin 512) :
    matmul DN none lhs rhs (constant (F := Ideal) S1024x512 .f32 0x00000000#32) (ix2 r h)
      = ∑ k : Fin 512, lhs (ix2 r k) * rhs (ix2 k h) := by
  show FloatOps.matmul DN none lhs rhs (constant (F := Ideal) S1024x512 .f32 0x00000000#32) (ix2 r h) = _
  rw [Ideal.matmul_constant_zero_apply, ← Equiv.sum_comp (contrEquiv1 DN 512 rfl rfl).symm]
  refine Finset.sum_congr rfl fun k _ => ?_
  have hk := contrEquiv1_symm_val DN 512 rfl rfl k
  have el : DN.lhsIdx (ix2 r h) ((contrEquiv1 DN 512 rfl rfl).symm k) = ix2 r k := funext fun a => Fin.ext (by
    match a with
    | ⟨0, _⟩ => exact lhsN_0 _ _
    | ⟨1, _⟩ => exact (lhsN_1 _ _).trans hk)
  have er : DN.rhsIdx (ix2 r h) ((contrEquiv1 DN 512 rfl rfl).symm k) = ix2 k h := funext fun a => Fin.ext (by
    match a with
    | ⟨0, _⟩ => exact (rhsN_0 _ _).trans hk
    | ⟨1, _⟩ => exact rhsN_1 _ _)
  rw [el, er]

/-! ## The lane reductions of a tile, at a row -/

/-- The maximum along a row of a tile, from −∞. -/
theorem rowmax_apply (s : FVec Ideal S1024x512 .f32) (r : Fin 1024) :
    multiReduction (F := Ideal) .maximumf [1] S1024 s 0xFF800000#32 reduces_S1024x512_S1024 (.inl rfl) rfl (ix1 r)
      = (Finset.univ : Finset (Fin 512)).fold max (⊥ : EReal) (fun j => s (ix2 r j)) := by
  refine (Ideal.multiReduction_maximumf_single s 0xFF800000#32 reduces_S1024x512_S1024 (.inl rfl) rfl (ix1 r)).trans ?_
  rw [Ideal.ofBits_def, ofBits_negInf]
  have hf : (s ∘ (reduces_S1024x512_S1024 : S1024x512.Reduces [1] S1024).lift (ix1 r)) = fun j : Fin 512 => s (ix2 r j) :=
    funext fun k => congrArg s (lift_row r k)
  exact congrArg (fun f => Finset.fold max (⊥ : EReal) f (Finset.univ : Finset (Fin 512))) hf

/-- The sum along a row of a tile. -/
theorem rowsum_apply (s : FVec Ideal S1024x512 .f32) (r : Fin 1024) :
    multiReduction (F := Ideal) .add [1] S1024 s 0x00000000#32 reduces_S1024x512_S1024 (.inl rfl) rfl (ix1 r)
      = ∑ j : Fin 512, s (ix2 r j) := by
  refine (Ideal.multiReduction_add_single s 0x00000000#32 reduces_S1024x512_S1024 (.inl rfl) rfl (ix1 r)).trans ?_
  exact Finset.sum_congr rfl fun k _ => congrArg s (lift_row r k)

/-! ## Every step: scores, running maximum, rescaling, the two updates -/

/-- The key block as the matrix unit reads it: key j, feature h. -/
theorem pay7_apply (x1 : Vec Ideal S1x512x512 .f32) (j h : Fin 512) :
    k0_pay7 (F := Ideal) x1 (ix2 j h) = x1 (ix3 (0 : Fin 1) j h) := by
  unfold k0_pay7
  exact shapeCast_1ab_ab_apply x1 shapeCasts_S1x512x512_S512x512 j h

/-- The score of key j of the block for query row r of the tile. -/
def sc (x1 : Vec Ideal S1x512x512 .f32) (q : Vec Ideal S1024x512 .bf16) (r : Fin 1024) (j : Fin 512) : EReal :=
  ∑ h : Fin 512, q (ix2 r h) * x1 (ix3 (0 : Fin 1) j h)

/-- The scores of the tile against the key block. -/
theorem pay8_apply (x1 : Vec Ideal S1x512x512 .f32) (q : Vec Ideal S1024x512 .bf16) (r : Fin 1024) (j : Fin 512) :
    k0_pay8 (F := Ideal) x1 q (ix2 r j) = sc x1 q r j := by
  unfold k0_pay8
  refine (matmulT_apply q (k0_pay7 (F := Ideal) x1) r j).trans ?_
  unfold sc
  exact Finset.sum_congr rfl fun h _ => by rw [pay7_apply]

/-- The new running maximum of row r: the old one against the largest score of the block. -/
def mnew (x1 : Vec Ideal S1x512x512 .f32) (q : Vec Ideal S1024x512 .bf16) (mp : Vec Ideal S1024x1 .f32) (r : Fin 1024) : EReal :=
  max (mp (ix2 r (0 : Fin 1))) ((Finset.univ : Finset (Fin 512)).fold max (⊥ : EReal) (fun j => sc x1 q r j))

/-- The new running maximum. -/
theorem pay9_apply (x1 : Vec Ideal S1x512x512 .f32) (q : Vec Ideal S1024x512 .bf16) (mp : Vec Ideal S1024x1 .f32) (r : Fin 1024) :
    k0_pay9 (F := Ideal) x1 q mp (ix2 r (0 : Fin 1)) = mnew x1 q mp r := by
  unfold k0_pay9
  refine (maximumf_apply _ _ _).trans ?_
  rw [shapeCast_a_a1_apply, rowmax_apply]
  simp only [pay8_apply]
  rfl

/-- The rescaling factor of row r: exp (old maximum − new maximum). -/
theorem pay10_apply (x1 : Vec Ideal S1x512x512 .f32) (q : Vec Ideal S1024x512 .bf16) (mp : Vec Ideal S1024x1 .f32) (r : Fin 1024) :
    k0_pay10 (F := Ideal) x1 q mp (ix2 r (0 : Fin 1)) = Ideal.exp (mp (ix2 r (0 : Fin 1)) - mnew x1 q mp r) := by
  unfold k0_pay10
  show Ideal.exp (mp (ix2 r (0 : Fin 1)) - k0_pay9 (F := Ideal) x1 q mp (ix2 r (0 : Fin 1))) = _
  rw [pay9_apply]

/-- The shifted exponential of the score of key j for row r. -/
theorem pay11_apply (x1 : Vec Ideal S1x512x512 .f32) (q : Vec Ideal S1024x512 .bf16) (mp : Vec Ideal S1024x1 .f32)
    (r : Fin 1024) (j : Fin 512) :
    k0_pay11 (F := Ideal) x1 q mp (ix2 r j) = Ideal.exp (sc x1 q r j - mnew x1 q mp r) := by
  unfold k0_pay11
  show Ideal.exp (k0_pay8 (F := Ideal) x1 q (ix2 r j)
    - broadcastTo S1024x512 (k0_pay9 (F := Ideal) x1 q mp) broadcasts_S1024x1_S1024x512 (ix2 r j)) = _
  rw [broadcastTo_a1_ab_apply, pay8_apply, pay9_apply]

/-- The denominator's update: the old one rescaled, plus the block's shifted exponentials. -/
theorem pay12_apply (x1 : Vec Ideal S1x512x512 .f32) (q : Vec Ideal S1024x512 .bf16) (mp lp : Vec Ideal S1024x1 .f32) (r : Fin 1024) :
    k0_pay12 (F := Ideal) x1 q mp lp (ix2 r (0 : Fin 1))
      = Ideal.exp (mp (ix2 r (0 : Fin 1)) - mnew x1 q mp r) * lp (ix2 r (0 : Fin 1))
        + ∑ j : Fin 512, Ideal.exp (sc x1 q r j - mnew x1 q mp r) := by
  unfold k0_pay12
  rw [shapeCast_self]
  refine (addf_apply _ _ _).trans ?_
  rw [shapeCast_a_a1_apply, rowsum_apply, mulf_apply, pay10_apply]
  simp only [pay11_apply]

/-- The weighted sum's update: the old one rescaled, plus the block's shifted exponentials applied to its key rows. -/
theorem pay13_apply (x1 : Vec Ideal S1x512x512 .f32) (q : Vec Ideal S1024x512 .bf16) (mp : Vec Ideal S1024x1 .f32)
    (ap : Vec Ideal S1024x512 .f32) (r : Fin 1024) (h : Fin 512) :
    k0_pay13 (F := Ideal) x1 q mp ap (ix2 r h)
      = Ideal.exp (mp (ix2 r (0 : Fin 1)) - mnew x1 q mp r) * ap (ix2 r h)
        + ∑ j : Fin 512, Ideal.exp (sc x1 q r j - mnew x1 q mp r) * x1 (ix3 (0 : Fin 1) j h) := by
  unfold k0_pay13
  rw [shapeCast_self]
  refine (addf_apply _ _ _).trans ?_
  rw [mulf_apply, broadcastTo_a1_ab_apply, pay10_apply, matmulN_apply]
  simp only [truncf_apply, pay11_apply, pay7_apply]

/-! ## The first step's query tile -/

/-- The query tile: row r of the query block through the linear layer (row o of the weight, plus the bias), under tanh. -/
theorem pay3_apply (x0 : Vec Ideal S1x1024x512 .f32) (w2 : Vec Ideal S512x512 .bf16) (w3 : Vec Ideal S1x512 .f32)
    (r : Fin 1024) (o : Fin 512) :
    k0_pay3 (F := Ideal) x0 w2 w3 (ix2 r o)
      = Ideal.tanh ((∑ h : Fin 512, x0 (ix3 (0 : Fin 1) r h) * w2 (ix2 o h)) + w3 (ix2 (0 : Fin 1) o)) := by
  unfold k0_pay3
  simp only [shapeCast_self]
  show Ideal.tanh (matmul DT none (truncf .bf16 (shapeCast S1024x512 x0 shapeCasts_S1x1024x512_S1024x512) bitsLt_bf16_f32) w2
      (constant (F := Ideal) S1024x512 .f32 0x00000000#32) (ix2 r o)
    + broadcastTo S1024x512 w3 broadcasts_S1x512_S1024x512 (ix2 r o)) = _
  rw [matmulT_apply, broadcastTo_1b_ab_apply]
  simp only [truncf_apply, shapeCast_1ab_ab_apply]

end Cert.Attn.KPay

end
-- ==== Proof.FrameKI.Inv.lean ====
/-
  The kernel's state after every grid point is the online softmax recursion's.

  At point t = (b * 2 + qi) * 4 + k the kernel works on query rows qi * 1024 + r of batch b against key
  tile k of the same batch.  One step of the kernel, read at a row r, is exactly one step of the
  recursion over the specification's scores: the block's scores are the specification's scores of tile
  k, so the new maximum, the rescaled denominator plus the tile's shifted exponentials, and the rescaled
  numerator plus the tile's weighted values are the recursion's after k + 1 tiles whenever the state
  before was the recursion's after k tiles.  A first tile starts from the state (-∞, 0, 0), which is the
  recursion's after 0 tiles, with the queries it has just computed; a later tile starts from what the
  point before left; a last tile also divides.  Induction on the point gives the invariant everywhere.
-/
import proofs.«155556_j2886218023414_2_alg».proof.Proof.FrameKI.InvDef
import proofs.«155556_j2886218023414_2_alg».proof.Proof.FrameKI.Pieces
import proofs.«155556_j2886218023414_2_alg».proof.Proof.KPay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Attn Cert.Attn.KPay

/-! ## One step of the kernel at a row is one step of the recursion -/

section Step

variable (O : SO.Idx → EReal) (W : SW.Idx → EReal) (bias : SB.Idx → EReal)
variable (b : Fin 8) (s : Fin 2048) (k : ℕ) (hk : k < 4) (r : Fin 1024)
variable (x1 : Vec Ideal S1x512x512 .f32) (q : Vec Ideal S1024x512 .bf16)
variable (mp lp : Vec Ideal S1024x1 .f32) (ap : Vec Ideal S1024x512 .f32)

/-- The first tile's query tile at row r is the specification's query of the row the block's row r is. -/
theorem q_first (x0 : Vec Ideal S1x1024x512 .f32) (x2 : Vec Ideal S512x512 .bf16) (x3 : Vec Ideal S1x512 .f32)
    (hx0 : ∀ h : Fin 512, x0 (ix3 (0 : Fin 1) r h) = O (ix3 b s h))
    (hx2 : ∀ o h : Fin 512, x2 (ix2 o h) = W (ix2 o h))
    (hx3 : ∀ o : Fin 512, x3 (ix2 (0 : Fin 1) o) = bias (ix1 o)) (o : Fin 512) :
    k0_pay3 (F := Ideal) x0 x2 x3 (ix2 r o) = qv O W bias b s o := by
  rw [pay3_apply x0 x2 x3 r o, hx3 o]
  unfold qv
  exact congrArg (fun z => Ideal.tanh (z + bias (ix1 o))) (Finset.sum_congr rfl fun h _ => by rw [hx0 h, hx2 o h])

/-- The block's scores for row r are the specification's scores of key tile k. -/
theorem sc_eq (hq : ∀ h : Fin 512, q (ix2 r h) = qv O W bias b s h)
    (hx1 : ∀ j h : Fin 512, x1 (ix3 (0 : Fin 1) j h) = O (ix3 b ⟨k * 512 + j.val, by omega⟩ h)) (j : Fin 512) :
    sc x1 q r j = tsc O W bias b s k j := by
  unfold sc tsc score
  rw [dif_pos hk]
  exact Finset.sum_congr rfl fun h _ => by rw [hq h, hx1 j h]

/-- The new maximum is the recursion's after k + 1 tiles. -/
theorem mnew_eq (hq : ∀ h : Fin 512, q (ix2 r h) = qv O W bias b s h)
    (hx1 : ∀ j h : Fin 512, x1 (ix3 (0 : Fin 1) j h) = O (ix3 b ⟨k * 512 + j.val, by omega⟩ h))
    (hm : mp (ix2 r (0 : Fin 1)) = mS O W bias b s k) :
    mnew x1 q mp r = mS O W bias b s (k + 1) := by
  unfold mnew
  rw [hm, show (fun j => sc x1 q r j) = fun j => tsc O W bias b s k j from
    funext fun j => sc_eq O W bias b s k hk r x1 q hq hx1 j]
  rfl

end Step

section Step2

variable (O : SO.Idx → EReal) (W : SW.Idx → EReal) (bias : SB.Idx → EReal)
variable (b : Fin 8) (s : Fin 2048) (k : ℕ) (hk : k < 4) (r : Fin 1024)
variable (x1 : Vec Ideal S1x512x512 .f32) (q : Vec Ideal S1024x512 .bf16)
variable (mp lp : Vec Ideal S1024x1 .f32) (ap : Vec Ideal S1024x512 .f32)

/-- The stored running maximum after the step is the recursion's after k + 1 tiles. -/
theorem upd_m (hq : ∀ h : Fin 512, q (ix2 r h) = qv O W bias b s h)
    (hx1 : ∀ j h : Fin 512, x1 (ix3 (0 : Fin 1) j h) = O (ix3 b ⟨k * 512 + j.val, by omega⟩ h))
    (hm : mp (ix2 r (0 : Fin 1)) = mS O W bias b s k) :
    k0_pay1 (F := Ideal) (k0_pay9 (F := Ideal) x1 q mp) (ix2 r (0 : Fin 1)) = mS O W bias b s (k + 1) := by
  rw [pay1_apply (k0_pay9 (F := Ideal) x1 q mp) r, pay9_apply x1 q mp r]
  exact mnew_eq O W bias b s k hk r x1 q mp hq hx1 hm

/-- The running denominator after the step is the recursion's after k + 1 tiles. -/
theorem upd_l (hq : ∀ h : Fin 512, q (ix2 r h) = qv O W bias b s h)
    (hx1 : ∀ j h : Fin 512, x1 (ix3 (0 : Fin 1) j h) = O (ix3 b ⟨k * 512 + j.val, by omega⟩ h))
    (hm : mp (ix2 r (0 : Fin 1)) = mS O W bias b s k)
    (hl : lp (ix2 r (0 : Fin 1)) = lS O W bias b s k) :
    k0_pay12 (F := Ideal) x1 q mp lp (ix2 r (0 : Fin 1)) = lS O W bias b s (k + 1) := by
  rw [pay12_apply x1 q mp lp r, mnew_eq O W bias b s k hk r x1 q mp hq hx1 hm, hm, hl,
    Finset.sum_congr rfl (fun j _ => by rw [sc_eq O W bias b s k hk r x1 q hq hx1 j] :
      ∀ j ∈ (Finset.univ : Finset (Fin 512)),
        Ideal.exp (sc x1 q r j - mS O W bias b s (k + 1)) = Ideal.exp (tsc O W bias b s k j - mS O W bias b s (k + 1)))]
  rfl

/-- The running numerator after the step is the recursion's after k + 1 tiles. -/
theorem upd_a (h : Fin 512) (hq : ∀ h : Fin 512, q (ix2 r h) = qv O W bias b s h)
    (hx1 : ∀ j h : Fin 512, x1 (ix3 (0 : Fin 1) j h) = O (ix3 b ⟨k * 512 + j.val, by omega⟩ h))
    (hm : mp (ix2 r (0 : Fin 1)) = mS O W bias b s k)
    (ha : ap (ix2 r h) = aS O W bias b s h k) :
    k0_pay13 (F := Ideal) x1 q mp ap (ix2 r h) = aS O W bias b s h (k + 1) := by
  rw [pay13_apply x1 q mp ap r h, mnew_eq O W bias b s k hk r x1 q mp hq hx1 hm, hm, ha,
    Finset.sum_congr rfl (fun j _ => by
        rw [sc_eq O W bias b s k hk r x1 q hq hx1 j, hx1 j h]; unfold tval; rw [dif_pos hk] :
      ∀ j ∈ (Finset.univ : Finset (Fin 512)),
        Ideal.exp (sc x1 q r j - mS O W bias b s (k + 1)) * x1 (ix3 (0 : Fin 1) j h)
          = Ideal.exp (tsc O W bias b s k j - mS O W bias b s (k + 1)) * tval O b h k j)]
  rfl

/-- The last step's quotient is the recursion's numerator over its denominator after k + 1 tiles. -/
theorem fin_o (h : Fin 512) (hq : ∀ h : Fin 512, q (ix2 r h) = qv O W bias b s h)
    (hx1 : ∀ j h : Fin 512, x1 (ix3 (0 : Fin 1) j h) = O (ix3 b ⟨k * 512 + j.val, by omega⟩ h))
    (hm : mp (ix2 r (0 : Fin 1)) = mS O W bias b s k)
    (hl : lp (ix2 r (0 : Fin 1)) = lS O W bias b s k)
    (ha : ap (ix2 r h) = aS O W bias b s h k) :
    k0_pay2 (F := Ideal) (k0_pay13 (F := Ideal) x1 q mp ap) (k0_pay12 (F := Ideal) x1 q mp lp) (ix3 (0 : Fin 1) r h)
      = Ideal.div (aS O W bias b s h (k + 1)) (lS O W bias b s (k + 1)) := by
  rw [pay2_apply (k0_pay13 (F := Ideal) x1 q mp ap) (k0_pay12 (F := Ideal) x1 q mp lp) r h,
    upd_a O W bias b s k hk r x1 q mp ap h hq hx1 hm ha, upd_l O W bias b s k hk r x1 q mp lp hq hx1 hm hl]

end Step2

/-! ## The point's number: the point before a later tile is in the same batch and query tile -/

variable (m : (ℓ : Loc nD τ sig) → Buf (Elt Ideal) ℓ) (c : Dev nD)

/-- The point before t. -/
def predPt (t : Fin cfg0.N) : Fin cfg0.N := ⟨t.val - 1, Nat.lt_of_le_of_lt (Nat.sub_le _ _) t.isLt⟩

/-- A later tile's point and the point before it are of the same batch, -/
theorem bOf_pred (t : Fin cfg0.N) (h0 : ¬t.val % 4 = 0) : bOf (predPt t) = bOf t :=
  Fin.ext (by show (t.val - 1) / 8 = t.val / 8; omega)

/-- of the same query rows, -/
theorem sOf_pred (t : Fin cfg0.N) (h0 : ¬t.val % 4 = 0) (r : Fin 1024) : sOf (predPt t) r = sOf t r :=
  Fin.ext (by show ((t.val - 1) / 4 % 2) * 1024 + r.val = (t.val / 4 % 2) * 1024 + r.val; omega)

/-- and the point before has seen as many key tiles as this point's tile number. -/
theorem mod_pred (t : Fin cfg0.N) (h0 : ¬t.val % 4 = 0) : (predPt t).val % 4 + 1 = t.val % 4 := by
  show (t.val - 1) % 4 + 1 = t.val % 4
  omega

/-! ## The blocks and the state at a point, and what each case leaves in terms of them -/

/-- The four input blocks at point t, at their literal shapes. -/
abbrev X0 (t : Fin cfg0.N) : Vec Ideal S1x1024x512 .f32 := iblk m c 0 t
abbrev X1 (t : Fin cfg0.N) : Vec Ideal S1x512x512 .f32 := iblk m c 1 t
abbrev X2 (t : Fin cfg0.N) : Vec Ideal S512x512 .bf16 := iblk m c 2 t
abbrev X3 (t : Fin cfg0.N) : Vec Ideal S1x512 .f32 := iblk m c 3 t

/-- The state the point before t left. -/
abbrev prevSt (t : Fin cfg0.N) : St Ideal :=
  (outsAt m c (t.val - 1) (Nat.lt_of_le_of_lt (Nat.sub_le _ _) t.isLt)).2

/-- After a first key tile: the queries just computed, and one step from (-∞, 0, 0). -/
theorem outsAt_A' (t : Fin cfg0.N) (h0 : t.val % 4 = 0) :
    outsAt m c t.val t.isLt
      = (noOut, (k0_pay3 (X0 m c t) (X2 m c t) (X3 m c t),
          k0_pay1 (k0_pay9 (X1 m c t) (k0_pay3 (X0 m c t) (X2 m c t) (X3 m c t)) (k0_pay4 (F := Ideal))),
          k0_pay12 (X1 m c t) (k0_pay3 (X0 m c t) (X2 m c t) (X3 m c t)) (k0_pay4 (F := Ideal)) (k0_pay5 (F := Ideal)),
          k0_pay13 (X1 m c t) (k0_pay3 (X0 m c t) (X2 m c t) (X3 m c t)) (k0_pay4 (F := Ideal)) (k0_pay6 (F := Ideal)))) := by
  rw [outsAt_A m c t h0]
  unfold atA
  rw [stA_eq]

/-- After a middle key tile: the queries kept, and one step from the state before. -/
theorem outsAt_B' (t : Fin cfg0.N) (h0 : ¬t.val % 4 = 0) (h3 : ¬t.val % 4 = 3) :
    outsAt m c t.val t.isLt
      = (noOut, ((prevSt m c t).1,
          k0_pay1 (k0_pay9 (X1 m c t) (prevSt m c t).1 (prevSt m c t).2.1),
          k0_pay12 (X1 m c t) (prevSt m c t).1 (prevSt m c t).2.1 (prevSt m c t).2.2.1,
          k0_pay13 (X1 m c t) (prevSt m c t).1 (prevSt m c t).2.1 (prevSt m c t).2.2.2)) := by
  rw [outsAt_B m c t h0 h3]
  unfold atB
  rw [stB_eq]

/-- After a last key tile: the same, and the output block is the new numerator over the new denominator. -/
theorem outsAt_C' (t : Fin cfg0.N) (h0 : ¬t.val % 4 = 0) (h3 : t.val % 4 = 3) :
    outsAt m c t.val t.isLt
      = (k0_pay2 (k0_pay13 (X1 m c t) (prevSt m c t).1 (prevSt m c t).2.1 (prevSt m c t).2.2.2)
            (k0_pay12 (X1 m c t) (prevSt m c t).1 (prevSt m c t).2.1 (prevSt m c t).2.2.1),
          ((prevSt m c t).1,
          k0_pay1 (k0_pay9 (X1 m c t) (prevSt m c t).1 (prevSt m c t).2.1),
          k0_pay12 (X1 m c t) (prevSt m c t).1 (prevSt m c t).2.1 (prevSt m c t).2.2.1,
          k0_pay13 (X1 m c t) (prevSt m c t).1 (prevSt m c t).2.1 (prevSt m c t).2.2.2)) := by
  rw [outsAt_C m c t h0 h3]
  unfold atC
  rw [stC_eq]

/-! ## The invariant at a point, case by case -/

/-- The key block at point t is key tile t % 4 of the point's batch. -/
theorem hX1 (t : Fin cfg0.N) (hk : t.val % 4 < 4) (j h : Fin 512) :
    X1 m c t (ix3 (0 : Fin 1) j h) = argO m c (ix3 (bOf t) ⟨t.val % 4 * 512 + j.val, by omega⟩ h) :=
  blk1 m c t j h

/-- A first key tile: the queries are the specification's, and the statistics are the recursion's after one tile. -/
theorem inv_A (t : Fin cfg0.N) (h0 : t.val % 4 = 0) : Inv m c t := by
  have hk : t.val % 4 < 4 := Nat.mod_lt _ (by decide)
  have e := outsAt_A' m c t h0
  have hq : ∀ (r : Fin 1024) (o : Fin 512), k0_pay3 (F := Ideal) (X0 m c t) (X2 m c t) (X3 m c t) (ix2 r o)
      = qv (argO m c) (argW m c) (argB m c) (bOf t) (sOf t r) o := fun r o =>
    q_first (argO m c) (argW m c) (argB m c) (bOf t) (sOf t r) r (X0 m c t) (X2 m c t) (X3 m c t)
      (fun h => blk0 m c t r h) (fun o h => blk2 m c t o h) (fun o => blk3 m c t o) o
  have hm : ∀ r : Fin 1024, k0_pay4 (F := Ideal) (ix2 r (0 : Fin 1))
      = mS (argO m c) (argW m c) (argB m c) (bOf t) (sOf t r) (t.val % 4) := fun r => by
    rw [h0]; exact pay4_apply r
  have hl : ∀ r : Fin 1024, k0_pay5 (F := Ideal) (ix2 r (0 : Fin 1))
      = lS (argO m c) (argW m c) (argB m c) (bOf t) (sOf t r) (t.val % 4) := fun r => by
    rw [h0]; exact pay5_apply r
  have ha : ∀ (r : Fin 1024) (h : Fin 512), k0_pay6 (F := Ideal) (ix2 r h)
      = aS (argO m c) (argW m c) (argB m c) (bOf t) (sOf t r) h (t.val % 4) := fun r h => by
    rw [h0]; exact pay6_apply r h
  refine ⟨fun r o => ?_, fun r => ?_, fun r => ?_, fun r h => ?_, fun h3 => absurd h3 (by omega)⟩
  · rw [e]; exact hq r o
  · rw [e]
    exact upd_m (argO m c) (argW m c) (argB m c) (bOf t) (sOf t r) (t.val % 4) hk r (X1 m c t)
      (k0_pay3 (F := Ideal) (X0 m c t) (X2 m c t) (X3 m c t)) (k0_pay4 (F := Ideal)) (hq r) (hX1 m c t hk) (hm r)
  · rw [e]
    exact upd_l (argO m c) (argW m c) (argB m c) (bOf t) (sOf t r) (t.val % 4) hk r (X1 m c t)
      (k0_pay3 (F := Ideal) (X0 m c t) (X2 m c t) (X3 m c t)) (k0_pay4 (F := Ideal)) (k0_pay5 (F := Ideal))
      (hq r) (hX1 m c t hk) (hm r) (hl r)
  · rw [e]
    exact upd_a (argO m c) (argW m c) (argB m c) (bOf t) (sOf t r) (t.val % 4) hk r (X1 m c t)
      (k0_pay3 (F := Ideal) (X0 m c t) (X2 m c t) (X3 m c t)) (k0_pay4 (F := Ideal)) (k0_pay6 (F := Ideal)) h
      (hq r) (hX1 m c t hk) (hm r) (ha r h)

/-- What the invariant at the point before says of the state a later tile starts from. -/
theorem prev_facts (t : Fin cfg0.N) (h0 : ¬t.val % 4 = 0) (ih : Inv m c (predPt t)) :
    (∀ (r : Fin 1024) (o : Fin 512), (prevSt m c t).1 (ix2 r o) = qv (argO m c) (argW m c) (argB m c) (bOf t) (sOf t r) o)
    ∧ (∀ r : Fin 1024, (prevSt m c t).2.1 (ix2 r (0 : Fin 1)) = mS (argO m c) (argW m c) (argB m c) (bOf t) (sOf t r) (t.val % 4))
    ∧ (∀ r : Fin 1024, (prevSt m c t).2.2.1 (ix2 r (0 : Fin 1)) = lS (argO m c) (argW m c) (argB m c) (bOf t) (sOf t r) (t.val % 4))
    ∧ (∀ (r : Fin 1024) (h : Fin 512), (prevSt m c t).2.2.2 (ix2 r h) = aS (argO m c) (argW m c) (argB m c) (bOf t) (sOf t r) h (t.val % 4)) := by
  refine ⟨fun r o => ?_, fun r => ?_, fun r => ?_, fun r h => ?_⟩
  · rw [← bOf_pred t h0, ← sOf_pred t h0 r]; exact ih.q r o
  · rw [← bOf_pred t h0, ← sOf_pred t h0 r, ← mod_pred t h0]; exact ih.mx r
  · rw [← bOf_pred t h0, ← sOf_pred t h0 r, ← mod_pred t h0]; exact ih.l r
  · rw [← bOf_pred t h0, ← sOf_pred t h0 r, ← mod_pred t h0]; exact ih.a r h

/-- A middle key tile: one step of the recursion from the state before. -/
theorem inv_B (t : Fin cfg0.N) (h0 : ¬t.val % 4 = 0) (h3 : ¬t.val % 4 = 3) (ih : Inv m c (predPt t)) : Inv m c t := by
  have hk : t.val % 4 < 4 := Nat.mod_lt _ (by decide)
  have e := outsAt_B' m c t h0 h3
  obtain ⟨hq, hm, hl, ha⟩ := prev_facts m c t h0 ih
  refine ⟨fun r o => ?_, fun r => ?_, fun r => ?_, fun r h => ?_, fun h3' => absurd h3' h3⟩
  · rw [e]; exact hq r o
  · rw [e]
    exact upd_m (argO m c) (argW m c) (argB m c) (bOf t) (sOf t r) (t.val % 4) hk r (X1 m c t)
      (prevSt m c t).1 (prevSt m c t).2.1 (hq r) (hX1 m c t hk) (hm r)
  · rw [e]
    exact upd_l (argO m c) (argW m c) (argB m c) (bOf t) (sOf t r) (t.val % 4) hk r (X1 m c t)
      (prevSt m c t).1 (prevSt m c t).2.1 (prevSt m c t).2.2.1 (hq r) (hX1 m c t hk) (hm r) (hl r)
  · rw [e]
    exact upd_a (argO m c) (argW m c) (argB m c) (bOf t) (sOf t r) (t.val % 4) hk r (X1 m c t)
      (prevSt m c t).1 (prevSt m c t).2.1 (prevSt m c t).2.2.2 h (hq r) (hX1 m c t hk) (hm r) (ha r h)

/-- A last key tile: one more step, and the output block is the recursion's quotient after the four tiles. -/
theorem inv_C (t : Fin cfg0.N) (h0 : ¬t.val % 4 = 0) (h3 : t.val % 4 = 3) (ih : Inv m c (predPt t)) : Inv m c t := by
  have hk : t.val % 4 < 4 := Nat.mod_lt _ (by decide)
  have e := outsAt_C' m c t h0 h3
  obtain ⟨hq, hm, hl, ha⟩ := prev_facts m c t h0 ih
  refine ⟨fun r o => ?_, fun r => ?_, fun r => ?_, fun r h => ?_, fun _ r h => ?_⟩
  · rw [e]; exact hq r o
  · rw [e]
    exact upd_m (argO m c) (argW m c) (argB m c) (bOf t) (sOf t r) (t.val % 4) hk r (X1 m c t)
      (prevSt m c t).1 (prevSt m c t).2.1 (hq r) (hX1 m c t hk) (hm r)
  · rw [e]
    exact upd_l (argO m c) (argW m c) (argB m c) (bOf t) (sOf t r) (t.val % 4) hk r (X1 m c t)
      (prevSt m c t).1 (prevSt m c t).2.1 (prevSt m c t).2.2.1 (hq r) (hX1 m c t hk) (hm r) (hl r)
  · rw [e]
    exact upd_a (argO m c) (argW m c) (argB m c) (bOf t) (sOf t r) (t.val % 4) hk r (X1 m c t)
      (prevSt m c t).1 (prevSt m c t).2.1 (prevSt m c t).2.2.2 h (hq r) (hX1 m c t hk) (hm r) (ha r h)
  · have key := fin_o (argO m c) (argW m c) (argB m c) (bOf t) (sOf t r) (t.val % 4) hk r (X1 m c t)
      (prevSt m c t).1 (prevSt m c t).2.1 (prevSt m c t).2.2.1 (prevSt m c t).2.2.2 h
      (hq r) (hX1 m c t hk) (hm r) (hl r) (ha r h)
    rw [h3] at key
    rw [e]
    exact key

/-! ## Every point -/

/-- The invariant at a point follows from the invariant at the point before (not needed at a first key tile). -/
theorem inv_step (t : Fin cfg0.N) (ih : ¬t.val % 4 = 0 → Inv m c (predPt t)) : Inv m c t := by
  by_cases h0 : t.val % 4 = 0
  · exact inv_A m c t h0
  · by_cases h3 : t.val % 4 = 3
    · exact inv_C m c t h0 h3 (ih h0)
    · exact inv_B m c t h0 h3 (ih h0)

/-- After every grid point the scratch buffers hold the specification's queries and the online recursion's
    statistics after the point's key tile, and after a last key tile the output block holds the quotient. -/
theorem inv_all (m : (ℓ : Loc nD τ sig) → Buf (Elt Ideal) ℓ) (c : Dev nD) :
    ∀ (n : ℕ) (hn : n < cfg0.N), Inv m c ⟨n, hn⟩ := by
  intro n
  induction n with
  | zero => exact fun hn => inv_step m c ⟨0, hn⟩ (fun h => absurd (Nat.zero_mod 4) h)
  | succ n ih => exact fun hn => inv_step m c ⟨n + 1, hn⟩ (fun _ => ih (Nat.lt_of_succ_lt hn))

end Cert.KernelIdeal.Hand

end
-- ==== Proof.FrameKI.Frame.lean ====
/-
  The attention kernel's frame, part 4: the launch. The one input array that two windows read (a query
  tile and a key tile of the same tensor) is held half by each window; the region runs from the entry
  contents to the arrays the proof data computes; the three arguments end as launched.
-/
import proofs.«155556_j2886218023414_2_alg».proof.Proof.FrameKI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input array shared by two windows -/

/-- The distinct buffers behind the five windows' arrays. -/
theorem arrRefs_eq : Finset.univ.image (Pipeline.arrRef spec0) = ([main_arg0, main_v0, main_v1, main_v2] : List (Ref sig .tc)).toFinset := by decide

/-- The buffers behind the arrays, one by one. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v0) ↦{fullShare} Vv main_v0) ∗ (((c : Thread nD τ).loc main_v1) ↦{fullShare} Vv main_v1) ∗ (((c : Thread nD τ).loc main_v2) ↦{fullShare} Vv main_v2)) := by
  unfold Pipeline.arrBufs
  exact bigSep_eq_bigSepL_of_eq [main_arg0, main_v0, main_v1, main_v2] arrRefs_eq (by decide) _

/-- The buffers behind the arrays, each whole at the entry contents, make the proof data's arrays at entry:
    the shared input's full share is split in two halves, one per window reading it. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ, (arr_whole0 4).set_eq_univ]
  iintro ⟨H0, Hw, Hb, Ho⟩
  ihave H01 := (pointsTo_share (PosShare.mem_left_op_right fullShare)).1 $$ H0
  icases H01 with ⟨Hl, Hr⟩
  isplitl [Hl]; · iexact Hl
  isplitl [Hr]; · iexact Hr
  isplitl [Hw]; · iexact Hw
  isplitl [Hb]; · iexact Hb
  iexact Ho

/-! ## The run -/

/-- The pipeline's launch element. -/
def u₀ : UR sig nD τ := initOf (Pipeline.cells cfgs cellOf_inj) (Pipeline.launchToks cfgs cellOf_inj)

/-- Every weakly fair execution of @main terminates, nothing faulting; every window's array ends at what the
    proof data computes, every other unscoped buffer at its contents at the region's entry. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the three argument arrays end as launched — the shared input read off either of its windows,
    the weight and the bias among the buffers that bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.KernelIdeal.Hand

end
-- ==== Proof.Finite.lean ====
/-
  Finite inputs are real-valued.

  The precondition says, of each of the three argument arrays, that every entry's absolute value is below +∞
  (an entry-wise comparison, folded by "and" from true, the three results joined by "and"). On the extended reals
  an element whose absolute value max x (−x) is below +∞ is neither +∞ nor −∞, so it is a real number.
-/
import proofs.«155556_j2886218023414_2_alg».proof.Defs
import Idealize.ShloMosaic.Lib.ReduceAll
import Idealize.ShloMosaic.Lib.ValueIdx

noncomputable section

namespace Cert.Attn

open Idealize.ShloMosaic Idealize.SL.Sem

/-- The scalar shape has one index. -/
instance subsingleton_scalarIdx : Subsingleton Cert.Pre_finite_inputs.S_.Idx := ⟨fun _ _ => funext fun d => d.elim0⟩

/-- The bit pattern of +∞ denotes +∞. -/
theorem ofBits_posInf : Ideal.ofBits .f32 0x7F800000#32 = (⊤ : EReal) := by
  simp [Ideal.ofBits, Ideal.ieee]

/-- An extended real whose absolute value compares below +∞ is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  induction x using EReal.rec with
  | bot =>
    exfalso
    have h' : Ideal.cmp .olt (max (⊥ : EReal) (-⊥)) (Ideal.ofBits .f32 0x7F800000#32) = 1#1 := h
    rw [ofBits_posInf] at h'
    simp [Ideal.cmp] at h'
  | top =>
    exfalso
    have h' : Ideal.cmp .olt (max (⊤ : EReal) (-⊤)) (Ideal.ofBits .f32 0x7F800000#32) = 1#1 := h
    rw [ofBits_posInf] at h'
    simp [Ideal.cmp] at h'
  | coe r => exact ⟨r, rfl⟩

/-- An array whose entry-wise test "absolute value below +∞", folded by "and" over every axis, is true has only real entries. -/
theorem all_real {s : Shape} {axes : List (Fin s.rank)} (x : FVec Ideal s .f32)
    (bc : Cert.Pre_finite_inputs.S_.BroadcastsInDim s (![] : Fin 0 → Fin s.rank))
    (h' : s.ReducesTo axes Cert.Pre_finite_inputs.S_) (hu : 0 < Cert.Pre_finite_inputs.S_.numel)
    (e : Host.reduce IntOp.andi
        (cmpf .olt (Host.absf x) (broadcastInDim s ![] bc (constant (F := Ideal) Cert.Pre_finite_inputs.S_ .f32 0x7F800000#32)))
        (constantI Cert.Pre_finite_inputs.S_ 1 1#1) h' hu ValueIdx.ix0 = 1#1) (i : s.Idx) :
    ∃ r : ℝ, x i = (r : EReal) :=
  real_of_abs_lt_inf (x i) (Host.reduce_andi_all _ _ h' hu ValueIdx.ix0 e i)

variable [hP : Cert.Pre_finite_inputs.Facts]

/-- Under the precondition every entry of each of the three argument arrays is a real, on every device. -/
theorem finite_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S8x2048x512.Idx, ∃ r : ℝ,
        (m ((c.tc : Thread Cert.KernelIdeal.nD Cert.KernelIdeal.τ).loc Cert.KernelIdeal.main_arg0)
          : FVec Ideal Cert.Pre_finite_inputs.S8x2048x512 .f32) i = (r : EReal))
    ∧ (∀ i : Cert.Pre_finite_inputs.S512x512.Idx, ∃ r : ℝ,
        (m ((c.tc : Thread Cert.KernelIdeal.nD Cert.KernelIdeal.τ).loc Cert.KernelIdeal.main_arg1)
          : FVec Ideal Cert.Pre_finite_inputs.S512x512 .f32) i = (r : EReal))
    ∧ (∀ i : Cert.Pre_finite_inputs.S512.Idx, ∃ r : ℝ,
        (m ((c.tc : Thread Cert.KernelIdeal.nD Cert.KernelIdeal.τ).loc Cert.KernelIdeal.main_arg2)
          : FVec Ideal Cert.Pre_finite_inputs.S512 .f32) i = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨all_real _ _ _ _ h0', all_real _ _ _ _ h1, all_real _ _ _ _ h2⟩

/-- Every entry of the first argument array (the attended array) is a real. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S8x2048x512.Idx) :
    ∃ r : ℝ, (m ((c.tc : Thread Cert.KernelIdeal.nD Cert.KernelIdeal.τ).loc Cert.KernelIdeal.main_arg0)
      : FVec Ideal Cert.Pre_finite_inputs.S8x2048x512 .f32) i = (r : EReal) :=
  (finite_args m h c).1 i

/-- Every entry of the second argument array (the matrix of the linear layer) is a real. -/
theorem arg1_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S512x512.Idx) :
    ∃ r : ℝ, (m ((c.tc : Thread Cert.KernelIdeal.nD Cert.KernelIdeal.τ).loc Cert.KernelIdeal.main_arg1)
      : FVec Ideal Cert.Pre_finite_inputs.S512x512 .f32) i = (r : EReal) :=
  (finite_args m h c).2.1 i

/-- Every entry of the third argument array (the bias of the linear layer) is a real. -/
theorem arg2_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S512.Idx) :
    ∃ r : ℝ, (m ((c.tc : Thread Cert.KernelIdeal.nD Cert.KernelIdeal.τ).loc Cert.KernelIdeal.main_arg2)
      : FVec Ideal Cert.Pre_finite_inputs.S512 .f32) i = (r : EReal) :=
  (finite_args m h c).2.2 i

end Cert.Attn

end
-- ==== Proof.FrameKI.Final.lean ====
/-
  The attention kernel's value: the result array after the run is the specification's softmax attention of
  the three arguments. What a last key tile writes back is, entry by entry, the online recursion's quotient
  after four tiles, which is the softmax-weighted sum because every input is finite; the sixteen query tiles'
  blocks cover the result array.
-/
import proofs.«155556_j2886218023414_2_alg».proof.Proof.FrameKI.Inv
import proofs.«155556_j2886218023414_2_alg».proof.Proof.FrameKI.Frame
import proofs.«155556_j2886218023414_2_alg».proof.Proof.Finite
import proofs.«155556_j2886218023414_2_alg».proof.Proof.KPay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Attn

variable [hP : Cert.Pre_finite_inputs.Facts]
variable (m : (ℓ : Loc nD τ sig) → Buf (Elt Ideal) ℓ) (ρ : Dev nD → PrngReg)

/-- The specification's result, as contents of the result array. -/
def G (c : Dev nD) : Buf (Elt Ideal) ((c : Thread nD τ).loc main_v2) :=
  fun i => out (argO m c) (argW m c) (argB m c) (i 0) (i 1) (i 2)

/-- What a last key tile writes back is its block of the specification's result. -/
theorem flushed_eq (hpre : Cert.Pre_KernelIdeal m) (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  show (cfg0.win 4).cut (grid0.coords t) ((dats m 0 c).after 4 t) = _
  rw [after4]
  funext j
  obtain ⟨r, h, rfl⟩ := Cert.Attn.KPay.idx_block j
  show ((outsAt m c t.val t.isLt).1 : S1x1024x512.Idx → EReal) (ix3 (0 : Fin 1) r h)
    = G m c (((cfg0.win 4).blk t).view.emb (ix3 (0 : Fin 1) r h : S1x1024x512.Idx) : S8x2048x512.Idx)
  rw [emb4, (inv_all m c t.val t.isLt).o h3 r h]
  exact online_out (argO m c) (argW m c) (argB m c) (Cert.Attn.arg0_real m hpre c) (Cert.Attn.arg1_real m hpre c)
    (Cert.Attn.arg2_real m hpre c) (bOf t) (sOf t r) h

/-- The result array after the run. -/
theorem final (hpre : Cert.Pre_KernelIdeal m) (c : Dev nD) : (dats m 0 c).arrAt 4 cfg0.N = G m c :=
  (dats m 0 c).arrAt_eq_of_cover 4 (G m c) (fun t hf => flushed_eq m hpre c t hf) cover4

/-- The run, read: the result array at the specification's result, the three arguments as launched. -/
theorem run_value (hpre : Cert.Pre_KernelIdeal m) :
    θ_run defs (onTc (τ := τ) (main (F := Ideal))) ⟨m, fun _ => 0, ρ⟩ (fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans (final m hpre c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main (F := Ideal) m ρ)

end Cert.KernelIdeal.Hand

end
-- ==== Proof.RefRead.lean ====
/-
  The reference program computes softmax attention: its last stage, read at an index, is the function `out`.

  Each stage of the program is read at an index built from explicit coordinates: the query (a contraction over the
  512 features, the bias broadcast along batches and rows, tanh), the scores (a contraction over the features within a
  batch), the row maximum (a fold of max from −∞ over the columns, then a maximum with −∞ again, which changes
  nothing), the shifted exponentials (the row maximum broadcast along the columns), the denominator (a sum over the
  columns starting from zero, which adds nothing), and the weighted sum of the rows.
-/
import proofs.«155556_j2886218023414_2_alg».proof.Proof.Gen.ReferenceIdeal.Read
import proofs.«155556_j2886218023414_2_alg».proof.Proof.RefSpec

noncomputable section

namespace Cert.Attn

open Idealize.ShloMosaic Idealize.ShloMosaic.ValueIdx Idealize.ShloMosaic.StableHlo
open Cert.ReferenceIdeal Cert.ReferenceIdeal.Gen Cert.ReferenceIdeal.Read

variable (x0 : (⟨S8x2048x512, .f32⟩ : BufTy).Contents (Elt Ideal)) (x1 : (⟨S512x512, .f32⟩ : BufTy).Contents (Elt Ideal))
  (x2 : (⟨S512, .f32⟩ : BufTy).Contents (Elt Ideal))

/-! ## The index maps of the stages, at coordinates -/

theorem lidx_v0 (b : Fin 8) (s : Fin 2048) (o k : Fin 512) : lidx_main_v0 (ix3 b s o) k = ix3 b s k :=
  funext fun a => Fin.ext (by match a with | ⟨0, _⟩ => rfl | ⟨1, _⟩ => rfl | ⟨2, _⟩ => rfl)
theorem ridx_v0 (b : Fin 8) (s : Fin 2048) (o k : Fin 512) : ridx_main_v0 (ix3 b s o) k = ix2 o k :=
  funext fun a => Fin.ext (by match a with | ⟨0, _⟩ => rfl | ⟨1, _⟩ => rfl)
theorem idx_v1v2 (b : Fin 8) (s : Fin 2048) (o : Fin 512) : idx_main_v1 (idx_main_v2 (ix3 b s o)) = ix1 o :=
  funext fun a => Fin.ext (by match a with | ⟨0, _⟩ => rfl)
theorem lidx_v5 (b : Fin 8) (s t : Fin 2048) (k : Fin 512) : lidx_main_v5 (ix3 b s t) k = ix3 b s k :=
  funext fun a => Fin.ext (by match a with | ⟨0, _⟩ => rfl | ⟨1, _⟩ => rfl | ⟨2, _⟩ => rfl)
theorem ridx_v5 (b : Fin 8) (s t : Fin 2048) (k : Fin 512) : ridx_main_v5 (ix3 b s t) k = ix3 b t k :=
  funext fun a => Fin.ext (by match a with | ⟨0, _⟩ => rfl | ⟨1, _⟩ => rfl | ⟨2, _⟩ => rfl)
theorem idx_v9v10 (b : Fin 8) (s t : Fin 2048) : idx_main_v9 (idx_main_v10 (ix3 b s t)) = ix2 b s :=
  funext fun a => Fin.ext (by match a with | ⟨0, _⟩ => rfl | ⟨1, _⟩ => rfl)
theorem idx_v13 (b : Fin 8) (s k : Fin 2048) : idx_main_v13 (ix2 b s) k = ix3 b s k :=
  funext fun a => Fin.ext (by match a with | ⟨0, _⟩ => rfl | ⟨1, _⟩ => rfl | ⟨2, _⟩ => rfl)
theorem idx_v14v15 (b : Fin 8) (s t : Fin 2048) : idx_main_v14 (idx_main_v15 (ix3 b s t)) = ix2 b s :=
  funext fun a => Fin.ext (by match a with | ⟨0, _⟩ => rfl | ⟨1, _⟩ => rfl)
theorem lidx_v17 (b : Fin 8) (s : Fin 2048) (h : Fin 512) (k : Fin 2048) : lidx_main_v17 (ix3 b s h) k = ix3 b s k :=
  funext fun a => Fin.ext (by match a with | ⟨0, _⟩ => rfl | ⟨1, _⟩ => rfl | ⟨2, _⟩ => rfl)
theorem ridx_v17 (b : Fin 8) (s : Fin 2048) (h : Fin 512) (k : Fin 2048) : ridx_main_v17 (ix3 b s h) k = ix3 b k h :=
  funext fun a => Fin.ext (by match a with | ⟨0, _⟩ => rfl | ⟨1, _⟩ => rfl | ⟨2, _⟩ => rfl)

/-! ## The stages at coordinates -/

/-- The query stage: tanh of the linear layer. -/
theorem q_read (b : Fin 8) (s : Fin 2048) (o : Fin 512) :
    val_main_v4 (F := Ideal) x0 x1 x2 (ix3 b s o) = qv x0 x1 x2 b s o := by
  rw [val_main_v4_apply, val_main_v3_apply, val_main_v0_apply, val_main_v2_apply, val_main_v1_apply]
  simp only [lidx_v0, ridx_v0, idx_v1v2, Ideal.hostUnary_tanh_def, Ideal.addf_def]
  rfl

/-- The score stage: the query contracted with a row of the same batch. -/
theorem score_read (b : Fin 8) (s t : Fin 2048) :
    val_main_v5 (F := Ideal) x0 x1 x2 (ix3 b s t) = score x0 x1 x2 b s t := by
  rw [val_main_v5_apply]
  simp only [lidx_v5, ridx_v5, q_read]
  rfl

/-- Axis 2 of [8, 2048, 2048] dropped leaves [8, 2048]. -/
theorem reduces_cols : S8x2048x2048.Reduces [2] S8x2048 := by decide

/-- The reduced index (b, s) with column k put back is (b, s, k). -/
theorem lift_cols (b : Fin 8) (s : Fin 2048) (k : Fin (S8x2048x2048.size 2)) :
    reduces_cols.lift (ix2 b s) k = ix3 b s (⟨k.val, k.isLt⟩ : Fin 2048) := by
  funext c; apply Fin.ext
  fin_cases c <;> rfl

/-- The max-reduce over the columns, from −∞, at (b, s), and the maximum with −∞ after it: the row maximum. -/
theorem max_read (b : Fin 8) (s : Fin 2048) :
    val_main_v8 (F := Ideal) x0 x1 x2 (ix2 b s) = rowMax x0 x1 x2 b s := by
  rw [val_main_v8_apply, val_main_v7_apply, val_main_cst_0_apply]
  unfold val_main_v6
  have hr := Host.reduce_eq_fold_single (FloatOps.maximumf (F := Ideal) (φ := .f32)) (val_main_v5 (F := Ideal) x0 x1 x2)
    (val_main_cst (F := Ideal)) reducesTo_S8x2048x2048_S8x2048_d2 reduces_cols h_S_ (ix2 b s)
  rw [hr, val_main_cst_apply]
  simp only [Ideal.ofBits_def, Ideal.maximumf_def, ofBits_negInf, bot_le, max_eq_right]
  have hf : (val_main_v5 (F := Ideal) x0 x1 x2 ∘ reduces_cols.lift (ix2 b s))
      = fun t : Fin 2048 => score x0 x1 x2 b s t :=
    funext fun k => (congrArg (val_main_v5 (F := Ideal) x0 x1 x2) (lift_cols b s k)).trans (score_read x0 x1 x2 b s _)
  unfold rowMax
  exact congrArg (fun f => Finset.fold max (⊥ : EReal) f (Finset.univ : Finset (Fin 2048))) hf

/-- The shifted exponential stage. -/
theorem e_read (b : Fin 8) (s t : Fin 2048) :
    val_main_v12 (F := Ideal) x0 x1 x2 (ix3 b s t) = e x0 x1 x2 b s t := by
  rw [val_main_v12_apply, val_main_v11_apply, val_main_v10_apply, val_main_v9_apply]
  simp only [idx_v9v10, max_read, score_read, Ideal.hostUnary_exp_def, Ideal.subf_def]
  rfl

/-- The denominator stage: zero plus the sum over the columns. -/
theorem den_read (b : Fin 8) (s : Fin 2048) :
    val_main_v13 (F := Ideal) x0 x1 x2 (ix2 b s) = den x0 x1 x2 b s := by
  rw [val_main_v13_apply, val_main_cst_1_apply]
  simp only [idx_v13, e_read, Ideal.ofBits_def, Ideal.ofBits_zero_f32, zero_add]
  rfl

/-- The last stage at coordinates: the attention output. -/
theorem out_read (b : Fin 8) (s : Fin 2048) (h : Fin 512) :
    val_main_v17 (F := Ideal) x0 x1 x2 (ix3 b s h) = out x0 x1 x2 b s h := by
  rw [val_main_v17_apply]
  simp only [lidx_v17, ridx_v17, val_main_v16_apply, val_main_v15_apply, val_main_v14_apply, idx_v14v15, e_read, den_read,
    Ideal.hostDivf_def]
  rfl

/-- The reference's last stage is `out` at every index. -/
theorem ref_is_spec :
    val_main_v17 (F := Ideal) x0 x1 x2 = fun i : S8x2048x512.Idx => out x0 x1 x2 (i 0) (i 1) (i 2) := by
  funext i
  obtain ⟨b, s, h, rfl⟩ : ∃ (b : Fin 8) (s : Fin 2048) (h : Fin 512), i = ix3 b s h := ⟨i 0, i 1, i 2, eq_ix3 i⟩
  exact out_read x0 x1 x2 b s h

end Cert.Attn

end
-- ==== Proof.lean ====
/-
  Tanh-projected self-attention: a flash-attention kernel (online softmax over four key tiles of 512, grid
  8 × 2 × 4, the query projection kept in scratch across a query tile's key tiles) against softmax attention
  written with einsums. At the ideal values both compute, for every batch b, row s and column h,
  Σ_t softmax_t(Q[b,s,:]·O[b,t,:]) · O[b,t,h] with Q = tanh(O·Wᵀ + bias): the kernel's rescaling by
  exp(m_old − m_new) telescopes because every score is a real number under the precondition.
-/
import proofs.«155556_j2886218023414_2_alg».proof.Defs
import proofs.«155556_j2886218023414_2_alg».proof.Proof.Gen.Kernel
import proofs.«155556_j2886218023414_2_alg».proof.Proof.Gen.KernelIdeal
import proofs.«155556_j2886218023414_2_alg».proof.Proof.Gen.ReferenceIdeal
import proofs.«155556_j2886218023414_2_alg».proof.Proof.Gen.ReferenceIdeal.Run
import proofs.«155556_j2886218023414_2_alg».proof.Proof.Gen.ReferenceIdeal.Read
import proofs.«155556_j2886218023414_2_alg».proof.Proof.Gen.Pre_finite_inputs
import proofs.«155556_j2886218023414_2_alg».proof.Proof.FrameK.Frame
import proofs.«155556_j2886218023414_2_alg».proof.Proof.FrameKI.Final
import proofs.«155556_j2886218023414_2_alg».proof.Proof.RefRead
import Idealize.ShloMosaic.Adequacy
import Idealize.ShloMosaic.Init

noncomputable section

namespace Cert.Proof

open Idealize.ShloMosaic Idealize.SL.Sem

/-- The five claims: both kernel programs run to the end with their arguments unchanged (the frame: the launch with
    the query/key tensor shared between two windows); the reference's frame is its run with the result dropped;
    no operation was rewritten by the idealization; and at the ideal values the kernel's result array and the
    reference's result are the same softmax attention of the arguments. -/
theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  fun m ρ m' ρ' hpre hagree => ⟨fun c => Cert.KernelIdeal.Hand.G m c, Cert.KernelIdeal.Hand.run_value m ρ hpre,
    (θ_run Cert.ReferenceIdeal.defs _ _).mono (fun _ h c => ⟨by
        rw [(h c).1, Cert.ReferenceIdeal.Read.val_main_v17_eq, Cert.Attn.ref_is_spec, (hagree c).1, (hagree c).2.1, (hagree c).2.2]
        rfl, (h c).2⟩)
      (Cert.ReferenceIdeal.Value.run (F := Ideal) m' ρ')⟩⟩

end Cert.Proof

end
